-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg22 : FVec F S128x64 .f32) (main_arg23 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S128x64 .f32 := Host.absf main_arg22
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg23
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  main_v113

def fn_part5 {F : FTy → Type} [FloatOps F] (main_arg19 : FVec F S128 .f32) (main_arg20 : FVec F S128x64 .f32) (main_arg21 : FVec F S64 .f32) (main_arg22 : FVec F S128x64 .f32) (main_arg23 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg20
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S128 .f32) (main_arg16 : FVec F S128x128 .f32) (main_arg17 : FVec F S128 .f32) (main_arg18 : FVec F S128 .f32) (main_arg19 : FVec F S128 .f32) (main_arg20 : FVec F S128x64 .f32) (main_arg21 : FVec F S64 .f32) (main_arg22 : FVec F S128x64 .f32) (main_arg23 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x64 .f32) (main_arg21 : FVec F S64 .f32) (main_arg22 : FVec F S128x64 .f32) (main_arg23 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x64 .f32) (main_arg21 : FVec F S64 .f32) (main_arg22 : FVec F S128x64 .f32) (main_arg23 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x64 .f32) (main_arg21 : FVec F S64 .f32) (main_arg22 : FVec F S128x64 .f32) (main_arg23 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x64 .f32) (main_arg21 : FVec F S64 .f32) (main_arg22 : FVec F S128x64 .f32) (main_arg23 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 72
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128x64, .f32⟩
  | .hbm, ⟨21, _⟩ => ⟨S64, .f32⟩
  | .hbm, ⟨22, _⟩ => ⟨S128x64, .f32⟩
  | .hbm, ⟨23, _⟩ => ⟨S64, .f32⟩
  | .hbm, ⟨24, _⟩ => ⟨S1x1600000, .i32⟩
  | .hbm, ⟨25, _⟩ => ⟨S1600000, .i32⟩
  | .hbm, ⟨26, _⟩ => ⟨S1x1600000, .i32⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S64, .f32⟩
  | .local _ .vmem, ⟨40, _⟩ => ⟨S128x64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_1 : Ref sig .tc := ⟨.hbm, 42, rfl⟩
abbrev main_v15 : Ref sig .tc := ⟨.hbm, 43, rfl⟩
abbrev main_v16 : Ref sig .tc := ⟨.hbm, 44, rfl⟩
abbrev main_c_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_4 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37_0 : Ref sig .tc := ⟨.hbm, 70, rfl⟩
abbrev main_v37_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc3_sem6_0 : DmaSem sig := 44
abbrev cc3_sem6_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg19) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v36) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg20) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg21) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg22) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg23) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v37_1) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 255
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S128x64, .f32⟩
  | 21 => ⟨S64, .f32⟩
  | 22 => ⟨S128x64, .f32⟩
  | 23 => ⟨S64, .f32⟩
  | 24 => ⟨S1x1600000, .i32⟩
  | 25 => ⟨S1600000, .i32⟩
  | 26 => ⟨S1x1600000, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S_, .i32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S100000x128, .f32⟩
  | 72 => ⟨S_, .f32⟩
  | 73 => ⟨S_, .f32⟩
  | 74 => ⟨S_, .f32⟩
  | 75 => ⟨S_, .f32⟩
  | 76 => ⟨S100000, .f32⟩
  | 77 => ⟨S100000x1, .f32⟩
  | 78 => ⟨S100000x1, .f32⟩
  | 79 => ⟨S100000x1, .f32⟩
  | 80 => ⟨S_, .f32⟩
  | 81 => ⟨S_, .i1⟩
  | 82 => ⟨S_, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S_, .f32⟩
  | 89 => ⟨S100000x1, .f32⟩
  | 90 => ⟨S100000x1, .f32⟩
  | 91 => ⟨S100000x1, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S_, .i32⟩
  | 7 => ⟨S_, .f32⟩
  | 8 => ⟨S100000, .f32⟩
  | 9 => ⟨S100000x1, .f32⟩
  | 10 => ⟨S_, .f32⟩
  | 11 => ⟨S100000x1, .f32⟩
  | 12 => ⟨S100000x1, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S100000, .f32⟩
  | 21 => ⟨S100000x1, .f32⟩
  | 22 => ⟨S100000x1, .f32⟩
  | 23 => ⟨S100000x1, .f32⟩
  | 24 => ⟨S_, .f32⟩
  | 25 => ⟨S_, .i1⟩
  | 26 => ⟨S_, .f32⟩
  | 27 => ⟨S_, .f32⟩
  | 28 => ⟨S100000x1, .f32⟩
  | 29 => ⟨S100000x1, .f32⟩
  | 30 => ⟨S100000x128, .f32⟩
  | 31 => ⟨S100000x128, .f32⟩
  | 32 => ⟨S_, .f32⟩
  | 33 => ⟨S100000x1, .f32⟩
  | 34 => ⟨S100000x1, .f32⟩
  | 35 => ⟨S100000x1, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S_, .i32⟩
  | 79 => ⟨S_, .f32⟩
  | 80 => ⟨S100000, .f32⟩
  | 81 => ⟨S100000x1, .f32⟩
  | 82 => ⟨S_, .f32⟩
  | 83 => ⟨S100000x1, .f32⟩
  | 84 => ⟨S100000x1, .f32⟩
  | 85 => ⟨S100000x128, .f32⟩
  | 86 => ⟨S100000x128, .f32⟩
  | 87 => ⟨S100000x128, .f32⟩
  | 88 => ⟨S_, .f32⟩
  | 89 => ⟨S_, .f32⟩
  | 90 => ⟨S_, .f32⟩
  | 91 => ⟨S_, .f32⟩
  | 92 => ⟨S100000, .f32⟩
  | 93 => ⟨S100000x1, .f32⟩
  | 94 => ⟨S100000x1, .f32⟩
  | 95 => ⟨S100000x1, .f32⟩
  | 96 => ⟨S_, .f32⟩
  | 97 => ⟨S_, .i1⟩
  | 98 => ⟨S_, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S_, .f32⟩
  | 105 => ⟨S100000x1, .f32⟩
  | 106 => ⟨S100000x1, .f32⟩
  | 107 => ⟨S100000x1, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_cst : Ref sig .tc := ⟨.hbm, 46, rfl⟩
abbrev main_call0_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call1_cst : Ref sig .tc := ⟨.hbm, 53, rfl⟩
abbrev main_call1_v0 : Ref sig .tc := ⟨.hbm, 54, rfl⟩
abbrev main_v24 : Ref sig .tc := ⟨.hbm, 55, rfl⟩
abbrev main_cst_1 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_c_3 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_cst_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_cst_1 : Ref sig .tc := ⟨.hbm, 73, rfl⟩
abbrev main_call2_v8 : Ref sig .tc := ⟨.hbm, 74, rfl⟩
abbrev main_call2_cst_2 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_cst_3 : Ref sig .tc := ⟨.hbm, 80, rfl⟩
abbrev main_call2_v13 : Ref sig .tc := ⟨.hbm, 81, rfl⟩
abbrev main_call2_cst_4 : Ref sig .tc := ⟨.hbm, 82, rfl⟩
abbrev main_call2_call0_v0 : Ref sig .tc := ⟨.hbm, 83, rfl⟩
abbrev main_call2_call0_v1 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_4 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_c_5 : Ref sig .tc := ⟨.hbm, 100, rfl⟩
abbrev main_v43 : Ref sig .tc := ⟨.hbm, 101, rfl⟩
abbrev main_v44 : Ref sig .tc := ⟨.hbm, 102, rfl⟩
abbrev main_c_6 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_7 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_call3_cst : Ref sig .tc := ⟨.hbm, 118, rfl⟩
abbrev main_call3_v0 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_call4_cst : Ref sig .tc := ⟨.hbm, 125, rfl⟩
abbrev main_call4_v0 : Ref sig .tc := ⟨.hbm, 126, rfl⟩
abbrev main_v63 : Ref sig .tc := ⟨.hbm, 127, rfl⟩
abbrev main_cst_8 : Ref sig .tc := ⟨.hbm, 128, rfl⟩
abbrev main_v64 : Ref sig .tc := ⟨.hbm, 129, rfl⟩
abbrev main_v65 : Ref sig .tc := ⟨.hbm, 130, rfl⟩
abbrev main_cst_9 : Ref sig .tc := ⟨.hbm, 131, rfl⟩
abbrev main_v66 : Ref sig .tc := ⟨.hbm, 132, rfl⟩
abbrev main_v67 : Ref sig .tc := ⟨.hbm, 133, rfl⟩
abbrev main_c_10 : Ref sig .tc := ⟨.hbm, 134, rfl⟩
abbrev main_call5_cst : Ref sig .tc := ⟨.hbm, 135, rfl⟩
abbrev main_call5_v0 : Ref sig .tc := ⟨.hbm, 136, rfl⟩
abbrev main_call5_v1 : Ref sig .tc := ⟨.hbm, 137, rfl⟩
abbrev main_call5_cst_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_v6 : Ref sig .tc := ⟨.hbm, 143, rfl⟩
abbrev main_call5_v7 : Ref sig .tc := ⟨.hbm, 144, rfl⟩
abbrev main_call5_cst_1 : Ref sig .tc := ⟨.hbm, 145, rfl⟩
abbrev main_call5_v8 : Ref sig .tc := ⟨.hbm, 146, rfl⟩
abbrev main_call5_cst_2 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_v12 : Ref sig .tc := ⟨.hbm, 151, rfl⟩
abbrev main_call5_cst_3 : Ref sig .tc := ⟨.hbm, 152, rfl⟩
abbrev main_call5_v13 : Ref sig .tc := ⟨.hbm, 153, rfl⟩
abbrev main_call5_cst_4 : Ref sig .tc := ⟨.hbm, 154, rfl⟩
abbrev main_call5_call0_v0 : Ref sig .tc := ⟨.hbm, 155, rfl⟩
abbrev main_call5_call0_v1 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_cst_11 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_c_12 : Ref sig .tc := ⟨.hbm, 172, rfl⟩
abbrev main_v82 : Ref sig .tc := ⟨.hbm, 173, rfl⟩
abbrev main_v83 : Ref sig .tc := ⟨.hbm, 174, rfl⟩
abbrev main_c_13 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_cst_14 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_call6_cst : Ref sig .tc := ⟨.hbm, 190, rfl⟩
abbrev main_call6_v0 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_call7_cst : Ref sig .tc := ⟨.hbm, 197, rfl⟩
abbrev main_call7_v0 : Ref sig .tc := ⟨.hbm, 198, rfl⟩
abbrev main_v102 : Ref sig .tc := ⟨.hbm, 199, rfl⟩
abbrev main_cst_15 : Ref sig .tc := ⟨.hbm, 200, rfl⟩
abbrev main_v103 : Ref sig .tc := ⟨.hbm, 201, rfl⟩
abbrev main_v104 : Ref sig .tc := ⟨.hbm, 202, rfl⟩
abbrev main_cst_16 : Ref sig .tc := ⟨.hbm, 203, rfl⟩
abbrev main_v105 : Ref sig .tc := ⟨.hbm, 204, rfl⟩
abbrev main_v106 : Ref sig .tc := ⟨.hbm, 205, rfl⟩
abbrev main_c_17 : Ref sig .tc := ⟨.hbm, 206, rfl⟩
abbrev main_call8_cst : Ref sig .tc := ⟨.hbm, 207, rfl⟩
abbrev main_call8_v0 : Ref sig .tc := ⟨.hbm, 208, rfl⟩
abbrev main_call8_v1 : Ref sig .tc := ⟨.hbm, 209, rfl⟩
abbrev main_call8_cst_0 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_call8_v5 : Ref sig .tc := ⟨.hbm, 214, rfl⟩
abbrev main_call8_v6 : Ref sig .tc := ⟨.hbm, 215, rfl⟩
abbrev main_call8_v7 : Ref sig .tc := ⟨.hbm, 216, rfl⟩
abbrev main_call8_cst_1 : Ref sig .tc := ⟨.hbm, 217, rfl⟩
abbrev main_call8_v8 : Ref sig .tc := ⟨.hbm, 218, rfl⟩
abbrev main_call8_cst_2 : Ref sig .tc := ⟨.hbm, 219, rfl⟩
abbrev main_call8_v9 : Ref sig .tc := ⟨.hbm, 220, rfl⟩
abbrev main_call8_v10 : Ref sig .tc := ⟨.hbm, 221, rfl⟩
abbrev main_call8_v11 : Ref sig .tc := ⟨.hbm, 222, rfl⟩
abbrev main_call8_v12 : Ref sig .tc := ⟨.hbm, 223, rfl⟩
abbrev main_call8_cst_3 : Ref sig .tc := ⟨.hbm, 224, rfl⟩
abbrev main_call8_v13 : Ref sig .tc := ⟨.hbm, 225, rfl⟩
abbrev main_call8_cst_4 : Ref sig .tc := ⟨.hbm, 226, rfl⟩
abbrev main_call8_call0_v0 : Ref sig .tc := ⟨.hbm, 227, rfl⟩
abbrev main_call8_call0_v1 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_cst_18 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_call9_cst : Ref sig .tc := ⟨.hbm, 244, rfl⟩
abbrev main_call9_v0 : Ref sig .tc := ⟨.hbm, 245, rfl⟩
abbrev main_v121 : Ref sig .tc := ⟨.hbm, 246, rfl⟩
abbrev main_v122 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
import proofs.«161493_j33397665693785_1_alg».proof.Proof.Gen.KernelIdeal.Frame

set_option maxRecDepth 16384

/-! # The kernel's run, keeping its two results

The run of the four regions among the host stretches, read at the last boundary of the fold of buffer contents:
each result array ends at what the fold leaves there, and each argument array ends as launched. -/

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- Every weakly fair execution of @main on the TensorCores terminates without fault; in every final state each of
    the two results holds the last boundary's contents of its buffer, and every argument is as launched. -/
theorem run : θ_run defs (onTc (τ := τ) (main (F := F))) ⟨m, fun _ => 0, ρ⟩ (fun r => ∀ c : Dev nD,
      r.2.mem ((c.tc : Thread nD τ).loc main_v37_0) = Gen.W7 m ρ c (Proc.devRef .tc main_v37_0)
      ∧ r.2.mem ((c.tc : Thread nD τ).loc main_v37_1) = Gen.W7 m ρ c (Proc.devRef .tc main_v37_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v37_0 (by decide)),
       h c _ (mem_uc main_v37_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c),
       (h c _ (mem_uc main_arg22 (by decide))).trans (W7_main_arg22 m ρ c),
       (h c _ (mem_uc main_arg23 (by decide))).trans (W7_main_arg23 m ρ c)⟩)

end Cert.KernelIdeal.ValueRun

end
-- ==== Proof.KChain.lean ====
import proofs.«161493_j33397665693785_1_alg».proof.Proof.Gen.KernelIdeal.Frame
import Idealize.ShloMosaic.PureOps.Ideal

set_option maxRecDepth 16384

/-! # The run's buffer contents, walked through the regions

The generated frame folds the buffer contents through the run's segments (`Gen.W0` … `Gen.W7`). Here that fold is read
at the two result buffers: given, for each region, its result array as a function of the region's input arrays at ANY
entry contents (the hypotheses `hL0` … `hH1` of `outputs`), the last boundary's contents of the two results are the
two heads applied to three layers, each layer taking the previous node features, their neighbourhood sum along the
launch edge list, and its six parameter arrays as launched. -/

noncomputable section

namespace Cert.KernelIdeal.Chain

open Idealize.ShloMosaic Idealize.ShloMosaic.TcCoe Idealize.ShloMosaic.Tactic Idealize.SL.Sem
open Cert.KernelIdeal Cert.KernelIdeal.Gen

/-- The arrays of the network: node features, weight matrices, bias vectors, the projections, the edge list and one
    of its rows. -/
abbrev Nodes := (⟨S100000x128, .f32⟩ : BufTy).Contents (Elt Ideal)
abbrev Mat := (⟨S128x128, .f32⟩ : BufTy).Contents (Elt Ideal)
abbrev Vec128 := (⟨S128, .f32⟩ : BufTy).Contents (Elt Ideal)
abbrev Mat64 := (⟨S128x64, .f32⟩ : BufTy).Contents (Elt Ideal)
abbrev Vec64 := (⟨S64, .f32⟩ : BufTy).Contents (Elt Ideal)
abbrev Out := (⟨S100000x64, .f32⟩ : BufTy).Contents (Elt Ideal)
abbrev Edges := (⟨S2x1600000, .i32⟩ : BufTy).Contents (Elt Ideal)
abbrev EdgeCol := (⟨S1600000, .i32⟩ : BufTy).Contents (Elt Ideal)

/-- The sources: row 0 of the edge list. -/
def Src (e : Edges) : EdgeCol :=
  shapeCast S1600000 (extractStridedSlice S1x1600000 ![0, 0] e slices_S2x1600000_S1x1600000_0_0) shapeCasts_S1x1600000_S1600000

/-- The destinations: row 1 of the edge list. -/
def Dst (e : Edges) : EdgeCol :=
  shapeCast S1600000 (extractStridedSlice S1x1600000 ![1, 0] e slices_S2x1600000_S1x1600000_1_0) shapeCasts_S1x1600000_S1600000

/-- The neighbourhood sum of `x` along the edges `(s, d)`: the rows of `x` gathered by the sources (a negative
    source number first shifted up by the number of nodes) and scatter-added into a zero array by the destinations. -/
def AggOf (x : Nodes) (s d : EdgeCol) : Nodes :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-! ## What the host stretches write -/

/-- The references the operations of host stretch 0 write. -/
abbrev hostOps0_W : List (Ref sig .tc) := [main_v0, main_v1, main_v2, main_v3, main_c, main_v4, main_v5, main_c_0, main_v6, main_v7, main_v8, main_v9, main_v10, main_cst, main_v11, main_v12, main_v13]
theorem hostOps0_writes : (hostOps0 : List (HloOp τ sig (Elt Ideal))).Forall fun op =>
    op.writes ⊆ (hostOps0_W.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer host stretch 0 does not write keeps its contents. -/
theorem keep0 (Wp : Valuation τ sig (Elt Ideal)) (r : Ref sig .tc) (h : r ∉ hostOps0_W) :
    StableHlo.after (hostOps0 (F := Ideal)) Wp (Proc.devRef .tc r) = Wp (Proc.devRef .tc r) :=
  StableHlo.after_of_writes_sub hostOps0 Wp hostOps0_writes h

/-- The references the operations of host stretch 1 write. -/
abbrev hostOps1_W : List (Ref sig .tc) := [main_c_1, main_v15, main_v16, main_c_2, main_v17, main_v18, main_v19, main_v20, main_v21, main_cst_3, main_v22, main_v23, main_v24]
theorem hostOps1_writes : (hostOps1 : List (HloOp τ sig (Elt Ideal))).Forall fun op =>
    op.writes ⊆ (hostOps1_W.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer host stretch 1 does not write keeps its contents. -/
theorem keep1 (Wp : Valuation τ sig (Elt Ideal)) (r : Ref sig .tc) (h : r ∉ hostOps1_W) :
    StableHlo.after (hostOps1 (F := Ideal)) Wp (Proc.devRef .tc r) = Wp (Proc.devRef .tc r) :=
  StableHlo.after_of_writes_sub hostOps1 Wp hostOps1_writes h

/-- The references the operations of host stretch 2 write. -/
abbrev hostOps2_W : List (Ref sig .tc) := [main_c_4, main_v26, main_v27, main_c_5, main_v28, main_v29, main_v30, main_v31, main_v32, main_cst_6, main_v33, main_v34, main_v35]
theorem hostOps2_writes : (hostOps2 : List (HloOp τ sig (Elt Ideal))).Forall fun op =>
    op.writes ⊆ (hostOps2_W.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer host stretch 2 does not write keeps its contents. -/
theorem keep2 (Wp : Valuation τ sig (Elt Ideal)) (r : Ref sig .tc) (h : r ∉ hostOps2_W) :
    StableHlo.after (hostOps2 (F := Ideal)) Wp (Proc.devRef .tc r) = Wp (Proc.devRef .tc r) :=
  StableHlo.after_of_writes_sub hostOps2 Wp hostOps2_writes h

/-! ## What the host stretches compute

Each stretch read from ANY contents `Wp` of the buffers it starts from: the result buffer holds the stretch's
operations composed over what `Wp` has at the buffers they read. -/

section Host
variable (Wp : Valuation τ sig (Elt Ideal))

/-- Host stretch 0 leaves the sources in `main_v1`. -/
theorem host0_src {e : Edges} (he : Wp main_arg1 = e) :
    StableHlo.after (hostOps0 (F := Ideal)) Wp (Proc.devRef .tc main_v1) = Src e := by
  subst he; after_results; rfl
/-- Host stretch 0 leaves the destinations in `main_v3`. -/
theorem host0_dst {e : Edges} (he : Wp main_arg1 = e) :
    StableHlo.after (hostOps0 (F := Ideal)) Wp (Proc.devRef .tc main_v3) = Dst e := by
  subst he; after_results; rfl
set_option maxHeartbeats 2000000 in
/-- Host stretch 0 leaves in `main_v13` the neighbourhood sum of the first argument along the edge list. -/
theorem host0_agg {x : Nodes} {e : Edges} (hx : Wp main_arg0 = x) (he : Wp main_arg1 = e) :
    StableHlo.after (hostOps0 (F := Ideal)) Wp (Proc.devRef .tc main_v13) = AggOf x (Src e) (Dst e) := by
  subst hx he; after_results; rfl
set_option maxHeartbeats 2000000 in
/-- Host stretch 1 leaves in `main_v24` the neighbourhood sum of `main_v14` along the edge columns it finds. -/
theorem host1_agg {x : Nodes} {s d : EdgeCol} (hx : Wp main_v14 = x) (hs : Wp main_v1 = s) (hd : Wp main_v3 = d) :
    StableHlo.after (hostOps1 (F := Ideal)) Wp (Proc.devRef .tc main_v24) = AggOf x s d := by
  subst hx hs hd; after_results; rfl
set_option maxHeartbeats 2000000 in
/-- Host stretch 2 leaves in `main_v35` the neighbourhood sum of `main_v25` along the edge columns it finds. -/
theorem host2_agg {x : Nodes} {s d : EdgeCol} (hx : Wp main_v25 = x) (hs : Wp main_v1 = s) (hd : Wp main_v3 = d) :
    StableHlo.after (hostOps2 (F := Ideal)) Wp (Proc.devRef .tc main_v35) = AggOf x s d := by
  subst hx hs hd; after_results; rfl
end Host

/-! ## A region's result from its entry contents -/

/-- The TensorCores' buffer contents at a region's entry, as a region's proof data take them. -/
abbrev Vals := (c : Dev nD) → (b : Ref sig .tc) → Buf (Elt Ideal) ((c : Thread nD τ).loc b)

/-- Region 0's result array from ANY entry contents `V`, given what `V` holds at the region's eight input arrays. -/
theorem layer0_of (L : Nodes → Nodes → Mat → Vec128 → Mat → Vec128 → Vec128 → Vec128 → Nodes)
    (hL : ∀ (V : Vals) (c : Dev nD), (Gen.dat0 (F := Ideal) V c).arrAt 8 cfg0.N = L (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)))
    (V : Vals) (c : Dev nD) {x0 x1 : Nodes} {x2 : Mat} {x3 : Vec128} {x4 : Mat} {x5 x6 x7 : Vec128}
    (h0 : V c main_arg0 = x0) (h1 : V c main_v13 = x1) (h2 : V c main_arg2 = x2) (h3 : V c main_arg3 = x3) (h4 : V c main_arg4 = x4) (h5 : V c main_arg5 = x5) (h6 : V c main_arg6 = x6) (h7 : V c main_arg7 = x7) :
    (Gen.dat0 (F := Ideal) V c).arrAt 8 cfg0.N = L x0 x1 x2 x3 x4 x5 x6 x7 := by
  subst h0 h1 h2 h3 h4 h5 h6 h7; exact hL V c

/-- Region 1's result array from ANY entry contents `V`, given what `V` holds at the region's eight input arrays. -/
theorem layer1_of (L : Nodes → Nodes → Mat → Vec128 → Mat → Vec128 → Vec128 → Vec128 → Nodes)
    (hL : ∀ (V : Vals) (c : Dev nD), (Gen.dat1 (F := Ideal) V c).arrAt 8 cfg1.N = L (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)))
    (V : Vals) (c : Dev nD) {x0 x1 : Nodes} {x2 : Mat} {x3 : Vec128} {x4 : Mat} {x5 x6 x7 : Vec128}
    (h0 : V c main_v14 = x0) (h1 : V c main_v24 = x1) (h2 : V c main_arg8 = x2) (h3 : V c main_arg9 = x3) (h4 : V c main_arg10 = x4) (h5 : V c main_arg11 = x5) (h6 : V c main_arg12 = x6) (h7 : V c main_arg13 = x7) :
    (Gen.dat1 (F := Ideal) V c).arrAt 8 cfg1.N = L x0 x1 x2 x3 x4 x5 x6 x7 := by
  subst h0 h1 h2 h3 h4 h5 h6 h7; exact hL V c

/-- Region 2's result array from ANY entry contents `V`, given what `V` holds at the region's eight input arrays. -/
theorem layer2_of (L : Nodes → Nodes → Mat → Vec128 → Mat → Vec128 → Vec128 → Vec128 → Nodes)
    (hL : ∀ (V : Vals) (c : Dev nD), (Gen.dat2 (F := Ideal) V c).arrAt 8 cfg2.N = L (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)))
    (V : Vals) (c : Dev nD) {x0 x1 : Nodes} {x2 : Mat} {x3 : Vec128} {x4 : Mat} {x5 x6 x7 : Vec128}
    (h0 : V c main_v25 = x0) (h1 : V c main_v35 = x1) (h2 : V c main_arg14 = x2) (h3 : V c main_arg15 = x3) (h4 : V c main_arg16 = x4) (h5 : V c main_arg17 = x5) (h6 : V c main_arg18 = x6) (h7 : V c main_arg19 = x7) :
    (Gen.dat2 (F := Ideal) V c).arrAt 8 cfg2.N = L x0 x1 x2 x3 x4 x5 x6 x7 := by
  subst h0 h1 h2 h3 h4 h5 h6 h7; exact hL V c

/-- Region 3's result array 0 from ANY entry contents `V`, given what `V` holds at the three input arrays it reads. -/
theorem head0_of (H : Nodes → Mat64 → Vec64 → Out)
    (hH : ∀ (V : Vals) (c : Dev nD), (Gen.dat3 (F := Ideal) V c).arrAt 5 cfg3.N = H (V c (Pipeline.arrRef spec3 0)) (V c (Pipeline.arrRef spec3 1)) (V c (Pipeline.arrRef spec3 2)))
    (V : Vals) (c : Dev nD) {x0 : Nodes} {x1 : Mat64} {x2 : Vec64}
    (h0 : V c main_v36 = x0) (h1 : V c main_arg20 = x1) (h2 : V c main_arg21 = x2) :
    (Gen.dat3 (F := Ideal) V c).arrAt 5 cfg3.N = H x0 x1 x2 := by
  subst h0 h1 h2; exact hH V c

/-- Region 3's result array 1 from ANY entry contents `V`, given what `V` holds at the three input arrays it reads. -/
theorem head1_of (H : Nodes → Mat64 → Vec64 → Out)
    (hH : ∀ (V : Vals) (c : Dev nD), (Gen.dat3 (F := Ideal) V c).arrAt 6 cfg3.N = H (V c (Pipeline.arrRef spec3 0)) (V c (Pipeline.arrRef spec3 3)) (V c (Pipeline.arrRef spec3 4)))
    (V : Vals) (c : Dev nD) {x0 : Nodes} {x1 : Mat64} {x2 : Vec64}
    (h0 : V c main_v36 = x0) (h1 : V c main_arg22 = x1) (h2 : V c main_arg23 = x2) :
    (Gen.dat3 (F := Ideal) V c).arrAt 6 cfg3.N = H x0 x1 x2 := by
  subst h0 h1 h2; exact hH V c

/-! ## The chain through the regions

The contents of the buffers at each boundary of the run, walked from the launch to the last region: a host stretch
computes the neighbourhood sum of the current node features (and, the first time, the two edge columns) and writes
nothing else that is read later; a region writes its one result (the last region its two) from its input arrays
and leaves every other buffer. -/

section Chain
variable (L0 L1 L2 : Nodes → Nodes → Mat → Vec128 → Mat → Vec128 → Vec128 → Vec128 → Nodes) (H0 H1 : Nodes → Mat64 → Vec64 → Out)
variable (m : (ℓ : Loc nD τ sig) → Buf (Elt Ideal) ℓ) (ρ : Dev nD → PrngReg) (c : Dev nD)

/-- The node features after the first layer, from the launch contents. -/
abbrev hid1 : Nodes :=
  L0 (m ((c.tc : Thread nD τ).loc main_arg0)) (AggOf (m ((c.tc : Thread nD τ).loc main_arg0)) (Src (m ((c.tc : Thread nD τ).loc main_arg1))) (Dst (m ((c.tc : Thread nD τ).loc main_arg1))))
    (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
/-- The node features after the second layer. -/
abbrev hid2 : Nodes :=
  L1 (hid1 L0 m c) (AggOf (hid1 L0 m c) (Src (m ((c.tc : Thread nD τ).loc main_arg1))) (Dst (m ((c.tc : Thread nD τ).loc main_arg1))))
    (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
/-- The node features after the third layer. -/
abbrev hid3 : Nodes :=
  L2 (hid2 L0 L1 m c) (AggOf (hid2 L0 L1 m c) (Src (m ((c.tc : Thread nD τ).loc main_arg1))) (Dst (m ((c.tc : Thread nD τ).loc main_arg1))))
    (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

set_option maxHeartbeats 1000000 in
/-- The two results at the last boundary of the run are the two heads of the third layer's node features, every
    layer and head read at the launch contents of its arguments. -/
theorem outputs
    (hL0 : ∀ (V : Vals) (c : Dev nD), (Gen.dat0 (F := Ideal) V c).arrAt 8 cfg0.N = L0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)))
    (hL1 : ∀ (V : Vals) (c : Dev nD), (Gen.dat1 (F := Ideal) V c).arrAt 8 cfg1.N = L1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)))
    (hL2 : ∀ (V : Vals) (c : Dev nD), (Gen.dat2 (F := Ideal) V c).arrAt 8 cfg2.N = L2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)))
    (hH0 : ∀ (V : Vals) (c : Dev nD), (Gen.dat3 (F := Ideal) V c).arrAt 5 cfg3.N = H0 (V c (Pipeline.arrRef spec3 0)) (V c (Pipeline.arrRef spec3 1)) (V c (Pipeline.arrRef spec3 2)))
    (hH1 : ∀ (V : Vals) (c : Dev nD), (Gen.dat3 (F := Ideal) V c).arrAt 6 cfg3.N = H1 (V c (Pipeline.arrRef spec3 0)) (V c (Pipeline.arrRef spec3 3)) (V c (Pipeline.arrRef spec3 4))) :
    Gen.W7 m ρ c (Proc.devRef .tc main_v37_0) = H0 (hid3 L0 L1 L2 m c) (m ((c.tc : Thread nD τ).loc main_arg20)) (m ((c.tc : Thread nD τ).loc main_arg21))
    ∧ Gen.W7 m ρ c (Proc.devRef .tc main_v37_1) = H1 (hid3 L0 L1 L2 m c) (m ((c.tc : Thread nD τ).loc main_arg22)) (m ((c.tc : Thread nD τ).loc main_arg23)) := by
  have a1_0 : W1 m ρ c (Proc.devRef .tc main_arg0) = (m ((c.tc : Thread nD τ).loc main_arg0)) := keep0 (W0 m ρ c) main_arg0 (by decide)
  have a1_2 : W1 m ρ c (Proc.devRef .tc main_arg2) = (m ((c.tc : Thread nD τ).loc main_arg2)) := keep0 (W0 m ρ c) main_arg2 (by decide)
  have a1_3 : W1 m ρ c (Proc.devRef .tc main_arg3) = (m ((c.tc : Thread nD τ).loc main_arg3)) := keep0 (W0 m ρ c) main_arg3 (by decide)
  have a1_4 : W1 m ρ c (Proc.devRef .tc main_arg4) = (m ((c.tc : Thread nD τ).loc main_arg4)) := keep0 (W0 m ρ c) main_arg4 (by decide)
  have a1_5 : W1 m ρ c (Proc.devRef .tc main_arg5) = (m ((c.tc : Thread nD τ).loc main_arg5)) := keep0 (W0 m ρ c) main_arg5 (by decide)
  have a1_6 : W1 m ρ c (Proc.devRef .tc main_arg6) = (m ((c.tc : Thread nD τ).loc main_arg6)) := keep0 (W0 m ρ c) main_arg6 (by decide)
  have a1_7 : W1 m ρ c (Proc.devRef .tc main_arg7) = (m ((c.tc : Thread nD τ).loc main_arg7)) := keep0 (W0 m ρ c) main_arg7 (by decide)
  have a1_8 : W1 m ρ c (Proc.devRef .tc main_arg8) = (m ((c.tc : Thread nD τ).loc main_arg8)) := keep0 (W0 m ρ c) main_arg8 (by decide)
  have a1_9 : W1 m ρ c (Proc.devRef .tc main_arg9) = (m ((c.tc : Thread nD τ).loc main_arg9)) := keep0 (W0 m ρ c) main_arg9 (by decide)
  have a1_10 : W1 m ρ c (Proc.devRef .tc main_arg10) = (m ((c.tc : Thread nD τ).loc main_arg10)) := keep0 (W0 m ρ c) main_arg10 (by decide)
  have a1_11 : W1 m ρ c (Proc.devRef .tc main_arg11) = (m ((c.tc : Thread nD τ).loc main_arg11)) := keep0 (W0 m ρ c) main_arg11 (by decide)
  have a1_12 : W1 m ρ c (Proc.devRef .tc main_arg12) = (m ((c.tc : Thread nD τ).loc main_arg12)) := keep0 (W0 m ρ c) main_arg12 (by decide)
  have a1_13 : W1 m ρ c (Proc.devRef .tc main_arg13) = (m ((c.tc : Thread nD τ).loc main_arg13)) := keep0 (W0 m ρ c) main_arg13 (by decide)
  have a1_14 : W1 m ρ c (Proc.devRef .tc main_arg14) = (m ((c.tc : Thread nD τ).loc main_arg14)) := keep0 (W0 m ρ c) main_arg14 (by decide)
  have a1_15 : W1 m ρ c (Proc.devRef .tc main_arg15) = (m ((c.tc : Thread nD τ).loc main_arg15)) := keep0 (W0 m ρ c) main_arg15 (by decide)
  have a1_16 : W1 m ρ c (Proc.devRef .tc main_arg16) = (m ((c.tc : Thread nD τ).loc main_arg16)) := keep0 (W0 m ρ c) main_arg16 (by decide)
  have a1_17 : W1 m ρ c (Proc.devRef .tc main_arg17) = (m ((c.tc : Thread nD τ).loc main_arg17)) := keep0 (W0 m ρ c) main_arg17 (by decide)
  have a1_18 : W1 m ρ c (Proc.devRef .tc main_arg18) = (m ((c.tc : Thread nD τ).loc main_arg18)) := keep0 (W0 m ρ c) main_arg18 (by decide)
  have a1_19 : W1 m ρ c (Proc.devRef .tc main_arg19) = (m ((c.tc : Thread nD τ).loc main_arg19)) := keep0 (W0 m ρ c) main_arg19 (by decide)
  have a1_20 : W1 m ρ c (Proc.devRef .tc main_arg20) = (m ((c.tc : Thread nD τ).loc main_arg20)) := keep0 (W0 m ρ c) main_arg20 (by decide)
  have a1_21 : W1 m ρ c (Proc.devRef .tc main_arg21) = (m ((c.tc : Thread nD τ).loc main_arg21)) := keep0 (W0 m ρ c) main_arg21 (by decide)
  have a1_22 : W1 m ρ c (Proc.devRef .tc main_arg22) = (m ((c.tc : Thread nD τ).loc main_arg22)) := keep0 (W0 m ρ c) main_arg22 (by decide)
  have a1_23 : W1 m ρ c (Proc.devRef .tc main_arg23) = (m ((c.tc : Thread nD τ).loc main_arg23)) := keep0 (W0 m ρ c) main_arg23 (by decide)
  have s1 : W1 m ρ c (Proc.devRef .tc main_v1) = Src (m ((c.tc : Thread nD τ).loc main_arg1)) := host0_src (W0 m ρ c) rfl
  have d1 : W1 m ρ c (Proc.devRef .tc main_v3) = Dst (m ((c.tc : Thread nD τ).loc main_arg1)) := host0_dst (W0 m ρ c) rfl
  have g1 : W1 m ρ c (Proc.devRef .tc main_v13) = AggOf (m ((c.tc : Thread nD τ).loc main_arg0)) (Src (m ((c.tc : Thread nD τ).loc main_arg1))) (Dst (m ((c.tc : Thread nD τ).loc main_arg1))) := host0_agg (W0 m ρ c) rfl rfl
  have o2 : W2 m ρ c (Proc.devRef .tc main_v14) = hid1 L0 m c :=
    (W2_arr m ρ c 8).trans (layer0_of L0 hL0 (V1 m ρ) c a1_0 g1 a1_2 a1_3 a1_4 a1_5 a1_6 a1_7)
  have a2_8 : W2 m ρ c (Proc.devRef .tc main_arg8) = (m ((c.tc : Thread nD τ).loc main_arg8)) := (W2_of_ne m ρ c main_arg8 (by decide)).trans a1_8
  have a2_9 : W2 m ρ c (Proc.devRef .tc main_arg9) = (m ((c.tc : Thread nD τ).loc main_arg9)) := (W2_of_ne m ρ c main_arg9 (by decide)).trans a1_9
  have a2_10 : W2 m ρ c (Proc.devRef .tc main_arg10) = (m ((c.tc : Thread nD τ).loc main_arg10)) := (W2_of_ne m ρ c main_arg10 (by decide)).trans a1_10
  have a2_11 : W2 m ρ c (Proc.devRef .tc main_arg11) = (m ((c.tc : Thread nD τ).loc main_arg11)) := (W2_of_ne m ρ c main_arg11 (by decide)).trans a1_11
  have a2_12 : W2 m ρ c (Proc.devRef .tc main_arg12) = (m ((c.tc : Thread nD τ).loc main_arg12)) := (W2_of_ne m ρ c main_arg12 (by decide)).trans a1_12
  have a2_13 : W2 m ρ c (Proc.devRef .tc main_arg13) = (m ((c.tc : Thread nD τ).loc main_arg13)) := (W2_of_ne m ρ c main_arg13 (by decide)).trans a1_13
  have a2_14 : W2 m ρ c (Proc.devRef .tc main_arg14) = (m ((c.tc : Thread nD τ).loc main_arg14)) := (W2_of_ne m ρ c main_arg14 (by decide)).trans a1_14
  have a2_15 : W2 m ρ c (Proc.devRef .tc main_arg15) = (m ((c.tc : Thread nD τ).loc main_arg15)) := (W2_of_ne m ρ c main_arg15 (by decide)).trans a1_15
  have a2_16 : W2 m ρ c (Proc.devRef .tc main_arg16) = (m ((c.tc : Thread nD τ).loc main_arg16)) := (W2_of_ne m ρ c main_arg16 (by decide)).trans a1_16
  have a2_17 : W2 m ρ c (Proc.devRef .tc main_arg17) = (m ((c.tc : Thread nD τ).loc main_arg17)) := (W2_of_ne m ρ c main_arg17 (by decide)).trans a1_17
  have a2_18 : W2 m ρ c (Proc.devRef .tc main_arg18) = (m ((c.tc : Thread nD τ).loc main_arg18)) := (W2_of_ne m ρ c main_arg18 (by decide)).trans a1_18
  have a2_19 : W2 m ρ c (Proc.devRef .tc main_arg19) = (m ((c.tc : Thread nD τ).loc main_arg19)) := (W2_of_ne m ρ c main_arg19 (by decide)).trans a1_19
  have a2_20 : W2 m ρ c (Proc.devRef .tc main_arg20) = (m ((c.tc : Thread nD τ).loc main_arg20)) := (W2_of_ne m ρ c main_arg20 (by decide)).trans a1_20
  have a2_21 : W2 m ρ c (Proc.devRef .tc main_arg21) = (m ((c.tc : Thread nD τ).loc main_arg21)) := (W2_of_ne m ρ c main_arg21 (by decide)).trans a1_21
  have a2_22 : W2 m ρ c (Proc.devRef .tc main_arg22) = (m ((c.tc : Thread nD τ).loc main_arg22)) := (W2_of_ne m ρ c main_arg22 (by decide)).trans a1_22
  have a2_23 : W2 m ρ c (Proc.devRef .tc main_arg23) = (m ((c.tc : Thread nD τ).loc main_arg23)) := (W2_of_ne m ρ c main_arg23 (by decide)).trans a1_23
  have s2 : W2 m ρ c (Proc.devRef .tc main_v1) = Src (m ((c.tc : Thread nD τ).loc main_arg1)) := (W2_of_ne m ρ c main_v1 (by decide)).trans s1
  have d2 : W2 m ρ c (Proc.devRef .tc main_v3) = Dst (m ((c.tc : Thread nD τ).loc main_arg1)) := (W2_of_ne m ρ c main_v3 (by decide)).trans d1
  have o3 : W3 m ρ c (Proc.devRef .tc main_v14) = hid1 L0 m c := (keep1 (W2 m ρ c) main_v14 (by decide)).trans o2
  have g3 : W3 m ρ c (Proc.devRef .tc main_v24) = AggOf (hid1 L0 m c) (Src (m ((c.tc : Thread nD τ).loc main_arg1))) (Dst (m ((c.tc : Thread nD τ).loc main_arg1))) := host1_agg (W2 m ρ c) o2 s2 d2
  have a3_8 : W3 m ρ c (Proc.devRef .tc main_arg8) = (m ((c.tc : Thread nD τ).loc main_arg8)) := (keep1 (W2 m ρ c) main_arg8 (by decide)).trans a2_8
  have a3_9 : W3 m ρ c (Proc.devRef .tc main_arg9) = (m ((c.tc : Thread nD τ).loc main_arg9)) := (keep1 (W2 m ρ c) main_arg9 (by decide)).trans a2_9
  have a3_10 : W3 m ρ c (Proc.devRef .tc main_arg10) = (m ((c.tc : Thread nD τ).loc main_arg10)) := (keep1 (W2 m ρ c) main_arg10 (by decide)).trans a2_10
  have a3_11 : W3 m ρ c (Proc.devRef .tc main_arg11) = (m ((c.tc : Thread nD τ).loc main_arg11)) := (keep1 (W2 m ρ c) main_arg11 (by decide)).trans a2_11
  have a3_12 : W3 m ρ c (Proc.devRef .tc main_arg12) = (m ((c.tc : Thread nD τ).loc main_arg12)) := (keep1 (W2 m ρ c) main_arg12 (by decide)).trans a2_12
  have a3_13 : W3 m ρ c (Proc.devRef .tc main_arg13) = (m ((c.tc : Thread nD τ).loc main_arg13)) := (keep1 (W2 m ρ c) main_arg13 (by decide)).trans a2_13
  have a3_14 : W3 m ρ c (Proc.devRef .tc main_arg14) = (m ((c.tc : Thread nD τ).loc main_arg14)) := (keep1 (W2 m ρ c) main_arg14 (by decide)).trans a2_14
  have a3_15 : W3 m ρ c (Proc.devRef .tc main_arg15) = (m ((c.tc : Thread nD τ).loc main_arg15)) := (keep1 (W2 m ρ c) main_arg15 (by decide)).trans a2_15
  have a3_16 : W3 m ρ c (Proc.devRef .tc main_arg16) = (m ((c.tc : Thread nD τ).loc main_arg16)) := (keep1 (W2 m ρ c) main_arg16 (by decide)).trans a2_16
  have a3_17 : W3 m ρ c (Proc.devRef .tc main_arg17) = (m ((c.tc : Thread nD τ).loc main_arg17)) := (keep1 (W2 m ρ c) main_arg17 (by decide)).trans a2_17
  have a3_18 : W3 m ρ c (Proc.devRef .tc main_arg18) = (m ((c.tc : Thread nD τ).loc main_arg18)) := (keep1 (W2 m ρ c) main_arg18 (by decide)).trans a2_18
  have a3_19 : W3 m ρ c (Proc.devRef .tc main_arg19) = (m ((c.tc : Thread nD τ).loc main_arg19)) := (keep1 (W2 m ρ c) main_arg19 (by decide)).trans a2_19
  have a3_20 : W3 m ρ c (Proc.devRef .tc main_arg20) = (m ((c.tc : Thread nD τ).loc main_arg20)) := (keep1 (W2 m ρ c) main_arg20 (by decide)).trans a2_20
  have a3_21 : W3 m ρ c (Proc.devRef .tc main_arg21) = (m ((c.tc : Thread nD τ).loc main_arg21)) := (keep1 (W2 m ρ c) main_arg21 (by decide)).trans a2_21
  have a3_22 : W3 m ρ c (Proc.devRef .tc main_arg22) = (m ((c.tc : Thread nD τ).loc main_arg22)) := (keep1 (W2 m ρ c) main_arg22 (by decide)).trans a2_22
  have a3_23 : W3 m ρ c (Proc.devRef .tc main_arg23) = (m ((c.tc : Thread nD τ).loc main_arg23)) := (keep1 (W2 m ρ c) main_arg23 (by decide)).trans a2_23
  have s3 : W3 m ρ c (Proc.devRef .tc main_v1) = Src (m ((c.tc : Thread nD τ).loc main_arg1)) := (keep1 (W2 m ρ c) main_v1 (by decide)).trans s2
  have d3 : W3 m ρ c (Proc.devRef .tc main_v3) = Dst (m ((c.tc : Thread nD τ).loc main_arg1)) := (keep1 (W2 m ρ c) main_v3 (by decide)).trans d2
  have o4 : W4 m ρ c (Proc.devRef .tc main_v25) = hid2 L0 L1 m c :=
    (W4_arr m ρ c 8).trans (layer1_of L1 hL1 (V3 m ρ) c o3 g3 a3_8 a3_9 a3_10 a3_11 a3_12 a3_13)
  have a4_14 : W4 m ρ c (Proc.devRef .tc main_arg14) = (m ((c.tc : Thread nD τ).loc main_arg14)) := (W4_of_ne m ρ c main_arg14 (by decide)).trans a3_14
  have a4_15 : W4 m ρ c (Proc.devRef .tc main_arg15) = (m ((c.tc : Thread nD τ).loc main_arg15)) := (W4_of_ne m ρ c main_arg15 (by decide)).trans a3_15
  have a4_16 : W4 m ρ c (Proc.devRef .tc main_arg16) = (m ((c.tc : Thread nD τ).loc main_arg16)) := (W4_of_ne m ρ c main_arg16 (by decide)).trans a3_16
  have a4_17 : W4 m ρ c (Proc.devRef .tc main_arg17) = (m ((c.tc : Thread nD τ).loc main_arg17)) := (W4_of_ne m ρ c main_arg17 (by decide)).trans a3_17
  have a4_18 : W4 m ρ c (Proc.devRef .tc main_arg18) = (m ((c.tc : Thread nD τ).loc main_arg18)) := (W4_of_ne m ρ c main_arg18 (by decide)).trans a3_18
  have a4_19 : W4 m ρ c (Proc.devRef .tc main_arg19) = (m ((c.tc : Thread nD τ).loc main_arg19)) := (W4_of_ne m ρ c main_arg19 (by decide)).trans a3_19
  have a4_20 : W4 m ρ c (Proc.devRef .tc main_arg20) = (m ((c.tc : Thread nD τ).loc main_arg20)) := (W4_of_ne m ρ c main_arg20 (by decide)).trans a3_20
  have a4_21 : W4 m ρ c (Proc.devRef .tc main_arg21) = (m ((c.tc : Thread nD τ).loc main_arg21)) := (W4_of_ne m ρ c main_arg21 (by decide)).trans a3_21
  have a4_22 : W4 m ρ c (Proc.devRef .tc main_arg22) = (m ((c.tc : Thread nD τ).loc main_arg22)) := (W4_of_ne m ρ c main_arg22 (by decide)).trans a3_22
  have a4_23 : W4 m ρ c (Proc.devRef .tc main_arg23) = (m ((c.tc : Thread nD τ).loc main_arg23)) := (W4_of_ne m ρ c main_arg23 (by decide)).trans a3_23
  have s4 : W4 m ρ c (Proc.devRef .tc main_v1) = Src (m ((c.tc : Thread nD τ).loc main_arg1)) := (W4_of_ne m ρ c main_v1 (by decide)).trans s3
  have d4 : W4 m ρ c (Proc.devRef .tc main_v3) = Dst (m ((c.tc : Thread nD τ).loc main_arg1)) := (W4_of_ne m ρ c main_v3 (by decide)).trans d3
  have o5 : W5 m ρ c (Proc.devRef .tc main_v25) = hid2 L0 L1 m c := (keep2 (W4 m ρ c) main_v25 (by decide)).trans o4
  have g5 : W5 m ρ c (Proc.devRef .tc main_v35) = AggOf (hid2 L0 L1 m c) (Src (m ((c.tc : Thread nD τ).loc main_arg1))) (Dst (m ((c.tc : Thread nD τ).loc main_arg1))) := host2_agg (W4 m ρ c) o4 s4 d4
  have a5_14 : W5 m ρ c (Proc.devRef .tc main_arg14) = (m ((c.tc : Thread nD τ).loc main_arg14)) := (keep2 (W4 m ρ c) main_arg14 (by decide)).trans a4_14
  have a5_15 : W5 m ρ c (Proc.devRef .tc main_arg15) = (m ((c.tc : Thread nD τ).loc main_arg15)) := (keep2 (W4 m ρ c) main_arg15 (by decide)).trans a4_15
  have a5_16 : W5 m ρ c (Proc.devRef .tc main_arg16) = (m ((c.tc : Thread nD τ).loc main_arg16)) := (keep2 (W4 m ρ c) main_arg16 (by decide)).trans a4_16
  have a5_17 : W5 m ρ c (Proc.devRef .tc main_arg17) = (m ((c.tc : Thread nD τ).loc main_arg17)) := (keep2 (W4 m ρ c) main_arg17 (by decide)).trans a4_17
  have a5_18 : W5 m ρ c (Proc.devRef .tc main_arg18) = (m ((c.tc : Thread nD τ).loc main_arg18)) := (keep2 (W4 m ρ c) main_arg18 (by decide)).trans a4_18
  have a5_19 : W5 m ρ c (Proc.devRef .tc main_arg19) = (m ((c.tc : Thread nD τ).loc main_arg19)) := (keep2 (W4 m ρ c) main_arg19 (by decide)).trans a4_19
  have a5_20 : W5 m ρ c (Proc.devRef .tc main_arg20) = (m ((c.tc : Thread nD τ).loc main_arg20)) := (keep2 (W4 m ρ c) main_arg20 (by decide)).trans a4_20
  have a5_21 : W5 m ρ c (Proc.devRef .tc main_arg21) = (m ((c.tc : Thread nD τ).loc main_arg21)) := (keep2 (W4 m ρ c) main_arg21 (by decide)).trans a4_21
  have a5_22 : W5 m ρ c (Proc.devRef .tc main_arg22) = (m ((c.tc : Thread nD τ).loc main_arg22)) := (keep2 (W4 m ρ c) main_arg22 (by decide)).trans a4_22
  have a5_23 : W5 m ρ c (Proc.devRef .tc main_arg23) = (m ((c.tc : Thread nD τ).loc main_arg23)) := (keep2 (W4 m ρ c) main_arg23 (by decide)).trans a4_23
  have o6 : W6 m ρ c (Proc.devRef .tc main_v36) = hid3 L0 L1 L2 m c :=
    (W6_arr m ρ c 8).trans (layer2_of L2 hL2 (V5 m ρ) c o5 g5 a5_14 a5_15 a5_16 a5_17 a5_18 a5_19)
  have a6_20 : W6 m ρ c (Proc.devRef .tc main_arg20) = (m ((c.tc : Thread nD τ).loc main_arg20)) := (W6_of_ne m ρ c main_arg20 (by decide)).trans a5_20
  have a6_21 : W6 m ρ c (Proc.devRef .tc main_arg21) = (m ((c.tc : Thread nD τ).loc main_arg21)) := (W6_of_ne m ρ c main_arg21 (by decide)).trans a5_21
  have a6_22 : W6 m ρ c (Proc.devRef .tc main_arg22) = (m ((c.tc : Thread nD τ).loc main_arg22)) := (W6_of_ne m ρ c main_arg22 (by decide)).trans a5_22
  have a6_23 : W6 m ρ c (Proc.devRef .tc main_arg23) = (m ((c.tc : Thread nD τ).loc main_arg23)) := (W6_of_ne m ρ c main_arg23 (by decide)).trans a5_23
  exact ⟨(W7_arr m ρ c 5).trans (head0_of H0 hH0 (V6 m ρ) c o6 a6_20 a6_21),
    (W7_arr m ρ c 6).trans (head1_of H1 hH1 (V6 m ρ) c o6 a6_22 a6_23)⟩
end Chain

end Cert.KernelIdeal.Chain

end
-- ==== Proof.RowSpec.lean ====
/-
  The network's arithmetic on ONE row, over the extended reals.

  A row `h` of 128 numbers passes through two rectified affine maps, `u c = max (Σ_k h k · W1 k c + b1 c) 0` and
  `v c = max (Σ_k u k · W2 k c + b2 c) 0`; then it is normalised: with the mean `μ = (Σ_c v c) / 128` and the biased
  variance `σ² = (Σ_c (v c - μ)²) / 128`, the row of the layer's result is `(v c - μ) · rsqrt (σ² + ε) · g c + β c`.
  A head is a projection of the rectified row, `Σ_k max (h k) 0 · W k c + b c`.  Both programs compute exactly these
  sums, in whatever order; addition and multiplication of extended reals are commutative and associative, so no
  finiteness is needed to identify them.
-/
import Idealize.ShloMosaic.PureOps.Ideal
import Idealize.ShloMosaic.Lib.ValueIdx

noncomputable section

namespace Cert.RowSpec

open Idealize.ShloMosaic Idealize.ShloMosaic.ValueIdx

/-- The float words of zero, of 128 and of the normalisation's ε, read as extended reals. -/
abbrev zero : EReal := Ideal.ofBits .f32 0x00000000#32
abbrev n128 : EReal := Ideal.ofBits .f32 0x43000000#32
abbrev eps : EReal := Ideal.ofBits .f32 0x3727C5AC#32

/-- A rectified affine map of a row. -/
def affRelu {n : ℕ} (h : Fin 128 → EReal) (W : Fin 128 → Fin n → EReal) (b : Fin n → EReal) : Fin n → EReal :=
  fun c => max ((∑ k : Fin 128, h k * W k c) + b c) zero

/-- The mean of a row. -/
def mean (v : Fin 128 → EReal) : EReal := Ideal.div (∑ c : Fin 128, v c) n128

/-- The biased variance of a row. -/
def var (v : Fin 128 → EReal) : EReal := Ideal.div (∑ c : Fin 128, (v c - mean v) * (v c - mean v)) n128

/-- A row normalised, scaled and shifted. -/
def normRow (v g β : Fin 128 → EReal) : Fin 128 → EReal :=
  fun c => (v c - mean v) * Ideal.rsqrt (var v + eps) * g c + β c

/-- One layer on a row. -/
def rowLayer (h : Fin 128 → EReal) (W1 : Fin 128 → Fin 128 → EReal) (b1 : Fin 128 → EReal)
    (W2 : Fin 128 → Fin 128 → EReal) (b2 g β : Fin 128 → EReal) : Fin 128 → EReal :=
  normRow (affRelu (affRelu h W1 b1) W2 b2) g β

/-- A head on a row: the projection of the rectified row. -/
def rowHead (h : Fin 128 → EReal) (W : Fin 128 → Fin 64 → EReal) (b : Fin 64 → EReal) : Fin 64 → EReal :=
  fun c => (∑ k : Fin 128, max (h k) zero * W k c) + b c

/-- The layer on every row of an array of `n` rows: row `r` of the result is the layer of row `r` of `x + a`. -/
def layerFn {n : ℕ} (x a : (⟨2, ![n, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 g β : (⟨1, ![128]⟩ : Shape).Idx → EReal) : (⟨2, ![n, 128]⟩ : Shape).Idx → EReal :=
  fun i => rowLayer (fun k => x (ix2 (i 0) k) + a (ix2 (i 0) k)) (fun k c => W1 (ix2 k c)) (fun c => b1 (ix1 c))
    (fun k c => W2 (ix2 k c)) (fun c => b2 (ix1 c)) (fun c => g (ix1 c)) (fun c => β (ix1 c)) (i 1)

/-- The head on every row. -/
def headFn {n : ℕ} (h : (⟨2, ![n, 128]⟩ : Shape).Idx → EReal) (W : (⟨2, ![128, 64]⟩ : Shape).Idx → EReal)
    (b : (⟨1, ![64]⟩ : Shape).Idx → EReal) : (⟨2, ![n, 64]⟩ : Shape).Idx → EReal :=
  fun i => rowHead (fun k => h (ix2 (i 0) k)) (fun k c => W (ix2 k c)) (fun c => b (ix1 c)) (i 1)

theorem layerFn_apply {n : ℕ} (x a : (⟨2, ![n, 128]⟩ : Shape).Idx → EReal) (W1 b1 W2 b2 g β) (r : Fin n) (q : Fin 128) :
    layerFn x a W1 b1 W2 b2 g β (ix2 r q)
      = rowLayer (fun k => x (ix2 r k) + a (ix2 r k)) (fun k c => W1 (ix2 k c)) (fun c => b1 (ix1 c))
          (fun k c => W2 (ix2 k c)) (fun c => b2 (ix1 c)) (fun c => g (ix1 c)) (fun c => β (ix1 c)) q := rfl

theorem headFn_apply {n : ℕ} (h : (⟨2, ![n, 128]⟩ : Shape).Idx → EReal) (W b) (r : Fin n) (q : Fin 64) :
    headFn h W b (ix2 r q) = rowHead (fun k => h (ix2 r k)) (fun k c => W (ix2 k c)) (fun c => b (ix1 c)) q := rfl

end Cert.RowSpec

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibColOps.lean ====
/-
  Column and row forms of rank-2 arrays read at an index, for any element type and any extents, and the sum along the
  second axis read at a row: a vector of length `a` cast to a column [a, 1]; a column [a, 1] broadcast along the rows of
  [a, b]; a kernel's lane sum of an [a, b] array into a vector of length `a`, and the host's sum of the same kind from an
  initial value; the host's placements of a vector as a column, of a vector as a row, of a column along every row and of
  a row down every column.
-/
import Idealize.ShloMosaic.Lib.Pipeline.Value
import Idealize.ShloMosaic.Lib.ValueIdx
import Idealize.ShloMosaic.Lib.IdealHost
import Idealize.ShloMosaic.PureOps.Ideal.Laws

noncomputable section

namespace Cert.LibColOps

open Idealize.ShloMosaic Idealize.ShloMosaic.ValueIdx

variable {α : Type} {a b : ℕ}

/-- Entry `(p, 0)` of the column cast of a vector is the vector's entry `p`: both sit at row-major position `p`. -/
theorem shapeCast_col_apply (x : (⟨1, ![a]⟩ : Shape).Idx → α) (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- Entry `(p, q)` of a column broadcast along the rows is the column's entry `(p, 0)`. -/
theorem broadcastTo_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) :=
  broadcastTo_apply x h (ix2 p q) (ix2 p (0 : Fin 1)) (fun c => by
    match c with
    | ⟨0, _⟩ =>
      show p.val = if a = 1 then 0 else p.val
      have := p.isLt
      split <;> omega
    | ⟨1, _⟩ => rfl)

/-- The index a sum along axis 1 reads at row `p` and summation coordinate `k` is `(p, k)`. -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A kernel's lane sum of an [a, b] array at row `p` is the sum of the row's entries. -/
theorem multiReduction_row {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  rw [Ideal.multiReduction_add_single]
  exact Finset.sum_congr rfl fun k _ => congrArg src (lift_row h p k)

/-- The host's sum along axis 1 of an [a, b] array at row `p`: the initial value plus the sum of the row's entries. -/
theorem hostReduceAdd_row {φ : FTy} (x : FVec Ideal ⟨2, ![a, b]⟩ φ) (init : (⟨0, ![]⟩ : Shape).Idx → Ideal φ)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (p : Fin a) :
    Host.reduceAdd x init h' hu (ix1 p) = init ix0 + ∑ k : Fin b, x (ix2 p k) := by
  rw [hostReduceAdd_apply, Ideal.hostReduceAdd_single h' h]
  congr 1
  · exact congrArg init (funext fun c => c.elim0)
  · exact Finset.sum_congr rfl fun k _ => congrArg x (lift_row h p k)

/-- The host places a vector as a column: entry `(p, 0)` is the vector's entry `p`. -/
theorem bcastCol_apply (x : (⟨1, ![a]⟩ : Shape).Idx → α) (h : (⟨1, ![a]⟩ : Shape).BroadcastsInDim ⟨2, ![a, 1]⟩ ![0]) (p : Fin a) :
    broadcastInDim ⟨2, ![a, 1]⟩ ![0] h x (ix2 p (0 : Fin 1)) = x (ix1 p) :=
  broadcastInDim_apply ![0] h x (ix2 p (0 : Fin 1)) (ix1 p) (fun c => by
    match c with
    | ⟨0, _⟩ =>
      show p.val = if a = 1 then 0 else p.val
      have := p.isLt
      split <;> omega)

/-- The host places a vector as a row: entry `(0, q)` is the vector's entry `q`. -/
theorem bcastRow_apply (x : (⟨1, ![b]⟩ : Shape).Idx → α) (h : (⟨1, ![b]⟩ : Shape).BroadcastsInDim ⟨2, ![1, b]⟩ ![1]) (q : Fin b) :
    broadcastInDim ⟨2, ![1, b]⟩ ![1] h x (ix2 (0 : Fin 1) q) = x (ix1 q) :=
  broadcastInDim_apply ![1] h x (ix2 (0 : Fin 1) q) (ix1 q) (fun c => by
    match c with
    | ⟨0, _⟩ =>
      show q.val = if b = 1 then 0 else q.val
      have := q.isLt
      split <;> omega)

/-- The host lays a column along every row: entry `(p, q)` is the column's entry `(p, 0)`. -/
theorem bcastCols_apply (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply ![0, 1] h x (ix2 p q) (ix2 p (0 : Fin 1)) (fun c => by
    match c with
    | ⟨0, _⟩ =>
      show p.val = if a = 1 then 0 else p.val
      have := p.isLt
      split <;> omega
    | ⟨1, _⟩ => rfl)

/-- The host lays a row down every column: entry `(p, q)` is the row's entry `(0, q)`. -/
theorem bcastRows_apply (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply ![0, 1] h x (ix2 p q) (ix2 (0 : Fin 1) q) (fun c => by
    match c with
    | ⟨0, _⟩ => rfl
    | ⟨1, _⟩ =>
      show q.val = if b = 1 then 0 else q.val
      have := q.isLt
      split <;> omega)

end Cert.LibColOps

end
-- ==== Proof.KBody.lean ====
/-
  The kernels' bodies read at an index of their block, over the extended reals.

  On a block of 5000 rows the layer kernel computes, row by row, the layer of `RowSpec`: its two matrix products into
  a zero accumulator are the plain sums over the contracted coordinate, a bias vector cast to a row and broadcast down
  the rows adds `b c` at column `c`, its lane sums cast to a column and divided by the word of 128 are the row's mean
  and (of the squared deviations) its variance, and a column broadcast along the rows puts the row's own value at every
  column.  So entry `(p, q)` of the layer kernel's block is `rowLayer` of row `p` of the two summed input blocks at
  `q`, and entry `(p, q)` of each head is `rowHead` of row `p`.  The three layer kernels were cut into pieces
  differently; each is shown to be the same composition of three stages (rectified affine map, row mean, normalisation).
-/
import proofs.«161493_j33397665693785_1_alg».proof.Proof.Gen.KernelIdeal.Skeleton
import proofs.«161493_j33397665693785_1_alg».proof.Proof.RowSpec
import proofs.«161493_j33397665693785_1_alg».proof.Proof.LibRowOps
import proofs.«161493_j33397665693785_1_alg».proof.Proof.LibColOps

noncomputable section

namespace Cert.KernelIdeal.Body

open Idealize.ShloMosaic Idealize.ShloMosaic.ValueIdx
open Cert.KernelIdeal Cert.KernelIdeal.Gen Cert.RowSpec Cert.KernelBody Cert.LibColOps

/-- A bias vector down the rows of a block. -/
def kRows (b : FVec Ideal S128 .f32) : FVec Ideal S5000x128 .f32 :=
  broadcastTo S5000x128 (shapeCast S1x128 b shapeCasts_S128_S1x128) broadcasts_S1x128_S5000x128

/-- A column along the rows of a block. -/
def kCols (v : FVec Ideal S5000x1 .f32) : FVec Ideal S5000x128 .f32 := broadcastTo S5000x128 v broadcasts_S5000x1_S5000x128

/-- The rectified affine map of a block. -/
def kAff (h : FVec Ideal S5000x128 .f32) (W : FVec Ideal S128x128 .f32) (b : FVec Ideal S128 .f32) : FVec Ideal S5000x128 .f32 :=
  maximumf (addf (matmul dot_S5000x128_S128x128_S5000x128_1_0_0_1_n_n none h W (constant S5000x128 .f32 0x00000000#32)) (kRows b))
    (broadcast S5000x128 (Scalar.ofBits (F := Ideal) .f32 0x00000000#32))

/-- The row means of a block, as a column. -/
def kMean (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits (F := Ideal) .f32 0x43000000#32))

/-- The rows of a block normalised, scaled and shifted. -/
def kNorm (v : FVec Ideal S5000x128 .f32) (g β : FVec Ideal S128 .f32) : FVec Ideal S5000x128 .f32 :=
  addf (mulf (mulf (subf v (kCols (kMean v)))
      (kCols (rsqrt (addf (kMean (mulf (subf v (kCols (kMean v))) (subf v (kCols (kMean v)))))
        (broadcast S5000x1 (Scalar.ofBits (F := Ideal) .f32 0x3727C5AC#32))))))
    (kRows g)) (kRows β)

theorem kRows_apply (b : FVec Ideal S128 .f32) (p : Fin 5000) (q : Fin 128) : kRows b (ix2 p q) = b (ix1 q) := by
  unfold kRows
  rw [broadcastTo_row_apply, shapeCast_row_apply]

theorem kCols_apply (v : FVec Ideal S5000x1 .f32) (p : Fin 5000) (q : Fin 128) : kCols v (ix2 p q) = v (ix2 p (0 : Fin 1)) := by
  unfold kCols
  rw [broadcastTo_col_apply]

theorem kAff_apply (h : FVec Ideal S5000x128 .f32) (W : FVec Ideal S128x128 .f32) (b : FVec Ideal S128 .f32) (p : Fin 5000) (q : Fin 128) :
    kAff h W b (ix2 p q) = affRelu (fun k => h (ix2 p k)) (fun k c => W (ix2 k c)) (fun c => b (ix1 c)) q := by
  unfold kAff affRelu
  rw [maximumf_apply, addf_apply, kRows_apply]
  have hm : matmul dot_S5000x128_S128x128_S5000x128_1_0_0_1_n_n none h W (constant S5000x128 .f32 0x00000000#32) (ix2 p q)
      = ∑ i : Fin 128, h (ix2 p i) * W (ix2 i q) :=
    matmul_plain_zero_apply (m := 5000) (k := 128) (n := 128) dot_S5000x128_S128x128_S5000x128_1_0_0_1_n_n.wf none h W p q
  rw [hm]
  rfl

theorem kMean_apply (v : FVec Ideal S5000x128 .f32) (p : Fin 5000) :
    kMean v (ix2 p (0 : Fin 1)) = mean (fun c => v (ix2 p c)) := by
  have hs : multiReduction .add [1] S5000 v 0x00000000#32 reduces_S5000x128_S5000 (.inl rfl) rfl (ix1 p) = ∑ k : Fin 128, v (ix2 p k) :=
    multiReduction_row (a := 5000) (b := 128) v _ reduces_S5000x128_S5000 _ _ p
  unfold kMean mean
  rw [divf_apply, shapeCast_col_apply, hs]
  rfl

theorem kNorm_apply (v : FVec Ideal S5000x128 .f32) (g β : FVec Ideal S128 .f32) (p : Fin 5000) (q : Fin 128) :
    kNorm v g β (ix2 p q) = normRow (fun c => v (ix2 p c)) (fun c => g (ix1 c)) (fun c => β (ix1 c)) q := by
  have hd : ∀ c : Fin 128, subf v (kCols (kMean v)) (ix2 p c) = v (ix2 p c) - mean (fun c => v (ix2 p c)) := fun c => by
    rw [subf_apply, kCols_apply, kMean_apply]
  have hvar : kMean (mulf (subf v (kCols (kMean v))) (subf v (kCols (kMean v)))) (ix2 p (0 : Fin 1)) = var (fun c => v (ix2 p c)) := by
    rw [kMean_apply]
    have hsq : (fun c : Fin 128 => mulf (subf v (kCols (kMean v))) (subf v (kCols (kMean v))) (ix2 p c))
        = fun c => (v (ix2 p c) - mean (fun c => v (ix2 p c))) * (v (ix2 p c) - mean (fun c => v (ix2 p c))) :=
      funext fun c => by rw [mulf_apply, hd c]
    rw [hsq]
    rfl
  unfold kNorm normRow
  rw [addf_apply, mulf_apply, mulf_apply, kRows_apply, kRows_apply, hd q, kCols_apply]
  have hr : rsqrt (addf (kMean (mulf (subf v (kCols (kMean v))) (subf v (kCols (kMean v)))))
        (broadcast S5000x1 (Scalar.ofBits (F := Ideal) .f32 0x3727C5AC#32))) (ix2 p (0 : Fin 1))
      = Ideal.rsqrt (var (fun c => v (ix2 p c)) + eps) := by
    show Ideal.rsqrt (kMean (mulf (subf v (kCols (kMean v))) (subf v (kCols (kMean v)))) (ix2 p (0 : Fin 1)) + _) = _
    rw [hvar]
    rfl
  rw [hr]

/-- The first layer kernel's block is the three stages composed. -/
theorem pay0_eq (x0 x1 : FVec Ideal S5000x128 .f32) (x2 : FVec Ideal S128x128 .f32) (x3 : FVec Ideal S128 .f32)
    (x4 : FVec Ideal S128x128 .f32) (x5 x6 x7 : FVec Ideal S128 .f32) :
    k0_pay1 (F := Ideal) (k0_pay2 x0 x1 x2 x3 x4 x5) x6 x7 = kNorm (kAff (kAff (addf x0 x1) x2 x3) x4 x5) x6 x7 := by
  unfold k0_pay1 k0_pay2
  rw [shapeCast_self]
  rfl

/-- The second layer kernel's block is the three stages composed. -/
theorem pay1_eq (x0 x1 : FVec Ideal S5000x128 .f32) (x2 : FVec Ideal S128x128 .f32) (x3 : FVec Ideal S128 .f32)
    (x4 : FVec Ideal S128x128 .f32) (x5 x6 x7 : FVec Ideal S128 .f32) :
    k1_pay1 (F := Ideal) (k1_pay4 x0 x1 x2 x3 x4 x5) (k1_pay5 x0 x1 x2 x3 x4 x5) x6 x7
      = kNorm (kAff (kAff (addf x0 x1) x2 x3) x4 x5) x6 x7 := by
  unfold k1_pay1 k1_pay4 k1_pay5 k1_pay3 k1_pay2
  rw [shapeCast_self, shapeCast_self]
  rfl

/-- The third layer kernel's block is the three stages composed. -/
theorem pay2_eq (x0 x1 : FVec Ideal S5000x128 .f32) (x2 : FVec Ideal S128x128 .f32) (x3 : FVec Ideal S128 .f32)
    (x4 : FVec Ideal S128x128 .f32) (x5 x6 x7 : FVec Ideal S128 .f32) :
    k2_pay1 (F := Ideal) (k2_pay4 x0 x1 x2 x3 x4 x5) (k2_pay5 x0 x1 x2 x3 x4 x5) x6 x7
      = kNorm (kAff (kAff (addf x0 x1) x2 x3) x4 x5) x6 x7 := by
  unfold k2_pay1 k2_pay4 k2_pay5 k2_pay3 k2_pay2
  rw [shapeCast_self, shapeCast_self]
  rfl

/-- Entry `(p, q)` of a layer kernel's block: the layer of row `p` of the two input blocks summed. -/
theorem layer_apply (x0 x1 : FVec Ideal S5000x128 .f32) (x2 : FVec Ideal S128x128 .f32) (x3 : FVec Ideal S128 .f32)
    (x4 : FVec Ideal S128x128 .f32) (x5 x6 x7 : FVec Ideal S128 .f32) (p : Fin 5000) (q : Fin 128) :
    kNorm (kAff (kAff (addf x0 x1) x2 x3) x4 x5) x6 x7 (ix2 p q)
      = rowLayer (fun k => x0 (ix2 p k) + x1 (ix2 p k)) (fun k c => x2 (ix2 k c)) (fun c => x3 (ix1 c))
          (fun k c => x4 (ix2 k c)) (fun c => x5 (ix1 c)) (fun c => x6 (ix1 c)) (fun c => x7 (ix1 c)) q := by
  rw [kNorm_apply]
  unfold rowLayer
  congr 1
  funext c
  rw [kAff_apply]
  congr 1
  funext k
  rw [kAff_apply]
  rfl

/-- Entry `(p, q)` of a head kernel's block: the head of row `p` of the input block. -/
theorem head_apply (x0 : FVec Ideal S5000x128 .f32) (W : FVec Ideal S128x64 .f32) (b : FVec Ideal S64 .f32) (p : Fin 5000) (q : Fin 64) :
    k3_pay2 (F := Ideal) x0 W b (ix2 p q) = rowHead (fun k => x0 (ix2 p k)) (fun k c => W (ix2 k c)) (fun c => b (ix1 c)) q := by
  unfold k3_pay2 k3_pay1 rowHead
  rw [shapeCast_self]
  show addf _ _ (ix2 p q) = _
  rw [addf_apply, broadcastTo_row_apply, shapeCast_row_apply]
  have hm : matmul dot_S5000x128_S128x64_S5000x64_1_0_0_1_n_n none
        (maximumf x0 (broadcast S5000x128 (Scalar.ofBits (F := Ideal) .f32 0x00000000#32))) W (constant S5000x64 .f32 0x00000000#32) (ix2 p q)
      = ∑ i : Fin 128, (maximumf x0 (broadcast S5000x128 (Scalar.ofBits (F := Ideal) .f32 0x00000000#32))) (ix2 p i) * W (ix2 i q) :=
    matmul_plain_zero_apply (m := 5000) (k := 128) (n := 64) dot_S5000x128_S128x64_S5000x64_1_0_0_1_n_n.wf none _ W p q
  rw [hm]
  rfl

/-- The second head is the first at its own matrix and bias. -/
theorem head2_eq (x0 : FVec Ideal S5000x128 .f32) (W : FVec Ideal S128x64 .f32) (b : FVec Ideal S64 .f32) :
    k3_pay3 (F := Ideal) x0 W b = k3_pay2 (F := Ideal) x0 W b := rfl

end Cert.KernelIdeal.Body

end
-- ==== Proof.KRegion0.lean ====
/-
  The array layer kernel 0 leaves: with `V` the arrays as the kernel finds them, its output array ends as the layer
  of `RowSpec` on every row of the two node arrays summed.

  The grid has twenty points; point `t` works on rows `5000 t … 5000 t + 4999` of the two node arrays and of the
  output, and on the whole of the two weight matrices and four vectors.  Entry `(p, q)` of the block point `t` writes
  back is the layer of row `p` of its input blocks, which is row `5000 t + p` of the arrays; row `r` of the output
  lies in the block of point `r / 5000`; so the twenty blocks are the restrictions of one whole-array function.
-/
import proofs.«161493_j33397665693785_1_alg».proof.Proof.Gen.KernelIdeal.Frame
import proofs.«161493_j33397665693785_1_alg».proof.Proof.KBody
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.RowSpec

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the node arrays' and the output's blocks move with the point along the
    rows; the matrices and vectors stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 2) = t.val ∧ win0_8.index t (1 : Fin 2) = 0 :=
  (by decide +kernel : ∀ t : Fin grid0.N, _)

theorem N_eq : cfg0.N = 20 := by decide +kernel

/-- Row `p` of a node array's block at point `t` is row `5000 t + p` of the array. -/
theorem rows_block (c : Dev nD) (t : Fin cfg0.N) (p : Fin 5000) (k : Fin 128) (r : Fin 100000) (hr : r.val = 5000 * t.val + p.val) :
    (iblk0 V c 0 t : Vec Ideal S5000x128 .f32) (ix2 p k) = (V c main_arg0 : S100000x128.Idx → EReal) (ix2 r k)
    ∧ (iblk0 V c 1 t : Vec Ideal S5000x128 .f32) (ix2 p k) = (V c main_v13 : S100000x128.Idx → EReal) (ix2 r k) := by
  obtain ⟨e0, e1, e2, e3, -⟩ := idx_facts t
  constructor
  · unfold iblk0
    rw [View.read_apply]
    show V c main_arg0 _ = V c main_arg0 _
    congr 1
    funext a
    apply Fin.ext
    match a with
    | ⟨0, _⟩ => show win0_0.index t (0 : Fin 2) * 5000 + 1 * p.val = r.val; rw [e0, hr]; omega
    | ⟨1, _⟩ => show win0_0.index t (1 : Fin 2) * 128 + 1 * k.val = k.val; rw [e1]; omega
  · unfold iblk0
    rw [View.read_apply]
    show V c main_v13 _ = V c main_v13 _
    congr 1
    funext a
    apply Fin.ext
    match a with
    | ⟨0, _⟩ => show win0_1.index t (0 : Fin 2) * 5000 + 1 * p.val = r.val; rw [e2, hr]; omega
    | ⟨1, _⟩ => show win0_1.index t (1 : Fin 2) * 128 + 1 * k.val = k.val; rw [e3]; omega

/-- A weight matrix's block at every point is the whole matrix. -/
theorem mat_block (c : Dev nD) (t : Fin cfg0.N) (k q : Fin 128) :
    (iblk0 V c 2 t : Vec Ideal S128x128 .f32) (ix2 k q) = (V c main_arg2 : S128x128.Idx → EReal) (ix2 k q)
    ∧ (iblk0 V c 4 t : Vec Ideal S128x128 .f32) (ix2 k q) = (V c main_arg4 : S128x128.Idx → EReal) (ix2 k q) := by
  obtain ⟨-, -, -, -, e4, e5, -, e7, e8, -⟩ := idx_facts t
  constructor
  · unfold iblk0
    rw [View.read_apply]
    show V c main_arg2 _ = V c main_arg2 _
    congr 1
    funext a
    apply Fin.ext
    match a with
    | ⟨0, _⟩ => show win0_2.index t (0 : Fin 2) * 128 + 1 * k.val = k.val; rw [e4]; omega
    | ⟨1, _⟩ => show win0_2.index t (1 : Fin 2) * 128 + 1 * q.val = q.val; rw [e5]; omega
  · unfold iblk0
    rw [View.read_apply]
    show V c main_arg4 _ = V c main_arg4 _
    congr 1
    funext a
    apply Fin.ext
    match a with
    | ⟨0, _⟩ => show win0_4.index t (0 : Fin 2) * 128 + 1 * k.val = k.val; rw [e7]; omega
    | ⟨1, _⟩ => show win0_4.index t (1 : Fin 2) * 128 + 1 * q.val = q.val; rw [e8]; omega

/-- A vector's block at every point is the whole vector. -/
theorem vec_block (c : Dev nD) (t : Fin cfg0.N) (q : Fin 128) :
    (iblk0 V c 3 t : Vec Ideal S128 .f32) (ix1 q) = (V c main_arg3 : S128.Idx → EReal) (ix1 q)
    ∧ (iblk0 V c 5 t : Vec Ideal S128 .f32) (ix1 q) = (V c main_arg5 : S128.Idx → EReal) (ix1 q)
    ∧ (iblk0 V c 6 t : Vec Ideal S128 .f32) (ix1 q) = (V c main_arg6 : S128.Idx → EReal) (ix1 q)
    ∧ (iblk0 V c 7 t : Vec Ideal S128 .f32) (ix1 q) = (V c main_arg7 : S128.Idx → EReal) (ix1 q) := by
  obtain ⟨-, -, -, -, -, -, e6, -, -, e9, e10, e11, -⟩ := idx_facts t
  refine ⟨?_, ?_, ?_, ?_⟩
  · unfold iblk0
    rw [View.read_apply]
    show V c main_arg3 _ = V c main_arg3 _
    congr 1
    funext a
    apply Fin.ext
    match a with
    | ⟨0, _⟩ => show win0_3.index t (0 : Fin 1) * 128 + 1 * q.val = q.val; rw [e6]; omega
  · unfold iblk0
    rw [View.read_apply]
    show V c main_arg5 _ = V c main_arg5 _
    congr 1
    funext a
    apply Fin.ext
    match a with
    | ⟨0, _⟩ => show win0_5.index t (0 : Fin 1) * 128 + 1 * q.val = q.val; rw [e9]; omega
  · unfold iblk0
    rw [View.read_apply]
    show V c main_arg6 _ = V c main_arg6 _
    congr 1
    funext a
    apply Fin.ext
    match a with
    | ⟨0, _⟩ => show win0_6.index t (0 : Fin 1) * 128 + 1 * q.val = q.val; rw [e10]; omega
  · unfold iblk0
    rw [View.read_apply]
    show V c main_arg7 _ = V c main_arg7 _
    congr 1
    funext a
    apply Fin.ext
    match a with
    | ⟨0, _⟩ => show win0_7.index t (0 : Fin 1) * 128 + 1 * q.val = q.val; rw [e11]; omega

/-- The whole-array function the output ends at. -/
abbrev G (c : Dev nD) : S100000x128.Idx → EReal :=
  layerFn (n := 100000) (V c main_arg0) (V c main_v13) (V c main_arg2) (V c main_arg3) (V c main_arg4) (V c main_arg5) (V c main_arg6) (V c main_arg7)

/-- What point `t` writes back is block `t` of `G`. -/
theorem flushed_eq (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S5000x128) hz, View.ld_unit_zero (S := S128x128) hz, View.ld_unit_zero (S := S128) hz1]
  rw [Body.pay0_eq]
  obtain ⟨-, -, -, -, -, -, -, -, -, -, -, -, e12, e13⟩ := idx_facts t
  have ht : t.val < 20 := lt_of_lt_of_eq t.isLt N_eq
  funext j
  have hj0 : (j 0).val < 5000 := (j 0).isLt
  have hj1 : (j 1).val < 128 := (j 1).isLt
  let p : Fin 5000 := ⟨(j 0).val, hj0⟩
  let q : Fin 128 := ⟨(j 1).val, hj1⟩
  let r : Fin 100000 := ⟨5000 * t.val + p.val, by show 5000 * t.val + (j 0).val < 100000; omega⟩
  have hjpq : j = ix2 p q := funext fun a => by
    match a with
    | ⟨0, _⟩ => rfl
    | ⟨1, _⟩ => rfl
  have hemb : ((cfg0.win 8).blk t).view.emb j = ix2 r q := by
    funext a
    apply Fin.ext
    match a with
    | ⟨0, _⟩ => show win0_8.index t (0 : Fin 2) * 5000 + 1 * (j 0).val = 5000 * t.val + (j 0).val; rw [e12]; omega
    | ⟨1, _⟩ => show win0_8.index t (1 : Fin 2) * 128 + 1 * (j 1).val = (j 1).val; rw [e13]; omega
  show _ = G V c (((cfg0.win 8).blk t).view.emb j)
  rw [hemb, hjpq]
  show Body.kNorm (Body.kAff (Body.kAff (addf (iblk0 V c 0 t : Vec Ideal S5000x128 .f32) (iblk0 V c 1 t)) (iblk0 V c 2 t) (iblk0 V c 3 t))
      (iblk0 V c 4 t) (iblk0 V c 5 t)) (iblk0 V c 6 t) (iblk0 V c 7 t) (ix2 p q) = G V c (ix2 r q)
  rw [Body.layer_apply]
  show _ = rowLayer _ _ _ _ _ _ _ q
  congr 1
  · funext k
    rw [(rows_block V c t p k r rfl).1, (rows_block V c t p k r rfl).2]
  · funext k c'
    exact (mat_block V c t k c').1
  · funext c'
    exact (vec_block V c t c').1
  · funext k c'
    exact (mat_block V c t k c').2
  · funext c'
    exact (vec_block V c t c').2.1
  · funext c'
    exact (vec_block V c t c').2.2.1
  · funext c'
    exact (vec_block V c t c').2.2.2

/-- An index of the output is in point `t`'s block iff its row is among that point's 5000 rows. -/
theorem mem_blk (t : Fin cfg0.N) (i : S100000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v14).slice (win0_8.rect t)).set ↔ _
  rw [View.set_slice_whole, Rect.mem_set_unit]
  exact Iff.rfl

/-- Every index of the output lies in the block of the point its row belongs to. -/
theorem cover (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  let t : Fin cfg0.N := ⟨(i 0).val / 5000, by rw [N_eq]; omega⟩
  obtain ⟨-, -, -, -, -, -, -, -, -, -, -, -, e12, e13⟩ := idx_facts t
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    rw [e12]
    show (i 0).val / 5000 * 5000 ≤ (i 0).val ∧ (i 0).val < (i 0).val / 5000 * 5000 + 5000
    omega
  | ⟨1, _⟩ =>
    show win0_8.index t (1 : Fin 2) * 128 ≤ (i 1).val ∧ (i 1).val < win0_8.index t (1 : Fin 2) * 128 + 128
    rw [e13]
    omega

/-- The output array after the kernel: the layer on every row. -/
theorem value (c : Dev nD) : (dat0 V c).arrAt 8 cfg0.N = G V c :=
  (dat0 V c).arrAt_eq_of_cover 8 (G V c) (fun t _ => flushed_eq V c t) cover

end Cert.KernelIdeal.Region0

end
-- ==== Proof.KRegion1.lean ====
/-
  The array layer kernel 1 leaves: with `V` the arrays as the kernel finds them, its output array ends as the layer
  of `RowSpec` on every row of the two node arrays summed.

  The grid has twenty points; point `t` works on rows `5000 t … 5000 t + 4999` of the two node arrays and of the
  output, and on the whole of the two weight matrices and four vectors.  Entry `(p, q)` of the block point `t` writes
  back is the layer of row `p` of its input blocks, which is row `5000 t + p` of the arrays; row `r` of the output
  lies in the block of point `r / 5000`; so the twenty blocks are the restrictions of one whole-array function.
-/
import proofs.«161493_j33397665693785_1_alg».proof.Proof.Gen.KernelIdeal.Frame
import proofs.«161493_j33397665693785_1_alg».proof.Proof.KBody
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.RowSpec

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the node arrays' and the output's blocks move with the point along the
    rows; the matrices and vectors stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 ∧ win1_6.index t (0 : Fin 1) = 0 ∧ win1_7.index t (0 : Fin 1) = 0
    ∧ win1_8.index t (0 : Fin 2) = t.val ∧ win1_8.index t (1 : Fin 2) = 0 :=
  (by decide +kernel : ∀ t : Fin grid1.N, _)

theorem N_eq : cfg1.N = 20 := by decide +kernel

/-- Row `p` of a node array's block at point `t` is row `5000 t + p` of the array. -/
theorem rows_block (c : Dev nD) (t : Fin cfg1.N) (p : Fin 5000) (k : Fin 128) (r : Fin 100000) (hr : r.val = 5000 * t.val + p.val) :
    (iblk1 V c 0 t : Vec Ideal S5000x128 .f32) (ix2 p k) = (V c main_v14 : S100000x128.Idx → EReal) (ix2 r k)
    ∧ (iblk1 V c 1 t : Vec Ideal S5000x128 .f32) (ix2 p k) = (V c main_v24 : S100000x128.Idx → EReal) (ix2 r k) := by
  obtain ⟨e0, e1, e2, e3, -⟩ := idx_facts t
  constructor
  · unfold iblk1
    rw [View.read_apply]
    show V c main_v14 _ = V c main_v14 _
    congr 1
    funext a
    apply Fin.ext
    match a with
    | ⟨0, _⟩ => show win1_0.index t (0 : Fin 2) * 5000 + 1 * p.val = r.val; rw [e0, hr]; omega
    | ⟨1, _⟩ => show win1_0.index t (1 : Fin 2) * 128 + 1 * k.val = k.val; rw [e1]; omega
  · unfold iblk1
    rw [View.read_apply]
    show V c main_v24 _ = V c main_v24 _
    congr 1
    funext a
    apply Fin.ext
    match a with
    | ⟨0, _⟩ => show win1_1.index t (0 : Fin 2) * 5000 + 1 * p.val = r.val; rw [e2, hr]; omega
    | ⟨1, _⟩ => show win1_1.index t (1 : Fin 2) * 128 + 1 * k.val = k.val; rw [e3]; omega

/-- A weight matrix's block at every point is the whole matrix. -/
theorem mat_block (c : Dev nD) (t : Fin cfg1.N) (k q : Fin 128) :
    (iblk1 V c 2 t : Vec Ideal S128x128 .f32) (ix2 k q) = (V c main_arg8 : S128x128.Idx → EReal) (ix2 k q)
    ∧ (iblk1 V c 4 t : Vec Ideal S128x128 .f32) (ix2 k q) = (V c main_arg10 : S128x128.Idx → EReal) (ix2 k q) := by
  obtain ⟨-, -, -, -, e4, e5, -, e7, e8, -⟩ := idx_facts t
  constructor
  · unfold iblk1
    rw [View.read_apply]
    show V c main_arg8 _ = V c main_arg8 _
    congr 1
    funext a
    apply Fin.ext
    match a with
    | ⟨0, _⟩ => show win1_2.index t (0 : Fin 2) * 128 + 1 * k.val = k.val; rw [e4]; omega
    | ⟨1, _⟩ => show win1_2.index t (1 : Fin 2) * 128 + 1 * q.val = q.val; rw [e5]; omega
  · unfold iblk1
    rw [View.read_apply]
    show V c main_arg10 _ = V c main_arg10 _
    congr 1
    funext a
    apply Fin.ext
    match a with
    | ⟨0, _⟩ => show win1_4.index t (0 : Fin 2) * 128 + 1 * k.val = k.val; rw [e7]; omega
    | ⟨1, _⟩ => show win1_4.index t (1 : Fin 2) * 128 + 1 * q.val = q.val; rw [e8]; omega

/-- A vector's block at every point is the whole vector. -/
theorem vec_block (c : Dev nD) (t : Fin cfg1.N) (q : Fin 128) :
    (iblk1 V c 3 t : Vec Ideal S128 .f32) (ix1 q) = (V c main_arg9 : S128.Idx → EReal) (ix1 q)
    ∧ (iblk1 V c 5 t : Vec Ideal S128 .f32) (ix1 q) = (V c main_arg11 : S128.Idx → EReal) (ix1 q)
    ∧ (iblk1 V c 6 t : Vec Ideal S128 .f32) (ix1 q) = (V c main_arg12 : S128.Idx → EReal) (ix1 q)
    ∧ (iblk1 V c 7 t : Vec Ideal S128 .f32) (ix1 q) = (V c main_arg13 : S128.Idx → EReal) (ix1 q) := by
  obtain ⟨-, -, -, -, -, -, e6, -, -, e9, e10, e11, -⟩ := idx_facts t
  refine ⟨?_, ?_, ?_, ?_⟩
  · unfold iblk1
    rw [View.read_apply]
    show V c main_arg9 _ = V c main_arg9 _
    congr 1
    funext a
    apply Fin.ext
    match a with
    | ⟨0, _⟩ => show win1_3.index t (0 : Fin 1) * 128 + 1 * q.val = q.val; rw [e6]; omega
  · unfold iblk1
    rw [View.read_apply]
    show V c main_arg11 _ = V c main_arg11 _
    congr 1
    funext a
    apply Fin.ext
    match a with
    | ⟨0, _⟩ => show win1_5.index t (0 : Fin 1) * 128 + 1 * q.val = q.val; rw [e9]; omega
  · unfold iblk1
    rw [View.read_apply]
    show V c main_arg12 _ = V c main_arg12 _
    congr 1
    funext a
    apply Fin.ext
    match a with
    | ⟨0, _⟩ => show win1_6.index t (0 : Fin 1) * 128 + 1 * q.val = q.val; rw [e10]; omega
  · unfold iblk1
    rw [View.read_apply]
    show V c main_arg13 _ = V c main_arg13 _
    congr 1
    funext a
    apply Fin.ext
    match a with
    | ⟨0, _⟩ => show win1_7.index t (0 : Fin 1) * 128 + 1 * q.val = q.val; rw [e11]; omega

/-- The whole-array function the output ends at. -/
abbrev G (c : Dev nD) : S100000x128.Idx → EReal :=
  layerFn (n := 100000) (V c main_v14) (V c main_v24) (V c main_arg8) (V c main_arg9) (V c main_arg10) (V c main_arg11) (V c main_arg12) (V c main_arg13)

/-- What point `t` writes back is block `t` of `G`. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x128) hz, View.ld_unit_zero (S := S128) hz1]
  rw [Body.pay1_eq]
  obtain ⟨-, -, -, -, -, -, -, -, -, -, -, -, e12, e13⟩ := idx_facts t
  have ht : t.val < 20 := lt_of_lt_of_eq t.isLt N_eq
  funext j
  have hj0 : (j 0).val < 5000 := (j 0).isLt
  have hj1 : (j 1).val < 128 := (j 1).isLt
  let p : Fin 5000 := ⟨(j 0).val, hj0⟩
  let q : Fin 128 := ⟨(j 1).val, hj1⟩
  let r : Fin 100000 := ⟨5000 * t.val + p.val, by show 5000 * t.val + (j 0).val < 100000; omega⟩
  have hjpq : j = ix2 p q := funext fun a => by
    match a with
    | ⟨0, _⟩ => rfl
    | ⟨1, _⟩ => rfl
  have hemb : ((cfg1.win 8).blk t).view.emb j = ix2 r q := by
    funext a
    apply Fin.ext
    match a with
    | ⟨0, _⟩ => show win1_8.index t (0 : Fin 2) * 5000 + 1 * (j 0).val = 5000 * t.val + (j 0).val; rw [e12]; omega
    | ⟨1, _⟩ => show win1_8.index t (1 : Fin 2) * 128 + 1 * (j 1).val = (j 1).val; rw [e13]; omega
  show _ = G V c (((cfg1.win 8).blk t).view.emb j)
  rw [hemb, hjpq]
  show Body.kNorm (Body.kAff (Body.kAff (addf (iblk1 V c 0 t : Vec Ideal S5000x128 .f32) (iblk1 V c 1 t)) (iblk1 V c 2 t) (iblk1 V c 3 t))
      (iblk1 V c 4 t) (iblk1 V c 5 t)) (iblk1 V c 6 t) (iblk1 V c 7 t) (ix2 p q) = G V c (ix2 r q)
  rw [Body.layer_apply]
  show _ = rowLayer _ _ _ _ _ _ _ q
  congr 1
  · funext k
    rw [(rows_block V c t p k r rfl).1, (rows_block V c t p k r rfl).2]
  · funext k c'
    exact (mat_block V c t k c').1
  · funext c'
    exact (vec_block V c t c').1
  · funext k c'
    exact (mat_block V c t k c').2
  · funext c'
    exact (vec_block V c t c').2.1
  · funext c'
    exact (vec_block V c t c').2.2.1
  · funext c'
    exact (vec_block V c t c').2.2.2

/-- An index of the output is in point `t`'s block iff its row is among that point's 5000 rows. -/
theorem mem_blk (t : Fin cfg1.N) (i : S100000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v25).slice (win1_8.rect t)).set ↔ _
  rw [View.set_slice_whole, Rect.mem_set_unit]
  exact Iff.rfl

/-- Every index of the output lies in the block of the point its row belongs to. -/
theorem cover (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  let t : Fin cfg1.N := ⟨(i 0).val / 5000, by rw [N_eq]; omega⟩
  obtain ⟨-, -, -, -, -, -, -, -, -, -, -, -, e12, e13⟩ := idx_facts t
  refine ⟨t, flush1_8 t, ?_⟩
  rw [mem_blk]
  intro a
  match a with
  | ⟨0, _⟩ =>
    show win1_8.index t (0 : Fin 2) * 5000 ≤ (i 0).val ∧ (i 0).val < win1_8.index t (0 : Fin 2) * 5000 + 5000
    rw [e12]
    show (i 0).val / 5000 * 5000 ≤ (i 0).val ∧ (i 0).val < (i 0).val / 5000 * 5000 + 5000
    omega
  | ⟨1, _⟩ =>
    show win1_8.index t (1 : Fin 2) * 128 ≤ (i 1).val ∧ (i 1).val < win1_8.index t (1 : Fin 2) * 128 + 128
    rw [e13]
    omega

/-- The output array after the kernel: the layer on every row. -/
theorem value (c : Dev nD) : (dat1 V c).arrAt 8 cfg1.N = G V c :=
  (dat1 V c).arrAt_eq_of_cover 8 (G V c) (fun t _ => flushed_eq V c t) cover

end Cert.KernelIdeal.Region1

end
-- ==== Proof.KRegion2.lean ====
/-
  The array layer kernel 2 leaves: with `V` the arrays as the kernel finds them, its output array ends as the layer
  of `RowSpec` on every row of the two node arrays summed.

  The grid has twenty points; point `t` works on rows `5000 t … 5000 t + 4999` of the two node arrays and of the
  output, and on the whole of the two weight matrices and four vectors.  Entry `(p, q)` of the block point `t` writes
  back is the layer of row `p` of its input blocks, which is row `5000 t + p` of the arrays; row `r` of the output
  lies in the block of point `r / 5000`; so the twenty blocks are the restrictions of one whole-array function.
-/
import proofs.«161493_j33397665693785_1_alg».proof.Proof.Gen.KernelIdeal.Frame
import proofs.«161493_j33397665693785_1_alg».proof.Proof.KBody
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.RowSpec

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the node arrays' and the output's blocks move with the point along the
    rows; the matrices and vectors stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0 ∧ win2_6.index t (0 : Fin 1) = 0 ∧ win2_7.index t (0 : Fin 1) = 0
    ∧ win2_8.index t (0 : Fin 2) = t.val ∧ win2_8.index t (1 : Fin 2) = 0 :=
  (by decide +kernel : ∀ t : Fin grid2.N, _)

theorem N_eq : cfg2.N = 20 := by decide +kernel

/-- Row `p` of a node array's block at point `t` is row `5000 t + p` of the array. -/
theorem rows_block (c : Dev nD) (t : Fin cfg2.N) (p : Fin 5000) (k : Fin 128) (r : Fin 100000) (hr : r.val = 5000 * t.val + p.val) :
    (iblk2 V c 0 t : Vec Ideal S5000x128 .f32) (ix2 p k) = (V c main_v25 : S100000x128.Idx → EReal) (ix2 r k)
    ∧ (iblk2 V c 1 t : Vec Ideal S5000x128 .f32) (ix2 p k) = (V c main_v35 : S100000x128.Idx → EReal) (ix2 r k) := by
  obtain ⟨e0, e1, e2, e3, -⟩ := idx_facts t
  constructor
  · unfold iblk2
    rw [View.read_apply]
    show V c main_v25 _ = V c main_v25 _
    congr 1
    funext a
    apply Fin.ext
    match a with
    | ⟨0, _⟩ => show win2_0.index t (0 : Fin 2) * 5000 + 1 * p.val = r.val; rw [e0, hr]; omega
    | ⟨1, _⟩ => show win2_0.index t (1 : Fin 2) * 128 + 1 * k.val = k.val; rw [e1]; omega
  · unfold iblk2
    rw [View.read_apply]
    show V c main_v35 _ = V c main_v35 _
    congr 1
    funext a
    apply Fin.ext
    match a with
    | ⟨0, _⟩ => show win2_1.index t (0 : Fin 2) * 5000 + 1 * p.val = r.val; rw [e2, hr]; omega
    | ⟨1, _⟩ => show win2_1.index t (1 : Fin 2) * 128 + 1 * k.val = k.val; rw [e3]; omega

/-- A weight matrix's block at every point is the whole matrix. -/
theorem mat_block (c : Dev nD) (t : Fin cfg2.N) (k q : Fin 128) :
    (iblk2 V c 2 t : Vec Ideal S128x128 .f32) (ix2 k q) = (V c main_arg14 : S128x128.Idx → EReal) (ix2 k q)
    ∧ (iblk2 V c 4 t : Vec Ideal S128x128 .f32) (ix2 k q) = (V c main_arg16 : S128x128.Idx → EReal) (ix2 k q) := by
  obtain ⟨-, -, -, -, e4, e5, -, e7, e8, -⟩ := idx_facts t
  constructor
  · unfold iblk2
    rw [View.read_apply]
    show V c main_arg14 _ = V c main_arg14 _
    congr 1
    funext a
    apply Fin.ext
    match a with
    | ⟨0, _⟩ => show win2_2.index t (0 : Fin 2) * 128 + 1 * k.val = k.val; rw [e4]; omega
    | ⟨1, _⟩ => show win2_2.index t (1 : Fin 2) * 128 + 1 * q.val = q.val; rw [e5]; omega
  · unfold iblk2
    rw [View.read_apply]
    show V c main_arg16 _ = V c main_arg16 _
    congr 1
    funext a
    apply Fin.ext
    match a with
    | ⟨0, _⟩ => show win2_4.index t (0 : Fin 2) * 128 + 1 * k.val = k.val; rw [e7]; omega
    | ⟨1, _⟩ => show win2_4.index t (1 : Fin 2) * 128 + 1 * q.val = q.val; rw [e8]; omega

/-- A vector's block at every point is the whole vector. -/
theorem vec_block (c : Dev nD) (t : Fin cfg2.N) (q : Fin 128) :
    (iblk2 V c 3 t : Vec Ideal S128 .f32) (ix1 q) = (V c main_arg15 : S128.Idx → EReal) (ix1 q)
    ∧ (iblk2 V c 5 t : Vec Ideal S128 .f32) (ix1 q) = (V c main_arg17 : S128.Idx → EReal) (ix1 q)
    ∧ (iblk2 V c 6 t : Vec Ideal S128 .f32) (ix1 q) = (V c main_arg18 : S128.Idx → EReal) (ix1 q)
    ∧ (iblk2 V c 7 t : Vec Ideal S128 .f32) (ix1 q) = (V c main_arg19 : S128.Idx → EReal) (ix1 q) := by
  obtain ⟨-, -, -, -, -, -, e6, -, -, e9, e10, e11, -⟩ := idx_facts t
  refine ⟨?_, ?_, ?_, ?_⟩
  · unfold iblk2
    rw [View.read_apply]
    show V c main_arg15 _ = V c main_arg15 _
    congr 1
    funext a
    apply Fin.ext
    match a with
    | ⟨0, _⟩ => show win2_3.index t (0 : Fin 1) * 128 + 1 * q.val = q.val; rw [e6]; omega
  · unfold iblk2
    rw [View.read_apply]
    show V c main_arg17 _ = V c main_arg17 _
    congr 1
    funext a
    apply Fin.ext
    match a with
    | ⟨0, _⟩ => show win2_5.index t (0 : Fin 1) * 128 + 1 * q.val = q.val; rw [e9]; omega
  · unfold iblk2
    rw [View.read_apply]
    show V c main_arg18 _ = V c main_arg18 _
    congr 1
    funext a
    apply Fin.ext
    match a with
    | ⟨0, _⟩ => show win2_6.index t (0 : Fin 1) * 128 + 1 * q.val = q.val; rw [e10]; omega
  · unfold iblk2
    rw [View.read_apply]
    show V c main_arg19 _ = V c main_arg19 _
    congr 1
    funext a
    apply Fin.ext
    match a with
    | ⟨0, _⟩ => show win2_7.index t (0 : Fin 1) * 128 + 1 * q.val = q.val; rw [e11]; omega

/-- The whole-array function the output ends at. -/
abbrev G (c : Dev nD) : S100000x128.Idx → EReal :=
  layerFn (n := 100000) (V c main_v25) (V c main_v35) (V c main_arg14) (V c main_arg15) (V c main_arg16) (V c main_arg17) (V c main_arg18) (V c main_arg19)

/-- What point `t` writes back is block `t` of `G`. -/
theorem flushed_eq (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz]
  simp only [View.ld_unit_zero (S := S5000x128) hz, View.ld_unit_zero (S := S128x128) hz, View.ld_unit_zero (S := S128) hz1]
  rw [Body.pay2_eq]
  obtain ⟨-, -, -, -, -, -, -, -, -, -, -, -, e12, e13⟩ := idx_facts t
  have ht : t.val < 20 := lt_of_lt_of_eq t.isLt N_eq
  funext j
  have hj0 : (j 0).val < 5000 := (j 0).isLt
  have hj1 : (j 1).val < 128 := (j 1).isLt
  let p : Fin 5000 := ⟨(j 0).val, hj0⟩
  let q : Fin 128 := ⟨(j 1).val, hj1⟩
  let r : Fin 100000 := ⟨5000 * t.val + p.val, by show 5000 * t.val + (j 0).val < 100000; omega⟩
  have hjpq : j = ix2 p q := funext fun a => by
    match a with
    | ⟨0, _⟩ => rfl
    | ⟨1, _⟩ => rfl
  have hemb : ((cfg2.win 8).blk t).view.emb j = ix2 r q := by
    funext a
    apply Fin.ext
    match a with
    | ⟨0, _⟩ => show win2_8.index t (0 : Fin 2) * 5000 + 1 * (j 0).val = 5000 * t.val + (j 0).val; rw [e12]; omega
    | ⟨1, _⟩ => show win2_8.index t (1 : Fin 2) * 128 + 1 * (j 1).val = (j 1).val; rw [e13]; omega
  show _ = G V c (((cfg2.win 8).blk t).view.emb j)
  rw [hemb, hjpq]
  show Body.kNorm (Body.kAff (Body.kAff (addf (iblk2 V c 0 t : Vec Ideal S5000x128 .f32) (iblk2 V c 1 t)) (iblk2 V c 2 t) (iblk2 V c 3 t))
      (iblk2 V c 4 t) (iblk2 V c 5 t)) (iblk2 V c 6 t) (iblk2 V c 7 t) (ix2 p q) = G V c (ix2 r q)
  rw [Body.layer_apply]
  show _ = rowLayer _ _ _ _ _ _ _ q
  congr 1
  · funext k
    rw [(rows_block V c t p k r rfl).1, (rows_block V c t p k r rfl).2]
  · funext k c'
    exact (mat_block V c t k c').1
  · funext c'
    exact (vec_block V c t c').1
  · funext k c'
    exact (mat_block V c t k c').2
  · funext c'
    exact (vec_block V c t c').2.1
  · funext c'
    exact (vec_block V c t c').2.2.1
  · funext c'
    exact (vec_block V c t c').2.2.2

/-- An index of the output is in point `t`'s block iff its row is among that point's 5000 rows. -/
theorem mem_blk (t : Fin cfg2.N) (i : S100000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v36).slice (win2_8.rect t)).set ↔ _
  rw [View.set_slice_whole, Rect.mem_set_unit]
  exact Iff.rfl

/-- Every index of the output lies in the block of the point its row belongs to. -/
theorem cover (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  let t : Fin cfg2.N := ⟨(i 0).val / 5000, by rw [N_eq]; omega⟩
  obtain ⟨-, -, -, -, -, -, -, -, -, -, -, -, e12, e13⟩ := idx_facts t
  refine ⟨t, flush2_8 t, ?_⟩
  rw [mem_blk]
  intro a
  match a with
  | ⟨0, _⟩ =>
    show win2_8.index t (0 : Fin 2) * 5000 ≤ (i 0).val ∧ (i 0).val < win2_8.index t (0 : Fin 2) * 5000 + 5000
    rw [e12]
    show (i 0).val / 5000 * 5000 ≤ (i 0).val ∧ (i 0).val < (i 0).val / 5000 * 5000 + 5000
    omega
  | ⟨1, _⟩ =>
    show win2_8.index t (1 : Fin 2) * 128 ≤ (i 1).val ∧ (i 1).val < win2_8.index t (1 : Fin 2) * 128 + 128
    rw [e13]
    omega

/-- The output array after the kernel: the layer on every row. -/
theorem value (c : Dev nD) : (dat2 V c).arrAt 8 cfg2.N = G V c :=
  (dat2 V c).arrAt_eq_of_cover 8 (G V c) (fun t _ => flushed_eq V c t) cover

end Cert.KernelIdeal.Region2

end
-- ==== Proof.KRegion3.lean ====
/-
  The arrays the head kernel leaves: with `V` the arrays as the kernel finds them, each of its two outputs ends as the
  head of `RowSpec` on every row of the node array, at that output's matrix and bias.

  The grid has twenty points; point `t` works on rows `5000 t … 5000 t + 4999` of the node array and of both
  outputs, and on the whole of the two matrices and two biases.  Entry `(p, q)` of a block point `t` writes back is
  the head of row `p` of its input block, which is row `5000 t + p` of the node array; row `r` of an output lies in the
  block of point `r / 5000`.
-/
import proofs.«161493_j33397665693785_1_alg».proof.Proof.Gen.KernelIdeal.Frame
import proofs.«161493_j33397665693785_1_alg».proof.Proof.KBody
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.RowSpec

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the node array's and both outputs' blocks move with the point along the
    rows; the matrices and biases stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

theorem N_eq : cfg3.N = 20 := by decide +kernel

/-- Row `p` of the node array's block at point `t` is row `5000 t + p` of the array. -/
theorem rows_block (c : Dev nD) (t : Fin cfg3.N) (p : Fin 5000) (k : Fin 128) (r : Fin 100000) (hr : r.val = 5000 * t.val + p.val) :
    (iblk3 V c 0 t : Vec Ideal S5000x128 .f32) (ix2 p k) = (V c main_v36 : S100000x128.Idx → EReal) (ix2 r k) := by
  obtain ⟨e0, e1, -⟩ := idx_facts t
  unfold iblk3
  rw [View.read_apply]
  show V c main_v36 _ = V c main_v36 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- A matrix's block at every point is the whole matrix. -/
theorem mat_block (c : Dev nD) (t : Fin cfg3.N) (k : Fin 128) (q : Fin 64) :
    (iblk3 V c 1 t : Vec Ideal S128x64 .f32) (ix2 k q) = (V c main_arg20 : S128x64.Idx → EReal) (ix2 k q)
    ∧ (iblk3 V c 3 t : Vec Ideal S128x64 .f32) (ix2 k q) = (V c main_arg22 : S128x64.Idx → EReal) (ix2 k q) := by
  obtain ⟨-, -, e2, e3, -, e5, e6, -⟩ := idx_facts t
  constructor
  · unfold iblk3
    rw [View.read_apply]
    show V c main_arg20 _ = V c main_arg20 _
    congr 1
    funext a
    apply Fin.ext
    match a with
    | ⟨0, _⟩ => show win3_1.index t (0 : Fin 2) * 128 + 1 * k.val = k.val; rw [e2]; omega
    | ⟨1, _⟩ => show win3_1.index t (1 : Fin 2) * 64 + 1 * q.val = q.val; rw [e3]; omega
  · unfold iblk3
    rw [View.read_apply]
    show V c main_arg22 _ = V c main_arg22 _
    congr 1
    funext a
    apply Fin.ext
    match a with
    | ⟨0, _⟩ => show win3_3.index t (0 : Fin 2) * 128 + 1 * k.val = k.val; rw [e5]; omega
    | ⟨1, _⟩ => show win3_3.index t (1 : Fin 2) * 64 + 1 * q.val = q.val; rw [e6]; omega

/-- A bias's block at every point is the whole bias. -/
theorem vec_block (c : Dev nD) (t : Fin cfg3.N) (q : Fin 64) :
    (iblk3 V c 2 t : Vec Ideal S64 .f32) (ix1 q) = (V c main_arg21 : S64.Idx → EReal) (ix1 q)
    ∧ (iblk3 V c 4 t : Vec Ideal S64 .f32) (ix1 q) = (V c main_arg23 : S64.Idx → EReal) (ix1 q) := by
  obtain ⟨-, -, -, -, e4, -, -, e7, -⟩ := idx_facts t
  constructor
  · unfold iblk3
    rw [View.read_apply]
    show V c main_arg21 _ = V c main_arg21 _
    congr 1
    funext a
    apply Fin.ext
    match a with
    | ⟨0, _⟩ => show win3_2.index t (0 : Fin 1) * 64 + 1 * q.val = q.val; rw [e4]; omega
  · unfold iblk3
    rw [View.read_apply]
    show V c main_arg23 _ = V c main_arg23 _
    congr 1
    funext a
    apply Fin.ext
    match a with
    | ⟨0, _⟩ => show win3_4.index t (0 : Fin 1) * 64 + 1 * q.val = q.val; rw [e7]; omega

/-- The whole-array functions the two outputs end at. -/
abbrev G5 (c : Dev nD) : S100000x64.Idx → EReal := headFn (n := 100000) (V c main_v36) (V c main_arg20) (V c main_arg21)
abbrev G6 (c : Dev nD) : S100000x64.Idx → EReal := headFn (n := 100000) (V c main_v36) (V c main_arg22) (V c main_arg23)

/-- What point `t` writes back to the first output is block `t` of `G5`. -/
theorem flushed5_eq (c : Dev nD) (t : Fin cfg3.N) :
    (dat3 V c).flushed 5 t = ((cfg3.win 5).blk t).view.read (Elt Ideal) (G5 V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x64) hz, View.ld_unit_zero (S := S64) hz1]
  obtain ⟨-, -, -, -, -, -, -, -, e8, e9, -⟩ := idx_facts t
  have ht : t.val < 20 := lt_of_lt_of_eq t.isLt N_eq
  funext j
  have hj0 : (j 0).val < 5000 := (j 0).isLt
  have hj1 : (j 1).val < 64 := (j 1).isLt
  let p : Fin 5000 := ⟨(j 0).val, hj0⟩
  let q : Fin 64 := ⟨(j 1).val, hj1⟩
  let r : Fin 100000 := ⟨5000 * t.val + p.val, by show 5000 * t.val + (j 0).val < 100000; omega⟩
  have hjpq : j = ix2 p q := funext fun a => by
    match a with
    | ⟨0, _⟩ => rfl
    | ⟨1, _⟩ => rfl
  have hemb : ((cfg3.win 5).blk t).view.emb j = ix2 r q := by
    funext a
    apply Fin.ext
    match a with
    | ⟨0, _⟩ => show win3_5.index t (0 : Fin 2) * 5000 + 1 * (j 0).val = 5000 * t.val + (j 0).val; rw [e8]; omega
    | ⟨1, _⟩ => show win3_5.index t (1 : Fin 2) * 64 + 1 * (j 1).val = (j 1).val; rw [e9]; omega
  show _ = G5 V c (((cfg3.win 5).blk t).view.emb j)
  rw [hemb, hjpq]
  show k3_pay2 (F := Ideal) (iblk3 V c 0 t : Vec Ideal S5000x128 .f32) (iblk3 V c 1 t) (iblk3 V c 2 t) (ix2 p q) = G5 V c (ix2 r q)
  rw [Body.head_apply]
  show _ = rowHead _ _ _ q
  congr 1
  · funext k
    exact rows_block V c t p k r rfl
  · funext k c'
    exact (mat_block V c t k c').1
  · funext c'
    exact (vec_block V c t c').1

/-- What point `t` writes back to the second output is block `t` of `G6`. -/
theorem flushed6_eq (c : Dev nD) (t : Fin cfg3.N) :
    (dat3 V c).flushed 6 t = ((cfg3.win 6).blk t).view.read (Elt Ideal) (G6 V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x64) hz, View.ld_unit_zero (S := S64) hz1]
  obtain ⟨-, -, -, -, -, -, -, -, -, -, e10, e11⟩ := idx_facts t
  have ht : t.val < 20 := lt_of_lt_of_eq t.isLt N_eq
  funext j
  have hj0 : (j 0).val < 5000 := (j 0).isLt
  have hj1 : (j 1).val < 64 := (j 1).isLt
  let p : Fin 5000 := ⟨(j 0).val, hj0⟩
  let q : Fin 64 := ⟨(j 1).val, hj1⟩
  let r : Fin 100000 := ⟨5000 * t.val + p.val, by show 5000 * t.val + (j 0).val < 100000; omega⟩
  have hjpq : j = ix2 p q := funext fun a => by
    match a with
    | ⟨0, _⟩ => rfl
    | ⟨1, _⟩ => rfl
  have hemb : ((cfg3.win 6).blk t).view.emb j = ix2 r q := by
    funext a
    apply Fin.ext
    match a with
    | ⟨0, _⟩ => show win3_6.index t (0 : Fin 2) * 5000 + 1 * (j 0).val = 5000 * t.val + (j 0).val; rw [e10]; omega
    | ⟨1, _⟩ => show win3_6.index t (1 : Fin 2) * 64 + 1 * (j 1).val = (j 1).val; rw [e11]; omega
  show _ = G6 V c (((cfg3.win 6).blk t).view.emb j)
  rw [hemb, hjpq]
  show k3_pay3 (F := Ideal) (iblk3 V c 0 t : Vec Ideal S5000x128 .f32) (iblk3 V c 3 t) (iblk3 V c 4 t) (ix2 p q) = G6 V c (ix2 r q)
  rw [Body.head2_eq, Body.head_apply]
  show _ = rowHead _ _ _ q
  congr 1
  · funext k
    exact rows_block V c t p k r rfl
  · funext k c'
    exact (mat_block V c t k c').2
  · funext c'
    exact (vec_block V c t c').2

/-- An index of an output is in point `t`'s block iff its row is among that point's 5000 rows. -/
theorem mem_blk5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v37_0).slice (win3_5.rect t)).set ↔ _
  rw [View.set_slice_whole, Rect.mem_set_unit]
  exact Iff.rfl

theorem mem_blk6 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v37_1).slice (win3_6.rect t)).set ↔ _
  rw [View.set_slice_whole, Rect.mem_set_unit]
  exact Iff.rfl

/-- Every index of the first output lies in the block of the point its row belongs to. -/
theorem cover5 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 5000, by rw [N_eq]; omega⟩
  obtain ⟨-, -, -, -, -, -, -, -, e8, e9, -⟩ := idx_facts t
  refine ⟨t, flush3_5 t, ?_⟩
  rw [mem_blk5]
  intro a
  match a with
  | ⟨0, _⟩ =>
    show win3_5.index t (0 : Fin 2) * 5000 ≤ (i 0).val ∧ (i 0).val < win3_5.index t (0 : Fin 2) * 5000 + 5000
    rw [e8]
    show (i 0).val / 5000 * 5000 ≤ (i 0).val ∧ (i 0).val < (i 0).val / 5000 * 5000 + 5000
    omega
  | ⟨1, _⟩ =>
    show win3_5.index t (1 : Fin 2) * 64 ≤ (i 1).val ∧ (i 1).val < win3_5.index t (1 : Fin 2) * 64 + 64
    rw [e9]
    omega

/-- Every index of the second output lies in the block of the point its row belongs to. -/
theorem cover6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  let t : Fin cfg3.N := ⟨(i 0).val / 5000, by rw [N_eq]; omega⟩
  obtain ⟨-, -, -, -, -, -, -, -, -, -, e10, e11⟩ := idx_facts t
  refine ⟨t, flush3_6 t, ?_⟩
  rw [mem_blk6]
  intro a
  match a with
  | ⟨0, _⟩ =>
    show win3_6.index t (0 : Fin 2) * 5000 ≤ (i 0).val ∧ (i 0).val < win3_6.index t (0 : Fin 2) * 5000 + 5000
    rw [e10]
    show (i 0).val / 5000 * 5000 ≤ (i 0).val ∧ (i 0).val < (i 0).val / 5000 * 5000 + 5000
    omega
  | ⟨1, _⟩ =>
    show win3_6.index t (1 : Fin 2) * 64 ≤ (i 1).val ∧ (i 1).val < win3_6.index t (1 : Fin 2) * 64 + 64
    rw [e11]
    omega

/-- The output arrays after the kernel: the two heads on every row. -/
theorem value5 (c : Dev nD) : (dat3 V c).arrAt 5 cfg3.N = G5 V c :=
  (dat3 V c).arrAt_eq_of_cover 5 (G5 V c) (fun t _ => flushed5_eq V c t) cover5

theorem value6 (c : Dev nD) : (dat3 V c).arrAt 6 cfg3.N = G6 V c :=
  (dat3 V c).arrAt_eq_of_cover 6 (G6 V c) (fun t _ => flushed6_eq V c t) cover6

end Cert.KernelIdeal.Region3

end
-- ==== Proof.RefTerms.lean ====
/-
  The reference network's stages as whole-array functions over the extended reals, each the composition of the host
  operations the reference applies, in its own order.

  * `Src e`, `Dst e`: the two rows of the edge list (sources, destinations), each as a vector of 1,600,000 node numbers.
  * `Agg x e`: the neighbourhood sum.  Row `i` of the result is the sum, over the edges whose destination is `i`, of the
    source node's row of `x` (a negative source number first shifted up by the number of nodes): a gather of rows of `x`
    by the sources, scatter-added into a zero array by the destinations.
  * `Layer x a W1 b1 W2 b2 g β`: on every row `r`, with `h = x r + a r`:
    `u = max (h · W1 + b1) 0`, `v = max (u · W2 + b2) 0`, `μ = (Σ v) / 128`, `σ² = (Σ (v - μ)²) / (128 - 0)`
    (the divisor guarded by `128 - 0 > 0`), and the row of the result is `(v - μ) · rsqrt (σ² + ε) · g + β`.
  * `Head h W b`: `max h 0 · W + b`, a projection of the rectified rows.
-/
import proofs.«161493_j33397665693785_1_alg».proof.Proof.Gen.ReferenceIdeal
import Idealize.ShloMosaic.PureOps.Ideal

noncomputable section

namespace Cert.ReferenceIdeal.Terms

open Idealize.ShloMosaic Idealize.ShloMosaic.TcCoe Idealize.SL.Sem
open Cert.ReferenceIdeal Cert.ReferenceIdeal.Gen

/-- Arrays of the network: node features, weight matrices, bias vectors, the edge list, the projections (each is, by
    computation, the contents type of a buffer of that shape and element type). -/
abbrev Nodes := FVec Ideal S100000x128 .f32
abbrev Mat := FVec Ideal S128x128 .f32
abbrev Vec128 := FVec Ideal S128 .f32
abbrev Edges := IVec S2x1600000 32
abbrev EdgeCol := IVec S1600000 32
abbrev Mat64 := FVec Ideal S128x64 .f32
abbrev Vec64 := FVec Ideal S64 .f32
abbrev Out := FVec Ideal S100000x64 .f32
abbrev Col := FVec Ideal S100000x1 .f32
abbrev Scal := FVec Ideal S_ .f32

/-- The sources: row 0 of the edge list. -/
def Src (e : Edges) : EdgeCol :=
  shapeCast S1600000 (extractStridedSlice S1x1600000 ![0, 0] e slices_S2x1600000_S1x1600000_0_0) shapeCasts_S1x1600000_S1600000

/-- The destinations: row 1 of the edge list. -/
def Dst (e : Edges) : EdgeCol :=
  shapeCast S1600000 (extractStridedSlice S1x1600000 ![1, 0] e slices_S2x1600000_S1x1600000_1_0) shapeCasts_S1x1600000_S1600000

/-- The neighbourhood sum of `x` along the edges `(s, d)`. -/
def AggOf (x : Nodes) (s d : EdgeCol) : Nodes :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A bias vector laid along every row. -/
def rows (b : Vec128) : Nodes :=
  broadcastInDim S100000x128 ![0, 1] bcast_S1x128_S100000x128_0_1 (broadcastInDim S1x128 ![1] bcast_S128_S1x128_1 b)

/-- The rectifier. -/
def relu (h : Nodes) : Nodes :=
  maximumf h (broadcastInDim S100000x128 ![] bcast_S_S100000x128 (constant (F := Ideal) S_ .f32 0x00000000#32))

/-- The row sums as a column. -/
def rowSum (h : Nodes) : Col :=
  broadcastInDim S100000x1 ![0] bcast_S100000_S100000x1_0
    (Host.reduceAdd h (constant (F := Ideal) S_ .f32 0x00000000#32) reducesTo_S100000x128_S100000_d1 h_S_)

/-- A column laid along every row. -/
def cols (v : Col) : Nodes := broadcastInDim S100000x128 ![0, 1] bcast_S100000x1_S100000x128_0_1 v

/-- A scalar laid down a column. -/
def colOf (z : Scal) : Col := broadcastInDim S100000x1 ![] bcast_S_S100000x1 z

/-- The row means. -/
def rowMean (h : Nodes) : Col := Host.divf (rowSum h) (colOf (constant (F := Ideal) S_ .f32 0x43000000#32))

/-- The biased row variances, as the reference's library function computes them (zero degrees of freedom removed). -/
def rowVar (h : Nodes) : Col :=
  let d : Nodes := subf h (cols (rowMean h))
  let n : Scal := subf (constant (F := Ideal) S_ .f32 0x43000000#32) (sitofp .f32 (constantI S_ 32 0#32))
  select (broadcastInDim S100000x1 ![] bcast_S_S100000x1 (cmpf .ogt n (constant (F := Ideal) S_ .f32 0x00000000#32)))
    (Host.divf (rowSum (mulf d d)) (colOf n))
    (colOf (id (constant (F := Ideal) S_ .f32 0x7FC00000#32)))

/-- One layer: two rectified affine maps, then the rows normalised, scaled and shifted. -/
def Layer (x a : Nodes) (W1 : Mat) (b1 : Vec128) (W2 : Mat) (b2 g β : Vec128) : Nodes :=
  let u : Nodes := relu (addf (Host.dotGeneral dot_S100000x128_S128x128_S100000x128_1_0_0_1_n_n none (addf x a) W1) (rows b1))
  let v : Nodes := relu (addf (Host.dotGeneral dot_S100000x128_S128x128_S100000x128_1_0_0_1_n_n none u W2) (rows b2))
  addf (mulf (mulf (subf v (cols (rowMean v)))
      (cols (Host.rsqrt (addf (rowVar v) (colOf (constant (F := Ideal) S_ .f32 0x3727C5AC#32)))))) (rows g)) (rows β)

/-- A bias vector of length 64 laid along every row. -/
def rows64 (b : Vec64) : Out :=
  broadcastInDim S100000x64 ![0, 1] bcast_S1x64_S100000x64_0_1 (broadcastInDim S1x64 ![1] bcast_S64_S1x64_1 b)

/-- A projection of the rectified rows. -/
def Head (h : Nodes) (W : Mat64) (b : Vec64) : Out :=
  addf (Host.dotGeneral dot_S100000x128_S128x64_S100000x64_1_0_0_1_n_n none (relu h) W) (rows64 b)

/-- The three layers, each fed its own neighbourhood sums along the same edges. -/
def Net (x : Nodes) (e : Edges)
    (a2 : Mat) (a3 : Vec128) (a4 : Mat) (a5 a6 a7 : Vec128) (a8 : Mat) (a9 : Vec128) (a10 : Mat) (a11 a12 a13 : Vec128)
    (a14 : Mat) (a15 : Vec128) (a16 : Mat) (a17 a18 a19 : Vec128) : Nodes :=
  let h1 := Layer x (AggOf x (Src e) (Dst e)) a2 a3 a4 a5 a6 a7
  let h2 := Layer h1 (AggOf h1 (Src e) (Dst e)) a8 a9 a10 a11 a12 a13
  Layer h2 (AggOf h2 (Src e) (Dst e)) a14 a15 a16 a17 a18 a19

end Cert.ReferenceIdeal.Terms

end
-- ==== Proof.LibHostDot.lean ====
/-
  The host's matrix product read at an index, and two facts about the extended reals that meet it: the product
  of an [m, k] by a [k, n] matrix (the left operand's axis 1 contracted with the right operand's axis 0), computed
  by the host's dot_general, is at (r, c) the sum over the contracted coordinate of the products of the entries —
  the same sum a zero-accumulated kernel matmul gives.  A quotient by a nonzero real is the product with its
  reciprocal on every extended real, which is how a kernel's folded reciprocal meets a reference's division.
-/
import Idealize.ShloMosaic.Lib.Pipeline.Value
import Idealize.ShloMosaic.Lib.ValueIdx
import Idealize.ShloMosaic.PureOps.Ideal.Laws

noncomputable section

namespace Cert.HostBody

open Idealize.ShloMosaic Idealize.ShloMosaic.ValueIdx

/-- The host's product of an m×k by a k×n matrix, read at `(r, c)`, is the sum over the contracted coordinate of
    the products of the entries.  `w` is the record's well-formedness, which a program states. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The word of the float `10.0` denotes the real number ten. -/
theorem ofBits_ten : Ideal.ofBits .f32 0x41200000#32 = ((10 : ℝ) : EReal) := by
  simp [Ideal.ofBits, Ideal.ieee, -EReal.coe_mul]; norm_num

/-- Dividing by the float ten is multiplying by the rational one tenth, on every extended real. -/
theorem div_ten (x : EReal) : Ideal.div x (Ideal.ofBits .f32 0x41200000#32) = x * ((1 / 10 : ℝ) : EReal) := by
  rw [ofBits_ten]; exact Ideal.div_coe (by norm_num) x

end Cert.HostBody

end
-- ==== Proof.RefRead.lean ====
/-
  The reference's stages read at an index, over the extended reals: on every row the reference's `Layer` is the
  layer of `RowSpec` and its `Head` the head of `RowSpec`.

  The host's matrix product at `(r, c)` is the plain sum over the contracted coordinate; a bias vector placed as a row
  and laid down the rows adds `b c` at column `c`; the host's row sum starts from the word of zero, which is the real
  zero, so it is the sum of the row; a column laid along the rows puts the row's own value at every column.  The
  library variance divides by `128 - 0`, the integer zero converted to the real zero, so by 128 again, and its guard
  `128 - 0 > 0` holds, so the guarded value is the quotient itself.
-/
import proofs.«161493_j33397665693785_1_alg».proof.Proof.RefTerms
import proofs.«161493_j33397665693785_1_alg».proof.Proof.RowSpec
import proofs.«161493_j33397665693785_1_alg».proof.Proof.LibHostDot
import proofs.«161493_j33397665693785_1_alg».proof.Proof.LibColOps
import Idealize.ShloMosaic.Lib.IdealHost

noncomputable section

namespace Cert.ReferenceIdeal.Read

open Idealize.ShloMosaic Idealize.ShloMosaic.ValueIdx
open Cert.ReferenceIdeal Cert.ReferenceIdeal.Gen Cert.ReferenceIdeal.Terms Cert.RowSpec Cert.HostBody Cert.LibColOps

/-- The float word of 128 is the real number 128. -/
theorem n128_eq : n128 = ((128 : ℝ) : EReal) := by
  show Ideal.ofBits .f32 0x43000000#32 = _
  simp [Ideal.ofBits, Ideal.ieee, -EReal.coe_mul]; norm_num

/-- The float word of zero is the real number zero. -/
theorem zero_eq : zero = 0 := Ideal.ofBits_zero_f32

theorem rows_apply (b : Vec128) (r : Fin 100000) (q : Fin 128) : rows b (ix2 r q) = b (ix1 q) := by
  unfold rows
  rw [bcastRows_apply, bcastRow_apply]

theorem rows64_apply (b : Vec64) (r : Fin 100000) (q : Fin 64) : rows64 b (ix2 r q) = b (ix1 q) := by
  unfold rows64
  rw [bcastRows_apply, bcastRow_apply]

theorem relu_apply (h : Nodes) (i : S100000x128.Idx) : relu h i = max (h i) zero := by
  unfold relu
  rw [maximumf_apply, broadcastInDim_scalar_apply]
  rfl

theorem cols_apply (v : Col) (r : Fin 100000) (q : Fin 128) : cols v (ix2 r q) = v (ix2 r (0 : Fin 1)) := by
  unfold cols
  rw [bcastCols_apply]

theorem colOf_apply (z : Scal) (i : S100000x1.Idx) : colOf z i = z ix0 := by
  unfold colOf
  rw [broadcastInDim_scalar_apply]

theorem rowSum_apply (h : Nodes) (r : Fin 100000) : rowSum h (ix2 r (0 : Fin 1)) = ∑ k : Fin 128, h (ix2 r k) := by
  have hs : Host.reduceAdd h (constant (F := Ideal) S_ .f32 0x00000000#32) reducesTo_S100000x128_S100000_d1 h_S_ (ix1 r)
      = (constant (F := Ideal) S_ .f32 0x00000000#32) ix0 + ∑ k : Fin 128, h (ix2 r k) :=
    hostReduceAdd_row (a := 100000) (b := 128) h _ reducesTo_S100000x128_S100000_d1 (by decide) h_S_ r
  unfold rowSum
  rw [bcastCol_apply, hs]
  show Ideal.ofBits .f32 0x00000000#32 + _ = _
  rw [Ideal.ofBits_zero_f32, zero_add]

theorem rowMean_apply (h : Nodes) (r : Fin 100000) : rowMean h (ix2 r (0 : Fin 1)) = mean (fun c => h (ix2 r c)) := by
  unfold rowMean mean
  show Ideal.div (rowSum h (ix2 r (0 : Fin 1))) (colOf _ (ix2 r (0 : Fin 1))) = _
  rw [rowSum_apply, colOf_apply]
  rfl

/-- The variance's divisor: 128 less the integer zero as a real, which is 128. -/
theorem divisor_eq : subf (constant (F := Ideal) S_ .f32 0x43000000#32) (sitofp .f32 (constantI S_ 32 0#32)) ix0 = n128 := by
  show Ideal.ofBits .f32 0x43000000#32 - (((0#32 : BitVec 32).toInt : ℝ) : EReal) = _
  simp

/-- The guard of the variance's quotient holds: 128 is positive. -/
theorem guard_eq : Ideal.cmp .ogt n128 zero = 1#1 := by
  rw [n128_eq, zero_eq]
  simp [Ideal.cmp]

theorem rowVar_apply (h : Nodes) (r : Fin 100000) : rowVar h (ix2 r (0 : Fin 1)) = var (fun c => h (ix2 r c)) := by
  have hd : ∀ c : Fin 128, subf h (cols (rowMean h)) (ix2 r c) = h (ix2 r c) - mean (fun c => h (ix2 r c)) := fun c => by
    rw [subf_apply, cols_apply, rowMean_apply]
  have hsq : (fun c : Fin 128 => mulf (subf h (cols (rowMean h))) (subf h (cols (rowMean h))) (ix2 r c))
      = fun c => (h (ix2 r c) - mean (fun c => h (ix2 r c))) * (h (ix2 r c) - mean (fun c => h (ix2 r c))) :=
    funext fun c => by rw [mulf_apply, hd c]
  unfold rowVar
  dsimp only
  rw [select_apply, broadcastInDim_scalar_apply, cmpf_apply, divisor_eq]
  show Scalar.select (Ideal.cmp .ogt n128 zero) _ _ = _
  rw [guard_eq, select_one]
  show Ideal.div (rowSum _ (ix2 r (0 : Fin 1))) (colOf _ (ix2 r (0 : Fin 1))) = _
  rw [rowSum_apply, colOf_apply, divisor_eq, hsq]
  rfl

/-- The rectified affine map of the reference, at `(r, q)`. -/
theorem aff_apply (h : Nodes) (W : Mat) (b : Vec128) (r : Fin 100000) (q : Fin 128) :
    relu (addf (Host.dotGeneral dot_S100000x128_S128x128_S100000x128_1_0_0_1_n_n none h W) (rows b)) (ix2 r q)
      = affRelu (fun k => h (ix2 r k)) (fun k c => W (ix2 k c)) (fun c => b (ix1 c)) q := by
  have hm : Host.dotGeneral dot_S100000x128_S128x128_S100000x128_1_0_0_1_n_n none h W (ix2 r q) = ∑ i : Fin 128, h (ix2 r i) * W (ix2 i q) :=
    dotGeneral_plain_apply (m := 100000) (k := 128) (n := 128) (φ₁ := .f32) (φ₂ := .f32) dot_S100000x128_S128x128_S100000x128_1_0_0_1_n_n.wf none h W r q
  unfold affRelu
  rw [relu_apply, addf_apply, rows_apply, hm]

/-- The reference's layer is the layer of every row. -/
theorem layer_eq (x a : Nodes) (W1 : Mat) (b1 : Vec128) (W2 : Mat) (b2 g β : Vec128) :
    Layer x a W1 b1 W2 b2 g β = layerFn (n := 100000) x a W1 b1 W2 b2 g β := by
  funext i
  obtain ⟨r, q, rfl⟩ : ∃ (r : Fin 100000) (q : Fin 128), i = ix2 r q := ⟨i 0, i 1, eq_ix2 i⟩
  rw [layerFn_apply]
  unfold Layer rowLayer normRow
  dsimp only
  rw [addf_apply, mulf_apply, mulf_apply, rows_apply, rows_apply, subf_apply, cols_apply, cols_apply, rowMean_apply]
  show _ * Ideal.rsqrt (rowVar _ (ix2 r (0 : Fin 1)) + colOf _ (ix2 r (0 : Fin 1))) * _ + _ = _
  rw [rowVar_apply, colOf_apply]
  have hv : ∀ c : Fin 128,
      relu (addf (Host.dotGeneral dot_S100000x128_S128x128_S100000x128_1_0_0_1_n_n none
        (relu (addf (Host.dotGeneral dot_S100000x128_S128x128_S100000x128_1_0_0_1_n_n none (addf x a) W1) (rows b1))) W2) (rows b2)) (ix2 r c)
      = affRelu (affRelu (fun k => x (ix2 r k) + a (ix2 r k)) (fun k c => W1 (ix2 k c)) (fun c => b1 (ix1 c)))
          (fun k c => W2 (ix2 k c)) (fun c => b2 (ix1 c)) c := fun c => by
    rw [aff_apply]
    congr 1
    funext k
    rw [aff_apply]
    rfl
  simp only [hv]
  rfl

/-- The reference's head is the head of every row. -/
theorem head_eq (h : Nodes) (W : Mat64) (b : Vec64) : Head h W b = headFn (n := 100000) h W b := by
  funext i
  obtain ⟨r, q, rfl⟩ : ∃ (r : Fin 100000) (q : Fin 64), i = ix2 r q := ⟨i 0, i 1, eq_ix2 i⟩
  have hm : Host.dotGeneral dot_S100000x128_S128x64_S100000x64_1_0_0_1_n_n none (relu h) W (ix2 r q) = ∑ i : Fin 128, relu h (ix2 r i) * W (ix2 i q) :=
    dotGeneral_plain_apply (m := 100000) (k := 128) (n := 64) (φ₁ := .f32) (φ₂ := .f32) dot_S100000x128_S128x64_S100000x64_1_0_0_1_n_n.wf none (relu h) W r q
  rw [headFn_apply]
  unfold Head rowHead
  rw [addf_apply, rows64_apply, hm]
  simp only [relu_apply]

end Cert.ReferenceIdeal.Read

end
-- ==== Proof.Bridge.lean ====
/-
  The two networks are one function of the arguments.

  The kernel program's two results are the heads of three layers, each layer fed the previous node features and their
  neighbourhood sum along the launch edge list: the regions' arrays by the row-wise layer and head of `RowSpec`, the
  sums by the host operations between the regions.  The reference's results are its own stage terms composed the same
  way.  Its layer and head are the row-wise ones on every row, and the neighbourhood sum is, operation for operation,
  the same composition of host operations in both programs, so it is never opened: the two sides agree as soon as the
  arguments do.
-/
import proofs.«161493_j33397665693785_1_alg».proof.Proof.KRun
import proofs.«161493_j33397665693785_1_alg».proof.Proof.KChain
import proofs.«161493_j33397665693785_1_alg».proof.Proof.KRegion0
import proofs.«161493_j33397665693785_1_alg».proof.Proof.KRegion1
import proofs.«161493_j33397665693785_1_alg».proof.Proof.KRegion2
import proofs.«161493_j33397665693785_1_alg».proof.Proof.KRegion3
import proofs.«161493_j33397665693785_1_alg».proof.Proof.RefTerms
import proofs.«161493_j33397665693785_1_alg».proof.Proof.RefRead

noncomputable section

namespace Cert.Bridge

open Idealize.ShloMosaic Idealize.ShloMosaic.TcCoe Idealize.SL.Sem
open Cert.RowSpec

/-- The row-wise layer and head at the arrays' extents. -/
abbrev L : Cert.KernelIdeal.Chain.Nodes → Cert.KernelIdeal.Chain.Nodes → Cert.KernelIdeal.Chain.Mat → Cert.KernelIdeal.Chain.Vec128
    → Cert.KernelIdeal.Chain.Mat → Cert.KernelIdeal.Chain.Vec128 → Cert.KernelIdeal.Chain.Vec128 → Cert.KernelIdeal.Chain.Vec128
    → Cert.KernelIdeal.Chain.Nodes :=
  fun x a W1 b1 W2 b2 g β => layerFn (n := 100000) x a W1 b1 W2 b2 g β
abbrev H : Cert.KernelIdeal.Chain.Nodes → Cert.KernelIdeal.Chain.Mat64 → Cert.KernelIdeal.Chain.Vec64 → Cert.KernelIdeal.Chain.Out :=
  fun h W b => headFn (n := 100000) h W b

/-- The edge columns and the neighbourhood sum are the same compositions of host operations in the two programs. -/
theorem src_eq (e : Cert.ReferenceIdeal.Terms.Edges) : Cert.ReferenceIdeal.Terms.Src e = Cert.KernelIdeal.Chain.Src e := rfl
theorem dst_eq (e : Cert.ReferenceIdeal.Terms.Edges) : Cert.ReferenceIdeal.Terms.Dst e = Cert.KernelIdeal.Chain.Dst e := rfl
theorem agg_eq (x : Cert.ReferenceIdeal.Terms.Nodes) (s d : Cert.ReferenceIdeal.Terms.EdgeCol) :
    Cert.ReferenceIdeal.Terms.AggOf x s d = Cert.KernelIdeal.Chain.AggOf x s d := rfl

section Kernel
open Cert.KernelIdeal

variable (m : (ℓ : Loc nD τ sig) → Buf (Elt Ideal) ℓ) (ρ : Dev nD → PrngReg)

/-- The node features after the third layer, from the launch memory. -/
abbrev hid (c : Dev nD) : Chain.Nodes := Chain.hid3 L L L m c

/-- The two results, from the launch memory. -/
abbrev res0 (c : Dev nD) : Chain.Out := H (hid m c) (m ((c.tc : Thread nD τ).loc main_arg20)) (m ((c.tc : Thread nD τ).loc main_arg21))
abbrev res1 (c : Dev nD) : Chain.Out := H (hid m c) (m ((c.tc : Thread nD τ).loc main_arg22)) (m ((c.tc : Thread nD τ).loc main_arg23))

/-- The last boundary's contents of the two results. -/
theorem outputs (c : Dev nD) :
    Gen.W7 m ρ c (Proc.devRef .tc main_v37_0) = res0 m c ∧ Gen.W7 m ρ c (Proc.devRef .tc main_v37_1) = res1 m c :=
  Chain.outputs L L L H H m ρ c
    (fun V c => Region0.value V c) (fun V c => Region1.value V c) (fun V c => Region2.value V c)
    (fun V c => Region3.value5 V c) (fun V c => Region3.value6 V c)

end Kernel

/-- The reference's network at the kernel program's arguments is the kernel program's. -/
theorem net_eq (x : Cert.ReferenceIdeal.Terms.Nodes) (e : Cert.ReferenceIdeal.Terms.Edges)
    (a2 : Cert.ReferenceIdeal.Terms.Mat) (a3 : Cert.ReferenceIdeal.Terms.Vec128) (a4 : Cert.ReferenceIdeal.Terms.Mat)
    (a5 a6 a7 : Cert.ReferenceIdeal.Terms.Vec128) (a8 : Cert.ReferenceIdeal.Terms.Mat) (a9 : Cert.ReferenceIdeal.Terms.Vec128)
    (a10 : Cert.ReferenceIdeal.Terms.Mat) (a11 a12 a13 : Cert.ReferenceIdeal.Terms.Vec128) (a14 : Cert.ReferenceIdeal.Terms.Mat)
    (a15 : Cert.ReferenceIdeal.Terms.Vec128) (a16 : Cert.ReferenceIdeal.Terms.Mat) (a17 a18 a19 : Cert.ReferenceIdeal.Terms.Vec128) :
    Cert.ReferenceIdeal.Terms.Net x e a2 a3 a4 a5 a6 a7 a8 a9 a10 a11 a12 a13 a14 a15 a16 a17 a18 a19
      = L (L (L x (Cert.KernelIdeal.Chain.AggOf x (Cert.KernelIdeal.Chain.Src e) (Cert.KernelIdeal.Chain.Dst e)) a2 a3 a4 a5 a6 a7)
            (Cert.KernelIdeal.Chain.AggOf (L x (Cert.KernelIdeal.Chain.AggOf x (Cert.KernelIdeal.Chain.Src e) (Cert.KernelIdeal.Chain.Dst e)) a2 a3 a4 a5 a6 a7)
              (Cert.KernelIdeal.Chain.Src e) (Cert.KernelIdeal.Chain.Dst e)) a8 a9 a10 a11 a12 a13)
          (Cert.KernelIdeal.Chain.AggOf
            (L (L x (Cert.KernelIdeal.Chain.AggOf x (Cert.KernelIdeal.Chain.Src e) (Cert.KernelIdeal.Chain.Dst e)) a2 a3 a4 a5 a6 a7)
              (Cert.KernelIdeal.Chain.AggOf (L x (Cert.KernelIdeal.Chain.AggOf x (Cert.KernelIdeal.Chain.Src e) (Cert.KernelIdeal.Chain.Dst e)) a2 a3 a4 a5 a6 a7)
                (Cert.KernelIdeal.Chain.Src e) (Cert.KernelIdeal.Chain.Dst e)) a8 a9 a10 a11 a12 a13)
            (Cert.KernelIdeal.Chain.Src e) (Cert.KernelIdeal.Chain.Dst e)) a14 a15 a16 a17 a18 a19 := by
  unfold Cert.ReferenceIdeal.Terms.Net
  dsimp only
  simp only [Cert.ReferenceIdeal.Read.layer_eq, src_eq, dst_eq, agg_eq]

end Cert.Bridge

end
-- ==== Proof.RefRun.lean ====
/-
  The reference program's @main as ONE list of its 231 host operations, in the program's order, and its run read back.

  @main is printed in three windows; seven of its statements call `relu` (three operations: the zero, its broadcast, the
  maximum) and three call `_var` (twenty operations of its own and the three of the `_where` it calls: the zero converted
  to its own type, its broadcast, the select).  A call executes the callee's body on the operands, so each call is
  listed here as the callee's operations over that call's own record of buffers, its arguments the call's operands.
  `main_eq` checks the list against the printed program: with the functions unfolded at their calls and sequencing
  reassociated both sides are the same chain of steps.  `run` is then the library's statement for a straight line:
  every weakly fair execution terminates with each buffer at the fold of the operations' results over the launch
  contents.
-/
import proofs.«161493_j33397665693785_1_alg».proof.Proof.Gen.ReferenceIdeal
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 231 operations, in order: its own 152 statements with each call replaced by the callee's operations over
    the call's record. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v18 : TRef sig ⟨S100000x128, .f32⟩) main_call0.v0 main_call0.v1 maximumf,
    binary main_v19 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v23 : TRef sig ⟨S100000x128, .f32⟩) main_call1.v0 main_call1.v1 maximumf,
    nullary main_cst_1 (constant S_ .f32 0x00000000#32),
    binary main_v24 main_cst_1 main_v25 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v25 main_v26 (broadcastInDim S100000x1 ![0] bcast_S100000_S100000x1_0 : (⟨S100000, .f32⟩ : BufTy).Contents (Elt F) → (⟨S100000x1, .f32⟩ : BufTy).Contents (Elt F)),
    nullary main_cst_2 (constant S_ .f32 0x43000000#32),
    unary main_cst_2 main_v27 (broadcastInDim S100000x1 ![] bcast_S_S100000x1 : (⟨S_, .f32⟩ : BufTy).Contents (Elt F) → (⟨S100000x1, .f32⟩ : BufTy).Contents (Elt F)),
    binary main_v26 main_v27 main_v28 (Host.divf : (⟨S100000x1, .f32⟩ : BufTy).Contents (Elt F) → (⟨S100000x1, .f32⟩ : BufTy).Contents (Elt F) → (⟨S100000x1, .f32⟩ : BufTy).Contents (Elt F)),
    nullary main_c_3 (constantI S_ 32 0#32),
    TRef.nullary main_call2.cst (constant S_ .f32 0x00000000#32),
    TRef.binary (.of main_v24 : TRef sig ⟨S100000x128, .f32⟩) main_call2.cst main_call2.v0 (fun x v => Host.reduceAdd x v reducesTo_S100000x128_S100000_d1 h_S_),
    TRef.unary main_call2.v0 main_call2.v1 (broadcastInDim S100000x1 ![0] bcast_S100000_S100000x1_0),
    TRef.nullary main_call2.cst_0 (constant S_ .f32 0x43000000#32),
    TRef.unary main_call2.cst_0 main_call2.v2 (broadcastInDim S100000x1 ![] bcast_S_S100000x1),
    TRef.binary main_call2.v1 main_call2.v2 main_call2.v3 Host.divf,
    TRef.unary main_call2.v3 main_call2.v4 (broadcastInDim S100000x128 ![0, 1] bcast_S100000x1_S100000x128_0_1),
    TRef.binary (.of main_v24 : TRef sig ⟨S100000x128, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S100000_d1 h_S_),
    TRef.unary main_call2.v9 main_call2.v10 (broadcastInDim S100000x1 ![0] bcast_S100000_S100000x1_0),
    TRef.unary main_call2.v8 main_call2.v11 (broadcastInDim S100000x1 ![] bcast_S_S100000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S100000x1 ![] bcast_S_S100000x1),
    TRef.ternary main_call2.v13 main_call2.v12 main_call2.call0.v1 main_call2.call0.v2 (fun p a b => select (broadcastInDim S100000x1 ![] bcast_S_S100000x1 p) a b),
    unary main_v28 main_v30 (broadcastInDim S100000x128 ![0, 1] bcast_S100000x1_S100000x128_0_1 : (⟨S100000x1, .f32⟩ : BufTy).Contents (Elt F) → (⟨S100000x128, .f32⟩ : BufTy).Contents (Elt F)),
    binary main_v24 main_v30 main_v31 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v32 (broadcastInDim S100000x1 ![] bcast_S_S100000x1 : (⟨S_, .f32⟩ : BufTy).Contents (Elt F) → (⟨S100000x1, .f32⟩ : BufTy).Contents (Elt F)),
    binary main_v29 main_v32 main_v33 (addf : (⟨S100000x1, .f32⟩ : BufTy).Contents (Elt F) → (⟨S100000x1, .f32⟩ : BufTy).Contents (Elt F) → (⟨S100000x1, .f32⟩ : BufTy).Contents (Elt F)),
    unary main_v33 main_v34 (Host.rsqrt : (⟨S100000x1, .f32⟩ : BufTy).Contents (Elt F) → (⟨S100000x1, .f32⟩ : BufTy).Contents (Elt F)),
    unary main_v34 main_v35 (broadcastInDim S100000x128 ![0, 1] bcast_S100000x1_S100000x128_0_1 : (⟨S100000x1, .f32⟩ : BufTy).Contents (Elt F) → (⟨S100000x128, .f32⟩ : BufTy).Contents (Elt F)),
    binary main_v31 main_v35 main_v36 (mulf : (⟨S100000x128, .f32⟩ : BufTy).Contents (Elt F) → (⟨S100000x128, .f32⟩ : BufTy).Contents (Elt F) → (⟨S100000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (mulf : (⟨S100000x128, .f32⟩ : BufTy).Contents (Elt F) → (⟨S100000x128, .f32⟩ : BufTy).Contents (Elt F) → (⟨S100000x128, .f32⟩ : BufTy).Contents (Elt F)),
    unary main_arg7 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (addf : (⟨S100000x128, .f32⟩ : BufTy).Contents (Elt F) → (⟨S100000x128, .f32⟩ : BufTy).Contents (Elt F) → (⟨S100000x128, .f32⟩ : BufTy).Contents (Elt F)),
    nullary main_c_5 (constantI S_ 32 0#32),
    unary main_c_5 main_v43 (broadcastInDim S1600000 ![] bcast_S_S1600000 : (⟨S_, .i32⟩ : BufTy).Contents (Elt F) → (⟨S1600000, .i32⟩ : BufTy).Contents (Elt F)),
    binary main_v1 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v45 (broadcastInDim S1600000 ![] bcast_S_S1600000 : (⟨S_, .i32⟩ : BufTy).Contents (Elt F) → (⟨S1600000, .i32⟩ : BufTy).Contents (Elt F)),
    binary main_v1 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_v1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v42 main_v48 main_v49 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v50 (broadcastInDim S100000x128 ![] bcast_S_S100000x128 : (⟨S_, .f32⟩ : BufTy).Contents (Elt F) → (⟨S100000x128, .f32⟩ : BufTy).Contents (Elt F)),
    unary main_v3 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v42 main_v52 main_v53 (addf : (⟨S100000x128, .f32⟩ : BufTy).Contents (Elt F) → (⟨S100000x128, .f32⟩ : BufTy).Contents (Elt F) → (⟨S100000x128, .f32⟩ : BufTy).Contents (Elt F)),
    binary main_v53 main_arg8 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v57 : TRef sig ⟨S100000x128, .f32⟩) main_call3.v0 main_call3.v1 maximumf,
    binary main_v58 main_arg10 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v62 : TRef sig ⟨S100000x128, .f32⟩) main_call4.v0 main_call4.v1 maximumf,
    nullary main_cst_8 (constant S_ .f32 0x00000000#32),
    binary main_v63 main_cst_8 main_v64 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v64 main_v65 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v66 (broadcastInDim S100000x1 ![] bcast_S_S100000x1 : (⟨S_, .f32⟩ : BufTy).Contents (Elt F) → (⟨S100000x1, .f32⟩ : BufTy).Contents (Elt F)),
    binary main_v65 main_v66 main_v67 (Host.divf : (⟨S100000x1, .f32⟩ : BufTy).Contents (Elt F) → (⟨S100000x1, .f32⟩ : BufTy).Contents (Elt F) → (⟨S100000x1, .f32⟩ : BufTy).Contents (Elt F)),
    nullary main_c_10 (constantI S_ 32 0#32),
    TRef.nullary main_call5.cst (constant S_ .f32 0x00000000#32),
    TRef.binary (.of main_v63 : TRef sig ⟨S100000x128, .f32⟩) main_call5.cst main_call5.v0 (fun x v => Host.reduceAdd x v reducesTo_S100000x128_S100000_d1 h_S_),
    TRef.unary main_call5.v0 main_call5.v1 (broadcastInDim S100000x1 ![0] bcast_S100000_S100000x1_0),
    TRef.nullary main_call5.cst_0 (constant S_ .f32 0x43000000#32),
    TRef.unary main_call5.cst_0 main_call5.v2 (broadcastInDim S100000x1 ![] bcast_S_S100000x1),
    TRef.binary main_call5.v1 main_call5.v2 main_call5.v3 Host.divf,
    TRef.unary main_call5.v3 main_call5.v4 (broadcastInDim S100000x128 ![0, 1] bcast_S100000x1_S100000x128_0_1),
    TRef.binary (.of main_v63 : TRef sig ⟨S100000x128, .f32⟩) main_call5.v4 main_call5.v5 subf,
    TRef.binary main_call5.v5 main_call5.v5 main_call5.v6 mulf,
    TRef.unary (.of main_c_10 : TRef sig ⟨S_, .i32⟩) main_call5.v7 (sitofp .f32),
    TRef.nullary main_call5.cst_1 (constant S_ .f32 0x43000000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S100000_d1 h_S_),
    TRef.unary main_call5.v9 main_call5.v10 (broadcastInDim S100000x1 ![0] bcast_S100000_S100000x1_0),
    TRef.unary main_call5.v8 main_call5.v11 (broadcastInDim S100000x1 ![] bcast_S_S100000x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S100000x1 ![] bcast_S_S100000x1),
    TRef.ternary main_call5.v13 main_call5.v12 main_call5.call0.v1 main_call5.call0.v2 (fun p a b => select (broadcastInDim S100000x1 ![] bcast_S_S100000x1 p) a b),
    unary main_v67 main_v69 (broadcastInDim S100000x128 ![0, 1] bcast_S100000x1_S100000x128_0_1 : (⟨S100000x1, .f32⟩ : BufTy).Contents (Elt F) → (⟨S100000x128, .f32⟩ : BufTy).Contents (Elt F)),
    binary main_v63 main_v69 main_v70 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v71 (broadcastInDim S100000x1 ![] bcast_S_S100000x1 : (⟨S_, .f32⟩ : BufTy).Contents (Elt F) → (⟨S100000x1, .f32⟩ : BufTy).Contents (Elt F)),
    binary main_v68 main_v71 main_v72 (addf : (⟨S100000x1, .f32⟩ : BufTy).Contents (Elt F) → (⟨S100000x1, .f32⟩ : BufTy).Contents (Elt F) → (⟨S100000x1, .f32⟩ : BufTy).Contents (Elt F)),
    unary main_v72 main_v73 (Host.rsqrt : (⟨S100000x1, .f32⟩ : BufTy).Contents (Elt F) → (⟨S100000x1, .f32⟩ : BufTy).Contents (Elt F)),
    unary main_v73 main_v74 (broadcastInDim S100000x128 ![0, 1] bcast_S100000x1_S100000x128_0_1 : (⟨S100000x1, .f32⟩ : BufTy).Contents (Elt F) → (⟨S100000x128, .f32⟩ : BufTy).Contents (Elt F)),
    binary main_v70 main_v74 main_v75 (mulf : (⟨S100000x128, .f32⟩ : BufTy).Contents (Elt F) → (⟨S100000x128, .f32⟩ : BufTy).Contents (Elt F) → (⟨S100000x128, .f32⟩ : BufTy).Contents (Elt F)),
    unary main_arg12 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (mulf : (⟨S100000x128, .f32⟩ : BufTy).Contents (Elt F) → (⟨S100000x128, .f32⟩ : BufTy).Contents (Elt F) → (⟨S100000x128, .f32⟩ : BufTy).Contents (Elt F)),
    unary main_arg13 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (addf : (⟨S100000x128, .f32⟩ : BufTy).Contents (Elt F) → (⟨S100000x128, .f32⟩ : BufTy).Contents (Elt F) → (⟨S100000x128, .f32⟩ : BufTy).Contents (Elt F)),
    nullary main_c_12 (constantI S_ 32 0#32),
    unary main_c_12 main_v82 (broadcastInDim S1600000 ![] bcast_S_S1600000 : (⟨S_, .i32⟩ : BufTy).Contents (Elt F) → (⟨S1600000, .i32⟩ : BufTy).Contents (Elt F)),
    binary main_v1 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v84 (broadcastInDim S1600000 ![] bcast_S_S1600000 : (⟨S_, .i32⟩ : BufTy).Contents (Elt F) → (⟨S1600000, .i32⟩ : BufTy).Contents (Elt F)),
    binary main_v1 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v81 main_v87 main_v88 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v89 (broadcastInDim S100000x128 ![] bcast_S_S100000x128 : (⟨S_, .f32⟩ : BufTy).Contents (Elt F) → (⟨S100000x128, .f32⟩ : BufTy).Contents (Elt F)),
    unary main_v3 main_v90 (broadcastInDim S1600000x1 ![0] bcast_S1600000_S1600000x1_0 : (⟨S1600000, .i32⟩ : BufTy).Contents (Elt F) → (⟨S1600000x1, .i32⟩ : BufTy).Contents (Elt F)),
    ternary main_v89 main_v90 main_v88 main_v91 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v81 main_v91 main_v92 (addf : (⟨S100000x128, .f32⟩ : BufTy).Contents (Elt F) → (⟨S100000x128, .f32⟩ : BufTy).Contents (Elt F) → (⟨S100000x128, .f32⟩ : BufTy).Contents (Elt F)),
    binary main_v92 main_arg14 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v96 : TRef sig ⟨S100000x128, .f32⟩) main_call6.v0 main_call6.v1 maximumf,
    binary main_v97 main_arg16 main_v98 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg17 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v98 main_v100 main_v101 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v101 : TRef sig ⟨S100000x128, .f32⟩) main_call7.v0 main_call7.v1 maximumf,
    nullary main_cst_15 (constant S_ .f32 0x00000000#32),
    binary main_v102 main_cst_15 main_v103 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v105 (broadcastInDim S100000x1 ![] bcast_S_S100000x1 : (⟨S_, .f32⟩ : BufTy).Contents (Elt F) → (⟨S100000x1, .f32⟩ : BufTy).Contents (Elt F)),
    binary main_v104 main_v105 main_v106 (Host.divf : (⟨S100000x1, .f32⟩ : BufTy).Contents (Elt F) → (⟨S100000x1, .f32⟩ : BufTy).Contents (Elt F) → (⟨S100000x1, .f32⟩ : BufTy).Contents (Elt F)),
    nullary main_c_17 (constantI S_ 32 0#32),
    TRef.nullary main_call8.cst (constant S_ .f32 0x00000000#32),
    TRef.binary (.of main_v102 : TRef sig ⟨S100000x128, .f32⟩) main_call8.cst main_call8.v0 (fun x v => Host.reduceAdd x v reducesTo_S100000x128_S100000_d1 h_S_),
    TRef.unary main_call8.v0 main_call8.v1 (broadcastInDim S100000x1 ![0] bcast_S100000_S100000x1_0),
    TRef.nullary main_call8.cst_0 (constant S_ .f32 0x43000000#32),
    TRef.unary main_call8.cst_0 main_call8.v2 (broadcastInDim S100000x1 ![] bcast_S_S100000x1),
    TRef.binary main_call8.v1 main_call8.v2 main_call8.v3 Host.divf,
    TRef.unary main_call8.v3 main_call8.v4 (broadcastInDim S100000x128 ![0, 1] bcast_S100000x1_S100000x128_0_1),
    TRef.binary (.of main_v102 : TRef sig ⟨S100000x128, .f32⟩) main_call8.v4 main_call8.v5 subf,
    TRef.binary main_call8.v5 main_call8.v5 main_call8.v6 mulf,
    TRef.unary (.of main_c_17 : TRef sig ⟨S_, .i32⟩) main_call8.v7 (sitofp .f32),
    TRef.nullary main_call8.cst_1 (constant S_ .f32 0x43000000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100000x128_S100000_d1 h_S_),
    TRef.unary main_call8.v9 main_call8.v10 (broadcastInDim S100000x1 ![0] bcast_S100000_S100000x1_0),
    TRef.unary main_call8.v8 main_call8.v11 (broadcastInDim S100000x1 ![] bcast_S_S100000x1),
    TRef.binary main_call8.v10 main_call8.v11 main_call8.v12 Host.divf,
    TRef.nullary main_call8.cst_3 (constant S_ .f32 0x00000000#32),
    TRef.binary main_call8.v8 main_call8.cst_3 main_call8.v13 (cmpf .ogt),
    TRef.nullary main_call8.cst_4 (constant S_ .f32 0x7FC00000#32),
    TRef.unary main_call8.cst_4 main_call8.call0.v0 id,
    TRef.unary main_call8.call0.v0 main_call8.call0.v1 (broadcastInDim S100000x1 ![] bcast_S_S100000x1),
    TRef.ternary main_call8.v13 main_call8.v12 main_call8.call0.v1 main_call8.call0.v2 (fun p a b => select (broadcastInDim S100000x1 ![] bcast_S_S100000x1 p) a b),
    unary main_v106 main_v108 (broadcastInDim S100000x128 ![0, 1] bcast_S100000x1_S100000x128_0_1 : (⟨S100000x1, .f32⟩ : BufTy).Contents (Elt F) → (⟨S100000x128, .f32⟩ : BufTy).Contents (Elt F)),
    binary main_v102 main_v108 main_v109 (subf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v110 (broadcastInDim S100000x1 ![] bcast_S_S100000x1 : (⟨S_, .f32⟩ : BufTy).Contents (Elt F) → (⟨S100000x1, .f32⟩ : BufTy).Contents (Elt F)),
    binary main_v107 main_v110 main_v111 (addf : (⟨S100000x1, .f32⟩ : BufTy).Contents (Elt F) → (⟨S100000x1, .f32⟩ : BufTy).Contents (Elt F) → (⟨S100000x1, .f32⟩ : BufTy).Contents (Elt F)),
    unary main_v111 main_v112 (Host.rsqrt : (⟨S100000x1, .f32⟩ : BufTy).Contents (Elt F) → (⟨S100000x1, .f32⟩ : BufTy).Contents (Elt F)),
    unary main_v112 main_v113 (broadcastInDim S100000x128 ![0, 1] bcast_S100000x1_S100000x128_0_1 : (⟨S100000x1, .f32⟩ : BufTy).Contents (Elt F) → (⟨S100000x128, .f32⟩ : BufTy).Contents (Elt F)),
    binary main_v109 main_v113 main_v114 (mulf : (⟨S100000x128, .f32⟩ : BufTy).Contents (Elt F) → (⟨S100000x128, .f32⟩ : BufTy).Contents (Elt F) → (⟨S100000x128, .f32⟩ : BufTy).Contents (Elt F)),
    unary main_arg18 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v114 main_v116 main_v117 (mulf : (⟨S100000x128, .f32⟩ : BufTy).Contents (Elt F) → (⟨S100000x128, .f32⟩ : BufTy).Contents (Elt F) → (⟨S100000x128, .f32⟩ : BufTy).Contents (Elt F)),
    unary main_arg19 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v117 main_v119 main_v120 (addf : (⟨S100000x128, .f32⟩ : BufTy).Contents (Elt F) → (⟨S100000x128, .f32⟩ : BufTy).Contents (Elt F) → (⟨S100000x128, .f32⟩ : BufTy).Contents (Elt F)),
    TRef.nullary main_call9.cst (constant S_ .f32 0x00000000#32),
    TRef.unary main_call9.cst main_call9.v0 (broadcastInDim S100000x128 ![] bcast_S_S100000x128),
    TRef.binary (.of main_v120 : TRef sig ⟨S100000x128, .f32⟩) main_call9.v0 main_call9.v1 maximumf,
    binary main_v121 main_arg20 main_v122 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg21 main_v123 (broadcastInDim S1x64 ![1] bcast_S64_S1x64_1 : (⟨S64, .f32⟩ : BufTy).Contents (Elt F) → (⟨S1x64, .f32⟩ : BufTy).Contents (Elt F)),
    unary main_v123 main_v124 (broadcastInDim S100000x64 ![0, 1] bcast_S1x64_S100000x64_0_1 : (⟨S1x64, .f32⟩ : BufTy).Contents (Elt F) → (⟨S100000x64, .f32⟩ : BufTy).Contents (Elt F)),
    binary main_v122 main_v124 main_v125 (addf : (⟨S100000x64, .f32⟩ : BufTy).Contents (Elt F) → (⟨S100000x64, .f32⟩ : BufTy).Contents (Elt F) → (⟨S100000x64, .f32⟩ : BufTy).Contents (Elt F)),
    binary main_v121 main_arg22 main_v126 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg23 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v126 main_v128 main_v129 (addf : (⟨S100000x64, .f32⟩ : BufTy).Contents (Elt F) → (⟨S100000x64, .f32⟩ : BufTy).Contents (Elt F) → (⟨S100000x64, .f32⟩ : BufTy).Contents (Elt F)) ]

-- 231 binds re-associated: the rewrite under the chain recurses once per statement
set_option maxRecDepth 16384 in
set_option maxHeartbeats 4000000 in
/-- @main is that straight line: the windows and the functions' definitions unfolded, the records read at their fields,
    both sides are one chain of steps once sequencing is reassociated. -/
theorem main_eq (d : Dev nD) : main (F := F) d = seq ops := by
  simp only [main, main_part0, main_part1, main_part2, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., binary_bufs_sub ..,
    unary_bufs_sub .., unary_bufs_sub .., binary_bufs_sub ..⟩

/-- Every operation determines its results. -/
theorem ops_fresh : ∀ op ∈ (ops : List (HloOp τ sig (Elt F))), op.fresh = ∅ :=
  List.forall_iff_forall_mem.mp
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

/-- On the device, for any float values, from any memory with zero counters: every weakly fair execution of @main terminates, and every
    final state has each buffer at the operations' fold over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.HandRun

end
-- ==== Proof.RefSegs.lean ====
/-
  The reference program's 231 operations cut into five consecutive runs, each read on its own.

  The runs: the edge list's two rows (4 operations), the three layers (72 operations each: the same operations over
  different buffers), and the two projections (11).  The contents after a concatenation are the contents after its
  second part from the contents after its first (`after_append`), so each run is read from ANY contents `V`: its
  result buffer holds the stage's whole-array function of `V` at the run's inputs (unfold the fold, read each
  operation's result at its own buffer and any other buffer through it; what is left is the stage's definition, by
  computation), and every buffer the run does not write keeps its contents.
-/
import proofs.«161493_j33397665693785_1_alg».proof.Proof.RefRun
import proofs.«161493_j33397665693785_1_alg».proof.Proof.RefTerms

noncomputable section

namespace Cert.ReferenceIdeal.HandValue

open Cert.ReferenceIdeal Cert.ReferenceIdeal.Gen Idealize.ShloMosaic Idealize.ShloMosaic.TcCoe Idealize.SL.Sem Idealize.ShloMosaic.StableHlo
open Cert.ReferenceIdeal.HandRun

/-- The contents after two lines run one after the other: the second's, from the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

section Runs

variable {F : FTy → Type} [FloatOps F]

/-- The edge list's two rows, each cut out and flattened. -/
def seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The buffers that run writes, in order. -/
def seg0W : List (Ref sig .tc) :=
  [main_v0, main_v1, main_v2, main_v3]

/-- The first layer: the neighbourhood sums of the input features, then the layer on the input plus the sums. -/
def seg1 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v18 : TRef sig ⟨S100000x128, .f32⟩) main_call0.v0 main_call0.v1 maximumf,
    binary main_v19 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v23 : TRef sig ⟨S100000x128, .f32⟩) main_call1.v0 main_call1.v1 maximumf,
    nullary main_cst_1 (constant S_ .f32 0x00000000#32),
    binary main_v24 main_cst_1 main_v25 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v25 main_v26 (broadcastInDim S100000x1 ![0] bcast_S100000_S100000x1_0 : (⟨S100000, .f32⟩ : BufTy).Contents (Elt F) → (⟨S100000x1, .f32⟩ : BufTy).Contents (Elt F)),
    nullary main_cst_2 (constant S_ .f32 0x43000000#32),
    unary main_cst_2 main_v27 (broadcastInDim S100000x1 ![] bcast_S_S100000x1 : (⟨S_, .f32⟩ : BufTy).Contents (Elt F) → (⟨S100000x1, .f32⟩ : BufTy).Contents (Elt F)),
    binary main_v26 main_v27 main_v28 (Host.divf : (⟨S100000x1, .f32⟩ : BufTy).Contents (Elt F) → (⟨S100000x1, .f32⟩ : BufTy).Contents (Elt F) → (⟨S100000x1, .f32⟩ : BufTy).Contents (Elt F)),
    nullary main_c_3 (constantI S_ 32 0#32),
    TRef.nullary main_call2.cst (constant S_ .f32 0x00000000#32),
    TRef.binary (.of main_v24 : TRef sig ⟨S100000x128, .f32⟩) main_call2.cst main_call2.v0 (fun x v => Host.reduceAdd x v reducesTo_S100000x128_S100000_d1 h_S_),
    TRef.unary main_call2.v0 main_call2.v1 (broadcastInDim S100000x1 ![0] bcast_S100000_S100000x1_0),
    TRef.nullary main_call2.cst_0 (constant S_ .f32 0x43000000#32),
    TRef.unary main_call2.cst_0 main_call2.v2 (broadcastInDim S100000x1 ![] bcast_S_S100000x1),
    TRef.binary main_call2.v1 main_call2.v2 main_call2.v3 Host.divf,
    TRef.unary main_call2.v3 main_call2.v4 (broadcastInDim S100000x128 ![0, 1] bcast_S100000x1_S100000x128_0_1),
    TRef.binary (.of main_v24 : TRef sig ⟨S100000x128, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S100000_d1 h_S_),
    TRef.unary main_call2.v9 main_call2.v10 (broadcastInDim S100000x1 ![0] bcast_S100000_S100000x1_0),
    TRef.unary main_call2.v8 main_call2.v11 (broadcastInDim S100000x1 ![] bcast_S_S100000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S100000x1 ![] bcast_S_S100000x1),
    TRef.ternary main_call2.v13 main_call2.v12 main_call2.call0.v1 main_call2.call0.v2 (fun p a b => select (broadcastInDim S100000x1 ![] bcast_S_S100000x1 p) a b),
    unary main_v28 main_v30 (broadcastInDim S100000x128 ![0, 1] bcast_S100000x1_S100000x128_0_1 : (⟨S100000x1, .f32⟩ : BufTy).Contents (Elt F) → (⟨S100000x128, .f32⟩ : BufTy).Contents (Elt F)),
    binary main_v24 main_v30 main_v31 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v32 (broadcastInDim S100000x1 ![] bcast_S_S100000x1 : (⟨S_, .f32⟩ : BufTy).Contents (Elt F) → (⟨S100000x1, .f32⟩ : BufTy).Contents (Elt F)),
    binary main_v29 main_v32 main_v33 (addf : (⟨S100000x1, .f32⟩ : BufTy).Contents (Elt F) → (⟨S100000x1, .f32⟩ : BufTy).Contents (Elt F) → (⟨S100000x1, .f32⟩ : BufTy).Contents (Elt F)),
    unary main_v33 main_v34 (Host.rsqrt : (⟨S100000x1, .f32⟩ : BufTy).Contents (Elt F) → (⟨S100000x1, .f32⟩ : BufTy).Contents (Elt F)),
    unary main_v34 main_v35 (broadcastInDim S100000x128 ![0, 1] bcast_S100000x1_S100000x128_0_1 : (⟨S100000x1, .f32⟩ : BufTy).Contents (Elt F) → (⟨S100000x128, .f32⟩ : BufTy).Contents (Elt F)),
    binary main_v31 main_v35 main_v36 (mulf : (⟨S100000x128, .f32⟩ : BufTy).Contents (Elt F) → (⟨S100000x128, .f32⟩ : BufTy).Contents (Elt F) → (⟨S100000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (mulf : (⟨S100000x128, .f32⟩ : BufTy).Contents (Elt F) → (⟨S100000x128, .f32⟩ : BufTy).Contents (Elt F) → (⟨S100000x128, .f32⟩ : BufTy).Contents (Elt F)),
    unary main_arg7 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (addf : (⟨S100000x128, .f32⟩ : BufTy).Contents (Elt F) → (⟨S100000x128, .f32⟩ : BufTy).Contents (Elt F) → (⟨S100000x128, .f32⟩ : BufTy).Contents (Elt F)) ]

/-- The buffers that run writes, in order. -/
def seg1W : List (Ref sig .tc) :=
  [main_c, main_v4, main_v5, main_c_0, main_v6, main_v7, main_v8, main_v9,
   main_v10, main_cst, main_v11, main_v12, main_v13, main_v14, main_v15, main_v16,
   main_v17, main_v18, main_call0.cst.ref, main_call0.v0.ref, main_call0.v1.ref, main_v20, main_v21, main_v22,
   main_v23, main_call1.cst.ref, main_call1.v0.ref, main_call1.v1.ref, main_cst_1, main_v25, main_v26, main_cst_2,
   main_v27, main_v28, main_c_3, main_call2.cst.ref, main_call2.v0.ref, main_call2.v1.ref, main_call2.cst_0.ref, main_call2.v2.ref,
   main_call2.v3.ref, main_call2.v4.ref, main_call2.v5.ref, main_call2.v6.ref, main_call2.v7.ref, main_call2.cst_1.ref, main_call2.v8.ref, main_call2.cst_2.ref,
   main_call2.v9.ref, main_call2.v10.ref, main_call2.v11.ref, main_call2.v12.ref, main_call2.cst_3.ref, main_call2.v13.ref, main_call2.cst_4.ref, main_call2.call0.v0.ref,
   main_call2.call0.v1.ref, main_call2.call0.v2.ref, main_v30, main_v31, main_cst_4, main_v32, main_v33, main_v34,
   main_v35, main_v36, main_v37, main_v38, main_v39, main_v40, main_v41, main_v42]

/-- The second layer, on the first layer's rows. -/
def seg2 : List (HloOp τ sig (Elt F)) :=
  [ nullary main_c_5 (constantI S_ 32 0#32),
    unary main_c_5 main_v43 (broadcastInDim S1600000 ![] bcast_S_S1600000 : (⟨S_, .i32⟩ : BufTy).Contents (Elt F) → (⟨S1600000, .i32⟩ : BufTy).Contents (Elt F)),
    binary main_v1 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v45 (broadcastInDim S1600000 ![] bcast_S_S1600000 : (⟨S_, .i32⟩ : BufTy).Contents (Elt F) → (⟨S1600000, .i32⟩ : BufTy).Contents (Elt F)),
    binary main_v1 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_v1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v42 main_v48 main_v49 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v50 (broadcastInDim S100000x128 ![] bcast_S_S100000x128 : (⟨S_, .f32⟩ : BufTy).Contents (Elt F) → (⟨S100000x128, .f32⟩ : BufTy).Contents (Elt F)),
    unary main_v3 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v42 main_v52 main_v53 (addf : (⟨S100000x128, .f32⟩ : BufTy).Contents (Elt F) → (⟨S100000x128, .f32⟩ : BufTy).Contents (Elt F) → (⟨S100000x128, .f32⟩ : BufTy).Contents (Elt F)),
    binary main_v53 main_arg8 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v57 : TRef sig ⟨S100000x128, .f32⟩) main_call3.v0 main_call3.v1 maximumf,
    binary main_v58 main_arg10 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v62 : TRef sig ⟨S100000x128, .f32⟩) main_call4.v0 main_call4.v1 maximumf,
    nullary main_cst_8 (constant S_ .f32 0x00000000#32),
    binary main_v63 main_cst_8 main_v64 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v64 main_v65 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v66 (broadcastInDim S100000x1 ![] bcast_S_S100000x1 : (⟨S_, .f32⟩ : BufTy).Contents (Elt F) → (⟨S100000x1, .f32⟩ : BufTy).Contents (Elt F)),
    binary main_v65 main_v66 main_v67 (Host.divf : (⟨S100000x1, .f32⟩ : BufTy).Contents (Elt F) → (⟨S100000x1, .f32⟩ : BufTy).Contents (Elt F) → (⟨S100000x1, .f32⟩ : BufTy).Contents (Elt F)),
    nullary main_c_10 (constantI S_ 32 0#32),
    TRef.nullary main_call5.cst (constant S_ .f32 0x00000000#32),
    TRef.binary (.of main_v63 : TRef sig ⟨S100000x128, .f32⟩) main_call5.cst main_call5.v0 (fun x v => Host.reduceAdd x v reducesTo_S100000x128_S100000_d1 h_S_),
    TRef.unary main_call5.v0 main_call5.v1 (broadcastInDim S100000x1 ![0] bcast_S100000_S100000x1_0),
    TRef.nullary main_call5.cst_0 (constant S_ .f32 0x43000000#32),
    TRef.unary main_call5.cst_0 main_call5.v2 (broadcastInDim S100000x1 ![] bcast_S_S100000x1),
    TRef.binary main_call5.v1 main_call5.v2 main_call5.v3 Host.divf,
    TRef.unary main_call5.v3 main_call5.v4 (broadcastInDim S100000x128 ![0, 1] bcast_S100000x1_S100000x128_0_1),
    TRef.binary (.of main_v63 : TRef sig ⟨S100000x128, .f32⟩) main_call5.v4 main_call5.v5 subf,
    TRef.binary main_call5.v5 main_call5.v5 main_call5.v6 mulf,
    TRef.unary (.of main_c_10 : TRef sig ⟨S_, .i32⟩) main_call5.v7 (sitofp .f32),
    TRef.nullary main_call5.cst_1 (constant S_ .f32 0x43000000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S100000_d1 h_S_),
    TRef.unary main_call5.v9 main_call5.v10 (broadcastInDim S100000x1 ![0] bcast_S100000_S100000x1_0),
    TRef.unary main_call5.v8 main_call5.v11 (broadcastInDim S100000x1 ![] bcast_S_S100000x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S100000x1 ![] bcast_S_S100000x1),
    TRef.ternary main_call5.v13 main_call5.v12 main_call5.call0.v1 main_call5.call0.v2 (fun p a b => select (broadcastInDim S100000x1 ![] bcast_S_S100000x1 p) a b),
    unary main_v67 main_v69 (broadcastInDim S100000x128 ![0, 1] bcast_S100000x1_S100000x128_0_1 : (⟨S100000x1, .f32⟩ : BufTy).Contents (Elt F) → (⟨S100000x128, .f32⟩ : BufTy).Contents (Elt F)),
    binary main_v63 main_v69 main_v70 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v71 (broadcastInDim S100000x1 ![] bcast_S_S100000x1 : (⟨S_, .f32⟩ : BufTy).Contents (Elt F) → (⟨S100000x1, .f32⟩ : BufTy).Contents (Elt F)),
    binary main_v68 main_v71 main_v72 (addf : (⟨S100000x1, .f32⟩ : BufTy).Contents (Elt F) → (⟨S100000x1, .f32⟩ : BufTy).Contents (Elt F) → (⟨S100000x1, .f32⟩ : BufTy).Contents (Elt F)),
    unary main_v72 main_v73 (Host.rsqrt : (⟨S100000x1, .f32⟩ : BufTy).Contents (Elt F) → (⟨S100000x1, .f32⟩ : BufTy).Contents (Elt F)),
    unary main_v73 main_v74 (broadcastInDim S100000x128 ![0, 1] bcast_S100000x1_S100000x128_0_1 : (⟨S100000x1, .f32⟩ : BufTy).Contents (Elt F) → (⟨S100000x128, .f32⟩ : BufTy).Contents (Elt F)),
    binary main_v70 main_v74 main_v75 (mulf : (⟨S100000x128, .f32⟩ : BufTy).Contents (Elt F) → (⟨S100000x128, .f32⟩ : BufTy).Contents (Elt F) → (⟨S100000x128, .f32⟩ : BufTy).Contents (Elt F)),
    unary main_arg12 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (mulf : (⟨S100000x128, .f32⟩ : BufTy).Contents (Elt F) → (⟨S100000x128, .f32⟩ : BufTy).Contents (Elt F) → (⟨S100000x128, .f32⟩ : BufTy).Contents (Elt F)),
    unary main_arg13 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (addf : (⟨S100000x128, .f32⟩ : BufTy).Contents (Elt F) → (⟨S100000x128, .f32⟩ : BufTy).Contents (Elt F) → (⟨S100000x128, .f32⟩ : BufTy).Contents (Elt F)) ]

/-- The buffers that run writes, in order. -/
def seg2W : List (Ref sig .tc) :=
  [main_c_5, main_v43, main_v44, main_c_6, main_v45, main_v46, main_v47, main_v48,
   main_v49, main_cst_7, main_v50, main_v51, main_v52, main_v53, main_v54, main_v55,
   main_v56, main_v57, main_call3.cst.ref, main_call3.v0.ref, main_call3.v1.ref, main_v59, main_v60, main_v61,
   main_v62, main_call4.cst.ref, main_call4.v0.ref, main_call4.v1.ref, main_cst_8, main_v64, main_v65, main_cst_9,
   main_v66, main_v67, main_c_10, main_call5.cst.ref, main_call5.v0.ref, main_call5.v1.ref, main_call5.cst_0.ref, main_call5.v2.ref,
   main_call5.v3.ref, main_call5.v4.ref, main_call5.v5.ref, main_call5.v6.ref, main_call5.v7.ref, main_call5.cst_1.ref, main_call5.v8.ref, main_call5.cst_2.ref,
   main_call5.v9.ref, main_call5.v10.ref, main_call5.v11.ref, main_call5.v12.ref, main_call5.cst_3.ref, main_call5.v13.ref, main_call5.cst_4.ref, main_call5.call0.v0.ref,
   main_call5.call0.v1.ref, main_call5.call0.v2.ref, main_v69, main_v70, main_cst_11, main_v71, main_v72, main_v73,
   main_v74, main_v75, main_v76, main_v77, main_v78, main_v79, main_v80, main_v81]

/-- The third layer, on the second layer's rows. -/
def seg3 : List (HloOp τ sig (Elt F)) :=
  [ nullary main_c_12 (constantI S_ 32 0#32),
    unary main_c_12 main_v82 (broadcastInDim S1600000 ![] bcast_S_S1600000 : (⟨S_, .i32⟩ : BufTy).Contents (Elt F) → (⟨S1600000, .i32⟩ : BufTy).Contents (Elt F)),
    binary main_v1 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v84 (broadcastInDim S1600000 ![] bcast_S_S1600000 : (⟨S_, .i32⟩ : BufTy).Contents (Elt F) → (⟨S1600000, .i32⟩ : BufTy).Contents (Elt F)),
    binary main_v1 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v81 main_v87 main_v88 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v89 (broadcastInDim S100000x128 ![] bcast_S_S100000x128 : (⟨S_, .f32⟩ : BufTy).Contents (Elt F) → (⟨S100000x128, .f32⟩ : BufTy).Contents (Elt F)),
    unary main_v3 main_v90 (broadcastInDim S1600000x1 ![0] bcast_S1600000_S1600000x1_0 : (⟨S1600000, .i32⟩ : BufTy).Contents (Elt F) → (⟨S1600000x1, .i32⟩ : BufTy).Contents (Elt F)),
    ternary main_v89 main_v90 main_v88 main_v91 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v81 main_v91 main_v92 (addf : (⟨S100000x128, .f32⟩ : BufTy).Contents (Elt F) → (⟨S100000x128, .f32⟩ : BufTy).Contents (Elt F) → (⟨S100000x128, .f32⟩ : BufTy).Contents (Elt F)),
    binary main_v92 main_arg14 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v96 : TRef sig ⟨S100000x128, .f32⟩) main_call6.v0 main_call6.v1 maximumf,
    binary main_v97 main_arg16 main_v98 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg17 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v98 main_v100 main_v101 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v101 : TRef sig ⟨S100000x128, .f32⟩) main_call7.v0 main_call7.v1 maximumf,
    nullary main_cst_15 (constant S_ .f32 0x00000000#32),
    binary main_v102 main_cst_15 main_v103 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v105 (broadcastInDim S100000x1 ![] bcast_S_S100000x1 : (⟨S_, .f32⟩ : BufTy).Contents (Elt F) → (⟨S100000x1, .f32⟩ : BufTy).Contents (Elt F)),
    binary main_v104 main_v105 main_v106 (Host.divf : (⟨S100000x1, .f32⟩ : BufTy).Contents (Elt F) → (⟨S100000x1, .f32⟩ : BufTy).Contents (Elt F) → (⟨S100000x1, .f32⟩ : BufTy).Contents (Elt F)),
    nullary main_c_17 (constantI S_ 32 0#32),
    TRef.nullary main_call8.cst (constant S_ .f32 0x00000000#32),
    TRef.binary (.of main_v102 : TRef sig ⟨S100000x128, .f32⟩) main_call8.cst main_call8.v0 (fun x v => Host.reduceAdd x v reducesTo_S100000x128_S100000_d1 h_S_),
    TRef.unary main_call8.v0 main_call8.v1 (broadcastInDim S100000x1 ![0] bcast_S100000_S100000x1_0),
    TRef.nullary main_call8.cst_0 (constant S_ .f32 0x43000000#32),
    TRef.unary main_call8.cst_0 main_call8.v2 (broadcastInDim S100000x1 ![] bcast_S_S100000x1),
    TRef.binary main_call8.v1 main_call8.v2 main_call8.v3 Host.divf,
    TRef.unary main_call8.v3 main_call8.v4 (broadcastInDim S100000x128 ![0, 1] bcast_S100000x1_S100000x128_0_1),
    TRef.binary (.of main_v102 : TRef sig ⟨S100000x128, .f32⟩) main_call8.v4 main_call8.v5 subf,
    TRef.binary main_call8.v5 main_call8.v5 main_call8.v6 mulf,
    TRef.unary (.of main_c_17 : TRef sig ⟨S_, .i32⟩) main_call8.v7 (sitofp .f32),
    TRef.nullary main_call8.cst_1 (constant S_ .f32 0x43000000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100000x128_S100000_d1 h_S_),
    TRef.unary main_call8.v9 main_call8.v10 (broadcastInDim S100000x1 ![0] bcast_S100000_S100000x1_0),
    TRef.unary main_call8.v8 main_call8.v11 (broadcastInDim S100000x1 ![] bcast_S_S100000x1),
    TRef.binary main_call8.v10 main_call8.v11 main_call8.v12 Host.divf,
    TRef.nullary main_call8.cst_3 (constant S_ .f32 0x00000000#32),
    TRef.binary main_call8.v8 main_call8.cst_3 main_call8.v13 (cmpf .ogt),
    TRef.nullary main_call8.cst_4 (constant S_ .f32 0x7FC00000#32),
    TRef.unary main_call8.cst_4 main_call8.call0.v0 id,
    TRef.unary main_call8.call0.v0 main_call8.call0.v1 (broadcastInDim S100000x1 ![] bcast_S_S100000x1),
    TRef.ternary main_call8.v13 main_call8.v12 main_call8.call0.v1 main_call8.call0.v2 (fun p a b => select (broadcastInDim S100000x1 ![] bcast_S_S100000x1 p) a b),
    unary main_v106 main_v108 (broadcastInDim S100000x128 ![0, 1] bcast_S100000x1_S100000x128_0_1 : (⟨S100000x1, .f32⟩ : BufTy).Contents (Elt F) → (⟨S100000x128, .f32⟩ : BufTy).Contents (Elt F)),
    binary main_v102 main_v108 main_v109 (subf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v110 (broadcastInDim S100000x1 ![] bcast_S_S100000x1 : (⟨S_, .f32⟩ : BufTy).Contents (Elt F) → (⟨S100000x1, .f32⟩ : BufTy).Contents (Elt F)),
    binary main_v107 main_v110 main_v111 (addf : (⟨S100000x1, .f32⟩ : BufTy).Contents (Elt F) → (⟨S100000x1, .f32⟩ : BufTy).Contents (Elt F) → (⟨S100000x1, .f32⟩ : BufTy).Contents (Elt F)),
    unary main_v111 main_v112 (Host.rsqrt : (⟨S100000x1, .f32⟩ : BufTy).Contents (Elt F) → (⟨S100000x1, .f32⟩ : BufTy).Contents (Elt F)),
    unary main_v112 main_v113 (broadcastInDim S100000x128 ![0, 1] bcast_S100000x1_S100000x128_0_1 : (⟨S100000x1, .f32⟩ : BufTy).Contents (Elt F) → (⟨S100000x128, .f32⟩ : BufTy).Contents (Elt F)),
    binary main_v109 main_v113 main_v114 (mulf : (⟨S100000x128, .f32⟩ : BufTy).Contents (Elt F) → (⟨S100000x128, .f32⟩ : BufTy).Contents (Elt F) → (⟨S100000x128, .f32⟩ : BufTy).Contents (Elt F)),
    unary main_arg18 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v114 main_v116 main_v117 (mulf : (⟨S100000x128, .f32⟩ : BufTy).Contents (Elt F) → (⟨S100000x128, .f32⟩ : BufTy).Contents (Elt F) → (⟨S100000x128, .f32⟩ : BufTy).Contents (Elt F)),
    unary main_arg19 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v117 main_v119 main_v120 (addf : (⟨S100000x128, .f32⟩ : BufTy).Contents (Elt F) → (⟨S100000x128, .f32⟩ : BufTy).Contents (Elt F) → (⟨S100000x128, .f32⟩ : BufTy).Contents (Elt F)) ]

/-- The buffers that run writes, in order. -/
def seg3W : List (Ref sig .tc) :=
  [main_c_12, main_v82, main_v83, main_c_13, main_v84, main_v85, main_v86, main_v87,
   main_v88, main_cst_14, main_v89, main_v90, main_v91, main_v92, main_v93, main_v94,
   main_v95, main_v96, main_call6.cst.ref, main_call6.v0.ref, main_call6.v1.ref, main_v98, main_v99, main_v100,
   main_v101, main_call7.cst.ref, main_call7.v0.ref, main_call7.v1.ref, main_cst_15, main_v103, main_v104, main_cst_16,
   main_v105, main_v106, main_c_17, main_call8.cst.ref, main_call8.v0.ref, main_call8.v1.ref, main_call8.cst_0.ref, main_call8.v2.ref,
   main_call8.v3.ref, main_call8.v4.ref, main_call8.v5.ref, main_call8.v6.ref, main_call8.v7.ref, main_call8.cst_1.ref, main_call8.v8.ref, main_call8.cst_2.ref,
   main_call8.v9.ref, main_call8.v10.ref, main_call8.v11.ref, main_call8.v12.ref, main_call8.cst_3.ref, main_call8.v13.ref, main_call8.cst_4.ref, main_call8.call0.v0.ref,
   main_call8.call0.v1.ref, main_call8.call0.v2.ref, main_v108, main_v109, main_cst_18, main_v110, main_v111, main_v112,
   main_v113, main_v114, main_v115, main_v116, main_v117, main_v118, main_v119, main_v120]

/-- The two projections of the third layer's rectified rows. -/
def seg4 : List (HloOp τ sig (Elt F)) :=
  [ TRef.nullary main_call9.cst (constant S_ .f32 0x00000000#32),
    TRef.unary main_call9.cst main_call9.v0 (broadcastInDim S100000x128 ![] bcast_S_S100000x128),
    TRef.binary (.of main_v120 : TRef sig ⟨S100000x128, .f32⟩) main_call9.v0 main_call9.v1 maximumf,
    binary main_v121 main_arg20 main_v122 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg21 main_v123 (broadcastInDim S1x64 ![1] bcast_S64_S1x64_1 : (⟨S64, .f32⟩ : BufTy).Contents (Elt F) → (⟨S1x64, .f32⟩ : BufTy).Contents (Elt F)),
    unary main_v123 main_v124 (broadcastInDim S100000x64 ![0, 1] bcast_S1x64_S100000x64_0_1 : (⟨S1x64, .f32⟩ : BufTy).Contents (Elt F) → (⟨S100000x64, .f32⟩ : BufTy).Contents (Elt F)),
    binary main_v122 main_v124 main_v125 (addf : (⟨S100000x64, .f32⟩ : BufTy).Contents (Elt F) → (⟨S100000x64, .f32⟩ : BufTy).Contents (Elt F) → (⟨S100000x64, .f32⟩ : BufTy).Contents (Elt F)),
    binary main_v121 main_arg22 main_v126 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg23 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v126 main_v128 main_v129 (addf : (⟨S100000x64, .f32⟩ : BufTy).Contents (Elt F) → (⟨S100000x64, .f32⟩ : BufTy).Contents (Elt F) → (⟨S100000x64, .f32⟩ : BufTy).Contents (Elt F)) ]

/-- The buffers that run writes, in order. -/
def seg4W : List (Ref sig .tc) :=
  [main_call9.cst.ref, main_call9.v0.ref, main_call9.v1.ref, main_v122, main_v123, main_v124, main_v125, main_v126,
   main_v127, main_v128, main_v129]

/-- The program's operations are the five runs, in order. -/
theorem ops_split : (ops : List (HloOp τ sig (Elt F))) = seg0 ++ (seg1 ++ (seg2 ++ (seg3 ++ seg4))) := rfl

end Runs

/-! ## What each run leaves alone

Each operation writes its one result buffer, a member of the run's list; so a reference outside the list keeps its
contents through the run (`after_of_writes_sub`; membership in a list of references is decided). -/

theorem seg0_writes : (seg0 (F := Ideal)).Forall fun op =>
    op.writes ⊆ ((seg0W).map (Proc.devRef (τ := τ) .tc)).toFinset :=
  ⟨Finset.singleton_subset_iff.mpr (List.mem_toFinset.mpr (List.mem_map.mpr ⟨main_v0, by decide, rfl⟩)),
   Finset.singleton_subset_iff.mpr (List.mem_toFinset.mpr (List.mem_map.mpr ⟨main_v1, by decide, rfl⟩)),
   Finset.singleton_subset_iff.mpr (List.mem_toFinset.mpr (List.mem_map.mpr ⟨main_v2, by decide, rfl⟩)),
   Finset.singleton_subset_iff.mpr (List.mem_toFinset.mpr (List.mem_map.mpr ⟨main_v3, by decide, rfl⟩))⟩

theorem seg0_keep (V : Valuation τ sig (Elt Ideal)) {r : Ref sig .tc} (hr : r ∉ seg0W) :
    after (seg0 (F := Ideal)) V (no_index (Proc.devRef .tc r)) = V (Proc.devRef .tc r) :=
  after_of_writes_sub _ V seg0_writes hr

theorem seg1_writes : (seg1 (F := Ideal)).Forall fun op =>
    op.writes ⊆ ((seg1W).map (Proc.devRef (τ := τ) .tc)).toFinset :=
  ⟨Finset.singleton_subset_iff.mpr (List.mem_toFinset.mpr (List.mem_map.mpr ⟨main_c, by decide, rfl⟩)),
   Finset.singleton_subset_iff.mpr (List.mem_toFinset.mpr (List.mem_map.mpr ⟨main_v4, by decide, rfl⟩)),
   Finset.singleton_subset_iff.mpr (List.mem_toFinset.mpr (List.mem_map.mpr ⟨main_v5, by decide, rfl⟩)),
   Finset.singleton_subset_iff.mpr (List.mem_toFinset.mpr (List.mem_map.mpr ⟨main_c_0, by decide, rfl⟩)),
   Finset.singleton_subset_iff.mpr (List.mem_toFinset.mpr (List.mem_map.mpr ⟨main_v6, by decide, rfl⟩)),
   Finset.singleton_subset_iff.mpr (List.mem_toFinset.mpr (List.mem_map.mpr ⟨main_v7, by decide, rfl⟩)),
   Finset.singleton_subset_iff.mpr (List.mem_toFinset.mpr (List.mem_map.mpr ⟨main_v8, by decide, rfl⟩)),
   Finset.singleton_subset_iff.mpr (List.mem_toFinset.mpr (List.mem_map.mpr ⟨main_v9, by decide, rfl⟩)),
   Finset.singleton_subset_iff.mpr (List.mem_toFinset.mpr (List.mem_map.mpr ⟨main_v10, by decide, rfl⟩)),
   Finset.singleton_subset_iff.mpr (List.mem_toFinset.mpr (List.mem_map.mpr ⟨main_cst, by decide, rfl⟩)),
   Finset.singleton_subset_iff.mpr (List.mem_toFinset.mpr (List.mem_map.mpr ⟨main_v11, by decide, rfl⟩)),
   Finset.singleton_subset_iff.mpr (List.mem_toFinset.mpr (List.mem_map.mpr ⟨main_v12, by decide, rfl⟩)),
   Finset.singleton_subset_iff.mpr (List.mem_toFinset.mpr (List.mem_map.mpr ⟨main_v13, by decide, rfl⟩)),
   Finset.singleton_subset_iff.mpr (List.mem_toFinset.mpr (List.mem_map.mpr ⟨main_v14, by decide, rfl⟩)),
   Finset.singleton_subset_iff.mpr (List.mem_toFinset.mpr (List.mem_map.mpr ⟨main_v15, by decide, rfl⟩)),
   Finset.singleton_subset_iff.mpr (List.mem_toFinset.mpr (List.mem_map.mpr ⟨main_v16, by decide, rfl⟩)),
   Finset.singleton_subset_iff.mpr (List.mem_toFinset.mpr (List.mem_map.mpr ⟨main_v17, by decide, rfl⟩)),
   Finset.singleton_subset_iff.mpr (List.mem_toFinset.mpr (List.mem_map.mpr ⟨main_v18, by decide, rfl⟩)),
   Finset.singleton_subset_iff.mpr (List.mem_toFinset.mpr (List.mem_map.mpr ⟨main_call0.cst.ref, by decide, rfl⟩)),
   Finset.singleton_subset_iff.mpr (List.mem_toFinset.mpr (List.mem_map.mpr ⟨main_call0.v0.ref, by decide, rfl⟩)),
   Finset.singleton_subset_iff.mpr (List.mem_toFinset.mpr (List.mem_map.mpr ⟨main_call0.v1.ref, by decide, rfl⟩)),
   Finset.singleton_subset_iff.mpr (List.mem_toFinset.mpr (List.mem_map.mpr ⟨main_v20, by decide, rfl⟩)),
   Finset.singleton_subset_iff.mpr (List.mem_toFinset.mpr (List.mem_map.mpr ⟨main_v21, by decide, rfl⟩)),
   Finset.singleton_subset_iff.mpr (List.mem_toFinset.mpr (List.mem_map.mpr ⟨main_v22, by decide, rfl⟩)),
   Finset.singleton_subset_iff.mpr (List.mem_toFinset.mpr (List.mem_map.mpr ⟨main_v23, by decide, rfl⟩)),
   Finset.singleton_subset_iff.mpr (List.mem_toFinset.mpr (List.mem_map.mpr ⟨main_call1.cst.ref, by decide, rfl⟩)),
   Finset.singleton_subset_iff.mpr (List.mem_toFinset.mpr (List.mem_map.mpr ⟨main_call1.v0.ref, by decide, rfl⟩)),
   Finset.singleton_subset_iff.mpr (List.mem_toFinset.mpr (List.mem_map.mpr ⟨main_call1.v1.ref, by decide, rfl⟩)),
   Finset.singleton_subset_iff.mpr (List.mem_toFinset.mpr (List.mem_map.mpr ⟨main_cst_1, by decide, rfl⟩)),
   Finset.singleton_subset_iff.mpr (List.mem_toFinset.mpr (List.mem_map.mpr ⟨main_v25, by decide, rfl⟩)),
   Finset.singleton_subset_iff.mpr (List.mem_toFinset.mpr (List.mem_map.mpr ⟨main_v26, by decide, rfl⟩)),
   Finset.singleton_subset_iff.mpr (List.mem_toFinset.mpr (List.mem_map.mpr ⟨main_cst_2, by decide, rfl⟩)),
   Finset.singleton_subset_iff.mpr (List.mem_toFinset.mpr (List.mem_map.mpr ⟨main_v27, by decide, rfl⟩)),
   Finset.singleton_subset_iff.mpr (List.mem_toFinset.mpr (List.mem_map.mpr ⟨main_v28, by decide, rfl⟩)),
   Finset.singleton_subset_iff.mpr (List.mem_toFinset.mpr (List.mem_map.mpr ⟨main_c_3, by decide, rfl⟩)),
   Finset.singleton_subset_iff.mpr (List.mem_toFinset.mpr (List.mem_map.mpr ⟨main_call2.cst.ref, by decide, rfl⟩)),
   Finset.singleton_subset_iff.mpr (List.mem_toFinset.mpr (List.mem_map.mpr ⟨main_call2.v0.ref, by decide, rfl⟩)),
   Finset.singleton_subset_iff.mpr (List.mem_toFinset.mpr (List.mem_map.mpr ⟨main_call2.v1.ref, by decide, rfl⟩)),
   Finset.singleton_subset_iff.mpr (List.mem_toFinset.mpr (List.mem_map.mpr ⟨main_call2.cst_0.ref, by decide, rfl⟩)),
   Finset.singleton_subset_iff.mpr (List.mem_toFinset.mpr (List.mem_map.mpr ⟨main_call2.v2.ref, by decide, rfl⟩)),
   Finset.singleton_subset_iff.mpr (List.mem_toFinset.mpr (List.mem_map.mpr ⟨main_call2.v3.ref, by decide, rfl⟩)),
   Finset.singleton_subset_iff.mpr (List.mem_toFinset.mpr (List.mem_map.mpr ⟨main_call2.v4.ref, by decide, rfl⟩)),
   Finset.singleton_subset_iff.mpr (List.mem_toFinset.mpr (List.mem_map.mpr ⟨main_call2.v5.ref, by decide, rfl⟩)),
   Finset.singleton_subset_iff.mpr (List.mem_toFinset.mpr (List.mem_map.mpr ⟨main_call2.v6.ref, by decide, rfl⟩)),
   Finset.singleton_subset_iff.mpr (List.mem_toFinset.mpr (List.mem_map.mpr ⟨main_call2.v7.ref, by decide, rfl⟩)),
   Finset.singleton_subset_iff.mpr (List.mem_toFinset.mpr (List.mem_map.mpr ⟨main_call2.cst_1.ref, by decide, rfl⟩)),
   Finset.singleton_subset_iff.mpr (List.mem_toFinset.mpr (List.mem_map.mpr ⟨main_call2.v8.ref, by decide, rfl⟩)),
   Finset.singleton_subset_iff.mpr (List.mem_toFinset.mpr (List.mem_map.mpr ⟨main_call2.cst_2.ref, by decide, rfl⟩)),
   Finset.singleton_subset_iff.mpr (List.mem_toFinset.mpr (List.mem_map.mpr ⟨main_call2.v9.ref, by decide, rfl⟩)),
   Finset.singleton_subset_iff.mpr (List.mem_toFinset.mpr (List.mem_map.mpr ⟨main_call2.v10.ref, by decide, rfl⟩)),
   Finset.singleton_subset_iff.mpr (List.mem_toFinset.mpr (List.mem_map.mpr ⟨main_call2.v11.ref, by decide, rfl⟩)),
   Finset.singleton_subset_iff.mpr (List.mem_toFinset.mpr (List.mem_map.mpr ⟨main_call2.v12.ref, by decide, rfl⟩)),
   Finset.singleton_subset_iff.mpr (List.mem_toFinset.mpr (List.mem_map.mpr ⟨main_call2.cst_3.ref, by decide, rfl⟩)),
   Finset.singleton_subset_iff.mpr (List.mem_toFinset.mpr (List.mem_map.mpr ⟨main_call2.v13.ref, by decide, rfl⟩)),
   Finset.singleton_subset_iff.mpr (List.mem_toFinset.mpr (List.mem_map.mpr ⟨main_call2.cst_4.ref, by decide, rfl⟩)),
   Finset.singleton_subset_iff.mpr (List.mem_toFinset.mpr (List.mem_map.mpr ⟨main_call2.call0.v0.ref, by decide, rfl⟩)),
   Finset.singleton_subset_iff.mpr (List.mem_toFinset.mpr (List.mem_map.mpr ⟨main_call2.call0.v1.ref, by decide, rfl⟩)),
   Finset.singleton_subset_iff.mpr (List.mem_toFinset.mpr (List.mem_map.mpr ⟨main_call2.call0.v2.ref, by decide, rfl⟩)),
   Finset.singleton_subset_iff.mpr (List.mem_toFinset.mpr (List.mem_map.mpr ⟨main_v30, by decide, rfl⟩)),
   Finset.singleton_subset_iff.mpr (List.mem_toFinset.mpr (List.mem_map.mpr ⟨main_v31, by decide, rfl⟩)),
   Finset.singleton_subset_iff.mpr (List.mem_toFinset.mpr (List.mem_map.mpr ⟨main_cst_4, by decide, rfl⟩)),
   Finset.singleton_subset_iff.mpr (List.mem_toFinset.mpr (List.mem_map.mpr ⟨main_v32, by decide, rfl⟩)),
   Finset.singleton_subset_iff.mpr (List.mem_toFinset.mpr (List.mem_map.mpr ⟨main_v33, by decide, rfl⟩)),
   Finset.singleton_subset_iff.mpr (List.mem_toFinset.mpr (List.mem_map.mpr ⟨main_v34, by decide, rfl⟩)),
   Finset.singleton_subset_iff.mpr (List.mem_toFinset.mpr (List.mem_map.mpr ⟨main_v35, by decide, rfl⟩)),
   Finset.singleton_subset_iff.mpr (List.mem_toFinset.mpr (List.mem_map.mpr ⟨main_v36, by decide, rfl⟩)),
   Finset.singleton_subset_iff.mpr (List.mem_toFinset.mpr (List.mem_map.mpr ⟨main_v37, by decide, rfl⟩)),
   Finset.singleton_subset_iff.mpr (List.mem_toFinset.mpr (List.mem_map.mpr ⟨main_v38, by decide, rfl⟩)),
   Finset.singleton_subset_iff.mpr (List.mem_toFinset.mpr (List.mem_map.mpr ⟨main_v39, by decide, rfl⟩)),
   Finset.singleton_subset_iff.mpr (List.mem_toFinset.mpr (List.mem_map.mpr ⟨main_v40, by decide, rfl⟩)),
   Finset.singleton_subset_iff.mpr (List.mem_toFinset.mpr (List.mem_map.mpr ⟨main_v41, by decide, rfl⟩)),
   Finset.singleton_subset_iff.mpr (List.mem_toFinset.mpr (List.mem_map.mpr ⟨main_v42, by decide, rfl⟩))⟩

theorem seg1_keep (V : Valuation τ sig (Elt Ideal)) {r : Ref sig .tc} (hr : r ∉ seg1W) :
    after (seg1 (F := Ideal)) V (no_index (Proc.devRef .tc r)) = V (Proc.devRef .tc r) :=
  after_of_writes_sub _ V seg1_writes hr

theorem seg2_writes : (seg2 (F := Ideal)).Forall fun op =>
    op.writes ⊆ ((seg2W).map (Proc.devRef (τ := τ) .tc)).toFinset :=
  ⟨Finset.singleton_subset_iff.mpr (List.mem_toFinset.mpr (List.mem_map.mpr ⟨main_c_5, by decide, rfl⟩)),
   Finset.singleton_subset_iff.mpr (List.mem_toFinset.mpr (List.mem_map.mpr ⟨main_v43, by decide, rfl⟩)),
   Finset.singleton_subset_iff.mpr (List.mem_toFinset.mpr (List.mem_map.mpr ⟨main_v44, by decide, rfl⟩)),
   Finset.singleton_subset_iff.mpr (List.mem_toFinset.mpr (List.mem_map.mpr ⟨main_c_6, by decide, rfl⟩)),
   Finset.singleton_subset_iff.mpr (List.mem_toFinset.mpr (List.mem_map.mpr ⟨main_v45, by decide, rfl⟩)),
   Finset.singleton_subset_iff.mpr (List.mem_toFinset.mpr (List.mem_map.mpr ⟨main_v46, by decide, rfl⟩)),
   Finset.singleton_subset_iff.mpr (List.mem_toFinset.mpr (List.mem_map.mpr ⟨main_v47, by decide, rfl⟩)),
   Finset.singleton_subset_iff.mpr (List.mem_toFinset.mpr (List.mem_map.mpr ⟨main_v48, by decide, rfl⟩)),
   Finset.singleton_subset_iff.mpr (List.mem_toFinset.mpr (List.mem_map.mpr ⟨main_v49, by decide, rfl⟩)),
   Finset.singleton_subset_iff.mpr (List.mem_toFinset.mpr (List.mem_map.mpr ⟨main_cst_7, by decide, rfl⟩)),
   Finset.singleton_subset_iff.mpr (List.mem_toFinset.mpr (List.mem_map.mpr ⟨main_v50, by decide, rfl⟩)),
   Finset.singleton_subset_iff.mpr (List.mem_toFinset.mpr (List.mem_map.mpr ⟨main_v51, by decide, rfl⟩)),
   Finset.singleton_subset_iff.mpr (List.mem_toFinset.mpr (List.mem_map.mpr ⟨main_v52, by decide, rfl⟩)),
   Finset.singleton_subset_iff.mpr (List.mem_toFinset.mpr (List.mem_map.mpr ⟨main_v53, by decide, rfl⟩)),
   Finset.singleton_subset_iff.mpr (List.mem_toFinset.mpr (List.mem_map.mpr ⟨main_v54, by decide, rfl⟩)),
   Finset.singleton_subset_iff.mpr (List.mem_toFinset.mpr (List.mem_map.mpr ⟨main_v55, by decide, rfl⟩)),
   Finset.singleton_subset_iff.mpr (List.mem_toFinset.mpr (List.mem_map.mpr ⟨main_v56, by decide, rfl⟩)),
   Finset.singleton_subset_iff.mpr (List.mem_toFinset.mpr (List.mem_map.mpr ⟨main_v57, by decide, rfl⟩)),
   Finset.singleton_subset_iff.mpr (List.mem_toFinset.mpr (List.mem_map.mpr ⟨main_call3.cst.ref, by decide, rfl⟩)),
   Finset.singleton_subset_iff.mpr (List.mem_toFinset.mpr (List.mem_map.mpr ⟨main_call3.v0.ref, by decide, rfl⟩)),
   Finset.singleton_subset_iff.mpr (List.mem_toFinset.mpr (List.mem_map.mpr ⟨main_call3.v1.ref, by decide, rfl⟩)),
   Finset.singleton_subset_iff.mpr (List.mem_toFinset.mpr (List.mem_map.mpr ⟨main_v59, by decide, rfl⟩)),
   Finset.singleton_subset_iff.mpr (List.mem_toFinset.mpr (List.mem_map.mpr ⟨main_v60, by decide, rfl⟩)),
   Finset.singleton_subset_iff.mpr (List.mem_toFinset.mpr (List.mem_map.mpr ⟨main_v61, by decide, rfl⟩)),
   Finset.singleton_subset_iff.mpr (List.mem_toFinset.mpr (List.mem_map.mpr ⟨main_v62, by decide, rfl⟩)),
   Finset.singleton_subset_iff.mpr (List.mem_toFinset.mpr (List.mem_map.mpr ⟨main_call4.cst.ref, by decide, rfl⟩)),
   Finset.singleton_subset_iff.mpr (List.mem_toFinset.mpr (List.mem_map.mpr ⟨main_call4.v0.ref, by decide, rfl⟩)),
   Finset.singleton_subset_iff.mpr (List.mem_toFinset.mpr (List.mem_map.mpr ⟨main_call4.v1.ref, by decide, rfl⟩)),
   Finset.singleton_subset_iff.mpr (List.mem_toFinset.mpr (List.mem_map.mpr ⟨main_cst_8, by decide, rfl⟩)),
   Finset.singleton_subset_iff.mpr (List.mem_toFinset.mpr (List.mem_map.mpr ⟨main_v64, by decide, rfl⟩)),
   Finset.singleton_subset_iff.mpr (List.mem_toFinset.mpr (List.mem_map.mpr ⟨main_v65, by decide, rfl⟩)),
   Finset.singleton_subset_iff.mpr (List.mem_toFinset.mpr (List.mem_map.mpr ⟨main_cst_9, by decide, rfl⟩)),
   Finset.singleton_subset_iff.mpr (List.mem_toFinset.mpr (List.mem_map.mpr ⟨main_v66, by decide, rfl⟩)),
   Finset.singleton_subset_iff.mpr (List.mem_toFinset.mpr (List.mem_map.mpr ⟨main_v67, by decide, rfl⟩)),
   Finset.singleton_subset_iff.mpr (List.mem_toFinset.mpr (List.mem_map.mpr ⟨main_c_10, by decide, rfl⟩)),
   Finset.singleton_subset_iff.mpr (List.mem_toFinset.mpr (List.mem_map.mpr ⟨main_call5.cst.ref, by decide, rfl⟩)),
   Finset.singleton_subset_iff.mpr (List.mem_toFinset.mpr (List.mem_map.mpr ⟨main_call5.v0.ref, by decide, rfl⟩)),
   Finset.singleton_subset_iff.mpr (List.mem_toFinset.mpr (List.mem_map.mpr ⟨main_call5.v1.ref, by decide, rfl⟩)),
   Finset.singleton_subset_iff.mpr (List.mem_toFinset.mpr (List.mem_map.mpr ⟨main_call5.cst_0.ref, by decide, rfl⟩)),
   Finset.singleton_subset_iff.mpr (List.mem_toFinset.mpr (List.mem_map.mpr ⟨main_call5.v2.ref, by decide, rfl⟩)),
   Finset.singleton_subset_iff.mpr (List.mem_toFinset.mpr (List.mem_map.mpr ⟨main_call5.v3.ref, by decide, rfl⟩)),
   Finset.singleton_subset_iff.mpr (List.mem_toFinset.mpr (List.mem_map.mpr ⟨main_call5.v4.ref, by decide, rfl⟩)),
   Finset.singleton_subset_iff.mpr (List.mem_toFinset.mpr (List.mem_map.mpr ⟨main_call5.v5.ref, by decide, rfl⟩)),
   Finset.singleton_subset_iff.mpr (List.mem_toFinset.mpr (List.mem_map.mpr ⟨main_call5.v6.ref, by decide, rfl⟩)),
   Finset.singleton_subset_iff.mpr (List.mem_toFinset.mpr (List.mem_map.mpr ⟨main_call5.v7.ref, by decide, rfl⟩)),
   Finset.singleton_subset_iff.mpr (List.mem_toFinset.mpr (List.mem_map.mpr ⟨main_call5.cst_1.ref, by decide, rfl⟩)),
   Finset.singleton_subset_iff.mpr (List.mem_toFinset.mpr (List.mem_map.mpr ⟨main_call5.v8.ref, by decide, rfl⟩)),
   Finset.singleton_subset_iff.mpr (List.mem_toFinset.mpr (List.mem_map.mpr ⟨main_call5.cst_2.ref, by decide, rfl⟩)),
   Finset.singleton_subset_iff.mpr (List.mem_toFinset.mpr (List.mem_map.mpr ⟨main_call5.v9.ref, by decide, rfl⟩)),
   Finset.singleton_subset_iff.mpr (List.mem_toFinset.mpr (List.mem_map.mpr ⟨main_call5.v10.ref, by decide, rfl⟩)),
   Finset.singleton_subset_iff.mpr (List.mem_toFinset.mpr (List.mem_map.mpr ⟨main_call5.v11.ref, by decide, rfl⟩)),
   Finset.singleton_subset_iff.mpr (List.mem_toFinset.mpr (List.mem_map.mpr ⟨main_call5.v12.ref, by decide, rfl⟩)),
   Finset.singleton_subset_iff.mpr (List.mem_toFinset.mpr (List.mem_map.mpr ⟨main_call5.cst_3.ref, by decide, rfl⟩)),
   Finset.singleton_subset_iff.mpr (List.mem_toFinset.mpr (List.mem_map.mpr ⟨main_call5.v13.ref, by decide, rfl⟩)),
   Finset.singleton_subset_iff.mpr (List.mem_toFinset.mpr (List.mem_map.mpr ⟨main_call5.cst_4.ref, by decide, rfl⟩)),
   Finset.singleton_subset_iff.mpr (List.mem_toFinset.mpr (List.mem_map.mpr ⟨main_call5.call0.v0.ref, by decide, rfl⟩)),
   Finset.singleton_subset_iff.mpr (List.mem_toFinset.mpr (List.mem_map.mpr ⟨main_call5.call0.v1.ref, by decide, rfl⟩)),
   Finset.singleton_subset_iff.mpr (List.mem_toFinset.mpr (List.mem_map.mpr ⟨main_call5.call0.v2.ref, by decide, rfl⟩)),
   Finset.singleton_subset_iff.mpr (List.mem_toFinset.mpr (List.mem_map.mpr ⟨main_v69, by decide, rfl⟩)),
   Finset.singleton_subset_iff.mpr (List.mem_toFinset.mpr (List.mem_map.mpr ⟨main_v70, by decide, rfl⟩)),
   Finset.singleton_subset_iff.mpr (List.mem_toFinset.mpr (List.mem_map.mpr ⟨main_cst_11, by decide, rfl⟩)),
   Finset.singleton_subset_iff.mpr (List.mem_toFinset.mpr (List.mem_map.mpr ⟨main_v71, by decide, rfl⟩)),
   Finset.singleton_subset_iff.mpr (List.mem_toFinset.mpr (List.mem_map.mpr ⟨main_v72, by decide, rfl⟩)),
   Finset.singleton_subset_iff.mpr (List.mem_toFinset.mpr (List.mem_map.mpr ⟨main_v73, by decide, rfl⟩)),
   Finset.singleton_subset_iff.mpr (List.mem_toFinset.mpr (List.mem_map.mpr ⟨main_v74, by decide, rfl⟩)),
   Finset.singleton_subset_iff.mpr (List.mem_toFinset.mpr (List.mem_map.mpr ⟨main_v75, by decide, rfl⟩)),
   Finset.singleton_subset_iff.mpr (List.mem_toFinset.mpr (List.mem_map.mpr ⟨main_v76, by decide, rfl⟩)),
   Finset.singleton_subset_iff.mpr (List.mem_toFinset.mpr (List.mem_map.mpr ⟨main_v77, by decide, rfl⟩)),
   Finset.singleton_subset_iff.mpr (List.mem_toFinset.mpr (List.mem_map.mpr ⟨main_v78, by decide, rfl⟩)),
   Finset.singleton_subset_iff.mpr (List.mem_toFinset.mpr (List.mem_map.mpr ⟨main_v79, by decide, rfl⟩)),
   Finset.singleton_subset_iff.mpr (List.mem_toFinset.mpr (List.mem_map.mpr ⟨main_v80, by decide, rfl⟩)),
   Finset.singleton_subset_iff.mpr (List.mem_toFinset.mpr (List.mem_map.mpr ⟨main_v81, by decide, rfl⟩))⟩

theorem seg2_keep (V : Valuation τ sig (Elt Ideal)) {r : Ref sig .tc} (hr : r ∉ seg2W) :
    after (seg2 (F := Ideal)) V (no_index (Proc.devRef .tc r)) = V (Proc.devRef .tc r) :=
  after_of_writes_sub _ V seg2_writes hr

theorem seg3_writes : (seg3 (F := Ideal)).Forall fun op =>
    op.writes ⊆ ((seg3W).map (Proc.devRef (τ := τ) .tc)).toFinset :=
  ⟨Finset.singleton_subset_iff.mpr (List.mem_toFinset.mpr (List.mem_map.mpr ⟨main_c_12, by decide, rfl⟩)),
   Finset.singleton_subset_iff.mpr (List.mem_toFinset.mpr (List.mem_map.mpr ⟨main_v82, by decide, rfl⟩)),
   Finset.singleton_subset_iff.mpr (List.mem_toFinset.mpr (List.mem_map.mpr ⟨main_v83, by decide, rfl⟩)),
   Finset.singleton_subset_iff.mpr (List.mem_toFinset.mpr (List.mem_map.mpr ⟨main_c_13, by decide, rfl⟩)),
   Finset.singleton_subset_iff.mpr (List.mem_toFinset.mpr (List.mem_map.mpr ⟨main_v84, by decide, rfl⟩)),
   Finset.singleton_subset_iff.mpr (List.mem_toFinset.mpr (List.mem_map.mpr ⟨main_v85, by decide, rfl⟩)),
   Finset.singleton_subset_iff.mpr (List.mem_toFinset.mpr (List.mem_map.mpr ⟨main_v86, by decide, rfl⟩)),
   Finset.singleton_subset_iff.mpr (List.mem_toFinset.mpr (List.mem_map.mpr ⟨main_v87, by decide, rfl⟩)),
   Finset.singleton_subset_iff.mpr (List.mem_toFinset.mpr (List.mem_map.mpr ⟨main_v88, by decide, rfl⟩)),
   Finset.singleton_subset_iff.mpr (List.mem_toFinset.mpr (List.mem_map.mpr ⟨main_cst_14, by decide, rfl⟩)),
   Finset.singleton_subset_iff.mpr (List.mem_toFinset.mpr (List.mem_map.mpr ⟨main_v89, by decide, rfl⟩)),
   Finset.singleton_subset_iff.mpr (List.mem_toFinset.mpr (List.mem_map.mpr ⟨main_v90, by decide, rfl⟩)),
   Finset.singleton_subset_iff.mpr (List.mem_toFinset.mpr (List.mem_map.mpr ⟨main_v91, by decide, rfl⟩)),
   Finset.singleton_subset_iff.mpr (List.mem_toFinset.mpr (List.mem_map.mpr ⟨main_v92, by decide, rfl⟩)),
   Finset.singleton_subset_iff.mpr (List.mem_toFinset.mpr (List.mem_map.mpr ⟨main_v93, by decide, rfl⟩)),
   Finset.singleton_subset_iff.mpr (List.mem_toFinset.mpr (List.mem_map.mpr ⟨main_v94, by decide, rfl⟩)),
   Finset.singleton_subset_iff.mpr (List.mem_toFinset.mpr (List.mem_map.mpr ⟨main_v95, by decide, rfl⟩)),
   Finset.singleton_subset_iff.mpr (List.mem_toFinset.mpr (List.mem_map.mpr ⟨main_v96, by decide, rfl⟩)),
   Finset.singleton_subset_iff.mpr (List.mem_toFinset.mpr (List.mem_map.mpr ⟨main_call6.cst.ref, by decide, rfl⟩)),
   Finset.singleton_subset_iff.mpr (List.mem_toFinset.mpr (List.mem_map.mpr ⟨main_call6.v0.ref, by decide, rfl⟩)),
   Finset.singleton_subset_iff.mpr (List.mem_toFinset.mpr (List.mem_map.mpr ⟨main_call6.v1.ref, by decide, rfl⟩)),
   Finset.singleton_subset_iff.mpr (List.mem_toFinset.mpr (List.mem_map.mpr ⟨main_v98, by decide, rfl⟩)),
   Finset.singleton_subset_iff.mpr (List.mem_toFinset.mpr (List.mem_map.mpr ⟨main_v99, by decide, rfl⟩)),
   Finset.singleton_subset_iff.mpr (List.mem_toFinset.mpr (List.mem_map.mpr ⟨main_v100, by decide, rfl⟩)),
   Finset.singleton_subset_iff.mpr (List.mem_toFinset.mpr (List.mem_map.mpr ⟨main_v101, by decide, rfl⟩)),
   Finset.singleton_subset_iff.mpr (List.mem_toFinset.mpr (List.mem_map.mpr ⟨main_call7.cst.ref, by decide, rfl⟩)),
   Finset.singleton_subset_iff.mpr (List.mem_toFinset.mpr (List.mem_map.mpr ⟨main_call7.v0.ref, by decide, rfl⟩)),
   Finset.singleton_subset_iff.mpr (List.mem_toFinset.mpr (List.mem_map.mpr ⟨main_call7.v1.ref, by decide, rfl⟩)),
   Finset.singleton_subset_iff.mpr (List.mem_toFinset.mpr (List.mem_map.mpr ⟨main_cst_15, by decide, rfl⟩)),
   Finset.singleton_subset_iff.mpr (List.mem_toFinset.mpr (List.mem_map.mpr ⟨main_v103, by decide, rfl⟩)),
   Finset.singleton_subset_iff.mpr (List.mem_toFinset.mpr (List.mem_map.mpr ⟨main_v104, by decide, rfl⟩)),
   Finset.singleton_subset_iff.mpr (List.mem_toFinset.mpr (List.mem_map.mpr ⟨main_cst_16, by decide, rfl⟩)),
   Finset.singleton_subset_iff.mpr (List.mem_toFinset.mpr (List.mem_map.mpr ⟨main_v105, by decide, rfl⟩)),
   Finset.singleton_subset_iff.mpr (List.mem_toFinset.mpr (List.mem_map.mpr ⟨main_v106, by decide, rfl⟩)),
   Finset.singleton_subset_iff.mpr (List.mem_toFinset.mpr (List.mem_map.mpr ⟨main_c_17, by decide, rfl⟩)),
   Finset.singleton_subset_iff.mpr (List.mem_toFinset.mpr (List.mem_map.mpr ⟨main_call8.cst.ref, by decide, rfl⟩)),
   Finset.singleton_subset_iff.mpr (List.mem_toFinset.mpr (List.mem_map.mpr ⟨main_call8.v0.ref, by decide, rfl⟩)),
   Finset.singleton_subset_iff.mpr (List.mem_toFinset.mpr (List.mem_map.mpr ⟨main_call8.v1.ref, by decide, rfl⟩)),
   Finset.singleton_subset_iff.mpr (List.mem_toFinset.mpr (List.mem_map.mpr ⟨main_call8.cst_0.ref, by decide, rfl⟩)),
   Finset.singleton_subset_iff.mpr (List.mem_toFinset.mpr (List.mem_map.mpr ⟨main_call8.v2.ref, by decide, rfl⟩)),
   Finset.singleton_subset_iff.mpr (List.mem_toFinset.mpr (List.mem_map.mpr ⟨main_call8.v3.ref, by decide, rfl⟩)),
   Finset.singleton_subset_iff.mpr (List.mem_toFinset.mpr (List.mem_map.mpr ⟨main_call8.v4.ref, by decide, rfl⟩)),
   Finset.singleton_subset_iff.mpr (List.mem_toFinset.mpr (List.mem_map.mpr ⟨main_call8.v5.ref, by decide, rfl⟩)),
   Finset.singleton_subset_iff.mpr (List.mem_toFinset.mpr (List.mem_map.mpr ⟨main_call8.v6.ref, by decide, rfl⟩)),
   Finset.singleton_subset_iff.mpr (List.mem_toFinset.mpr (List.mem_map.mpr ⟨main_call8.v7.ref, by decide, rfl⟩)),
   Finset.singleton_subset_iff.mpr (List.mem_toFinset.mpr (List.mem_map.mpr ⟨main_call8.cst_1.ref, by decide, rfl⟩)),
   Finset.singleton_subset_iff.mpr (List.mem_toFinset.mpr (List.mem_map.mpr ⟨main_call8.v8.ref, by decide, rfl⟩)),
   Finset.singleton_subset_iff.mpr (List.mem_toFinset.mpr (List.mem_map.mpr ⟨main_call8.cst_2.ref, by decide, rfl⟩)),
   Finset.singleton_subset_iff.mpr (List.mem_toFinset.mpr (List.mem_map.mpr ⟨main_call8.v9.ref, by decide, rfl⟩)),
   Finset.singleton_subset_iff.mpr (List.mem_toFinset.mpr (List.mem_map.mpr ⟨main_call8.v10.ref, by decide, rfl⟩)),
   Finset.singleton_subset_iff.mpr (List.mem_toFinset.mpr (List.mem_map.mpr ⟨main_call8.v11.ref, by decide, rfl⟩)),
   Finset.singleton_subset_iff.mpr (List.mem_toFinset.mpr (List.mem_map.mpr ⟨main_call8.v12.ref, by decide, rfl⟩)),
   Finset.singleton_subset_iff.mpr (List.mem_toFinset.mpr (List.mem_map.mpr ⟨main_call8.cst_3.ref, by decide, rfl⟩)),
   Finset.singleton_subset_iff.mpr (List.mem_toFinset.mpr (List.mem_map.mpr ⟨main_call8.v13.ref, by decide, rfl⟩)),
   Finset.singleton_subset_iff.mpr (List.mem_toFinset.mpr (List.mem_map.mpr ⟨main_call8.cst_4.ref, by decide, rfl⟩)),
   Finset.singleton_subset_iff.mpr (List.mem_toFinset.mpr (List.mem_map.mpr ⟨main_call8.call0.v0.ref, by decide, rfl⟩)),
   Finset.singleton_subset_iff.mpr (List.mem_toFinset.mpr (List.mem_map.mpr ⟨main_call8.call0.v1.ref, by decide, rfl⟩)),
   Finset.singleton_subset_iff.mpr (List.mem_toFinset.mpr (List.mem_map.mpr ⟨main_call8.call0.v2.ref, by decide, rfl⟩)),
   Finset.singleton_subset_iff.mpr (List.mem_toFinset.mpr (List.mem_map.mpr ⟨main_v108, by decide, rfl⟩)),
   Finset.singleton_subset_iff.mpr (List.mem_toFinset.mpr (List.mem_map.mpr ⟨main_v109, by decide, rfl⟩)),
   Finset.singleton_subset_iff.mpr (List.mem_toFinset.mpr (List.mem_map.mpr ⟨main_cst_18, by decide, rfl⟩)),
   Finset.singleton_subset_iff.mpr (List.mem_toFinset.mpr (List.mem_map.mpr ⟨main_v110, by decide, rfl⟩)),
   Finset.singleton_subset_iff.mpr (List.mem_toFinset.mpr (List.mem_map.mpr ⟨main_v111, by decide, rfl⟩)),
   Finset.singleton_subset_iff.mpr (List.mem_toFinset.mpr (List.mem_map.mpr ⟨main_v112, by decide, rfl⟩)),
   Finset.singleton_subset_iff.mpr (List.mem_toFinset.mpr (List.mem_map.mpr ⟨main_v113, by decide, rfl⟩)),
   Finset.singleton_subset_iff.mpr (List.mem_toFinset.mpr (List.mem_map.mpr ⟨main_v114, by decide, rfl⟩)),
   Finset.singleton_subset_iff.mpr (List.mem_toFinset.mpr (List.mem_map.mpr ⟨main_v115, by decide, rfl⟩)),
   Finset.singleton_subset_iff.mpr (List.mem_toFinset.mpr (List.mem_map.mpr ⟨main_v116, by decide, rfl⟩)),
   Finset.singleton_subset_iff.mpr (List.mem_toFinset.mpr (List.mem_map.mpr ⟨main_v117, by decide, rfl⟩)),
   Finset.singleton_subset_iff.mpr (List.mem_toFinset.mpr (List.mem_map.mpr ⟨main_v118, by decide, rfl⟩)),
   Finset.singleton_subset_iff.mpr (List.mem_toFinset.mpr (List.mem_map.mpr ⟨main_v119, by decide, rfl⟩)),
   Finset.singleton_subset_iff.mpr (List.mem_toFinset.mpr (List.mem_map.mpr ⟨main_v120, by decide, rfl⟩))⟩

theorem seg3_keep (V : Valuation τ sig (Elt Ideal)) {r : Ref sig .tc} (hr : r ∉ seg3W) :
    after (seg3 (F := Ideal)) V (no_index (Proc.devRef .tc r)) = V (Proc.devRef .tc r) :=
  after_of_writes_sub _ V seg3_writes hr

theorem seg4_writes : (seg4 (F := Ideal)).Forall fun op =>
    op.writes ⊆ ((seg4W).map (Proc.devRef (τ := τ) .tc)).toFinset :=
  ⟨Finset.singleton_subset_iff.mpr (List.mem_toFinset.mpr (List.mem_map.mpr ⟨main_call9.cst.ref, by decide, rfl⟩)),
   Finset.singleton_subset_iff.mpr (List.mem_toFinset.mpr (List.mem_map.mpr ⟨main_call9.v0.ref, by decide, rfl⟩)),
   Finset.singleton_subset_iff.mpr (List.mem_toFinset.mpr (List.mem_map.mpr ⟨main_call9.v1.ref, by decide, rfl⟩)),
   Finset.singleton_subset_iff.mpr (List.mem_toFinset.mpr (List.mem_map.mpr ⟨main_v122, by decide, rfl⟩)),
   Finset.singleton_subset_iff.mpr (List.mem_toFinset.mpr (List.mem_map.mpr ⟨main_v123, by decide, rfl⟩)),
   Finset.singleton_subset_iff.mpr (List.mem_toFinset.mpr (List.mem_map.mpr ⟨main_v124, by decide, rfl⟩)),
   Finset.singleton_subset_iff.mpr (List.mem_toFinset.mpr (List.mem_map.mpr ⟨main_v125, by decide, rfl⟩)),
   Finset.singleton_subset_iff.mpr (List.mem_toFinset.mpr (List.mem_map.mpr ⟨main_v126, by decide, rfl⟩)),
   Finset.singleton_subset_iff.mpr (List.mem_toFinset.mpr (List.mem_map.mpr ⟨main_v127, by decide, rfl⟩)),
   Finset.singleton_subset_iff.mpr (List.mem_toFinset.mpr (List.mem_map.mpr ⟨main_v128, by decide, rfl⟩)),
   Finset.singleton_subset_iff.mpr (List.mem_toFinset.mpr (List.mem_map.mpr ⟨main_v129, by decide, rfl⟩))⟩

theorem seg4_keep (V : Valuation τ sig (Elt Ideal)) {r : Ref sig .tc} (hr : r ∉ seg4W) :
    after (seg4 (F := Ideal)) V (no_index (Proc.devRef .tc r)) = V (Proc.devRef .tc r) :=
  after_of_writes_sub _ V seg4_writes hr

/-! ## What each run computes -/

theorem seg0_v1 (V : Valuation τ sig (Elt Ideal)) :
    after (seg0 (F := Ideal)) V (main_v1 : DevRef τ sig) = Terms.Src (V (main_arg1 : DevRef τ sig)) := by
  unfold seg0
  after_results_simp
  rfl

theorem seg0_v3 (V : Valuation τ sig (Elt Ideal)) :
    after (seg0 (F := Ideal)) V (main_v3 : DevRef τ sig) = Terms.Dst (V (main_arg1 : DevRef τ sig)) := by
  unfold seg0
  after_results_simp
  rfl

set_option maxRecDepth 8192 in
set_option maxHeartbeats 1000000 in
/-- After the first layer's operations its result buffer holds the layer of the input rows, their
    neighbourhood sums along the edge list's rows, and the layer's six parameters. -/
theorem seg1_out (V : Valuation τ sig (Elt Ideal)) :
    after (seg1 (F := Ideal)) V (main_v42 : DevRef τ sig)
      = Terms.Layer (V (main_arg0 : DevRef τ sig)) (Terms.AggOf (V (main_arg0 : DevRef τ sig)) (V (main_v1 : DevRef τ sig)) (V (main_v3 : DevRef τ sig)))
          (V (main_arg2 : DevRef τ sig)) (V (main_arg3 : DevRef τ sig)) (V (main_arg4 : DevRef τ sig)) (V (main_arg5 : DevRef τ sig)) (V (main_arg6 : DevRef τ sig)) (V (main_arg7 : DevRef τ sig)) := by
  unfold seg1
  after_results_simp
  rfl

set_option maxRecDepth 8192 in
set_option maxHeartbeats 1000000 in
/-- After the second layer's operations its result buffer holds the layer of the input rows, their
    neighbourhood sums along the edge list's rows, and the layer's six parameters. -/
theorem seg2_out (V : Valuation τ sig (Elt Ideal)) :
    after (seg2 (F := Ideal)) V (main_v81 : DevRef τ sig)
      = Terms.Layer (V (main_v42 : DevRef τ sig)) (Terms.AggOf (V (main_v42 : DevRef τ sig)) (V (main_v1 : DevRef τ sig)) (V (main_v3 : DevRef τ sig)))
          (V (main_arg8 : DevRef τ sig)) (V (main_arg9 : DevRef τ sig)) (V (main_arg10 : DevRef τ sig)) (V (main_arg11 : DevRef τ sig)) (V (main_arg12 : DevRef τ sig)) (V (main_arg13 : DevRef τ sig)) := by
  unfold seg2
  after_results_simp
  rfl

set_option maxRecDepth 8192 in
set_option maxHeartbeats 1000000 in
/-- After the third layer's operations its result buffer holds the layer of the input rows, their
    neighbourhood sums along the edge list's rows, and the layer's six parameters. -/
theorem seg3_out (V : Valuation τ sig (Elt Ideal)) :
    after (seg3 (F := Ideal)) V (main_v120 : DevRef τ sig)
      = Terms.Layer (V (main_v81 : DevRef τ sig)) (Terms.AggOf (V (main_v81 : DevRef τ sig)) (V (main_v1 : DevRef τ sig)) (V (main_v3 : DevRef τ sig)))
          (V (main_arg14 : DevRef τ sig)) (V (main_arg15 : DevRef τ sig)) (V (main_arg16 : DevRef τ sig)) (V (main_arg17 : DevRef τ sig)) (V (main_arg18 : DevRef τ sig)) (V (main_arg19 : DevRef τ sig)) := by
  unfold seg3
  after_results_simp
  rfl

set_option maxRecDepth 8192 in
/-- After the last run the first result buffer holds the first projection of the third layer's rows. -/
theorem seg4_out0 (V : Valuation τ sig (Elt Ideal)) :
    after (seg4 (F := Ideal)) V (main_v125 : DevRef τ sig)
      = Terms.Head (V (main_v120 : DevRef τ sig)) (V (main_arg20 : DevRef τ sig)) (V (main_arg21 : DevRef τ sig)) := by
  unfold seg4
  after_results_simp
  rfl

set_option maxRecDepth 8192 in
/-- After the last run the second result buffer holds the second projection of the third layer's rows. -/
theorem seg4_out1 (V : Valuation τ sig (Elt Ideal)) :
    after (seg4 (F := Ideal)) V (main_v129 : DevRef τ sig)
      = Terms.Head (V (main_v120 : DevRef τ sig)) (V (main_arg22 : DevRef τ sig)) (V (main_arg23 : DevRef τ sig)) := by
  unfold seg4
  after_results_simp
  rfl

end Cert.ReferenceIdeal.HandValue

end
-- ==== Proof.RefValue.lean ====
/-
  The reference program's results as the network's stages applied to the arguments.

  The five runs of the program's operations, composed from the launch contents: the two results are
  `Terms.Head (Terms.Net …) …` of the arguments' launch contents, and every argument is unchanged.
-/
import proofs.«161493_j33397665693785_1_alg».proof.Proof.RefSegs

noncomputable section

namespace Cert.ReferenceIdeal.HandValue

open Cert.ReferenceIdeal Cert.ReferenceIdeal.Gen Idealize.ShloMosaic Idealize.ShloMosaic.TcCoe Idealize.SL.Sem Idealize.ShloMosaic.StableHlo
open Cert.ReferenceIdeal.HandRun

/-! ## The whole program -/

/-! The runs' equations restated with the reference they read left unindexed, for rewriting under a composition. -/

theorem seg0_v1' (V : Valuation τ sig (Elt Ideal)) :
    after (seg0 (F := Ideal)) V (no_index (Proc.devRef .tc main_v1)) = Terms.Src (V (main_arg1 : DevRef τ sig)) := seg0_v1 V
theorem seg0_v3' (V : Valuation τ sig (Elt Ideal)) :
    after (seg0 (F := Ideal)) V (no_index (Proc.devRef .tc main_v3)) = Terms.Dst (V (main_arg1 : DevRef τ sig)) := seg0_v3 V
theorem seg1_out' (V : Valuation τ sig (Elt Ideal)) :
    after (seg1 (F := Ideal)) V (no_index (Proc.devRef .tc main_v42))
      = Terms.Layer (V (main_arg0 : DevRef τ sig)) (Terms.AggOf (V (main_arg0 : DevRef τ sig)) (V (main_v1 : DevRef τ sig)) (V (main_v3 : DevRef τ sig)))
          (V (main_arg2 : DevRef τ sig)) (V (main_arg3 : DevRef τ sig)) (V (main_arg4 : DevRef τ sig)) (V (main_arg5 : DevRef τ sig)) (V (main_arg6 : DevRef τ sig)) (V (main_arg7 : DevRef τ sig)) := seg1_out V
theorem seg2_out' (V : Valuation τ sig (Elt Ideal)) :
    after (seg2 (F := Ideal)) V (no_index (Proc.devRef .tc main_v81))
      = Terms.Layer (V (main_v42 : DevRef τ sig)) (Terms.AggOf (V (main_v42 : DevRef τ sig)) (V (main_v1 : DevRef τ sig)) (V (main_v3 : DevRef τ sig)))
          (V (main_arg8 : DevRef τ sig)) (V (main_arg9 : DevRef τ sig)) (V (main_arg10 : DevRef τ sig)) (V (main_arg11 : DevRef τ sig)) (V (main_arg12 : DevRef τ sig)) (V (main_arg13 : DevRef τ sig)) := seg2_out V
theorem seg3_out' (V : Valuation τ sig (Elt Ideal)) :
    after (seg3 (F := Ideal)) V (no_index (Proc.devRef .tc main_v120))
      = Terms.Layer (V (main_v81 : DevRef τ sig)) (Terms.AggOf (V (main_v81 : DevRef τ sig)) (V (main_v1 : DevRef τ sig)) (V (main_v3 : DevRef τ sig)))
          (V (main_arg14 : DevRef τ sig)) (V (main_arg15 : DevRef τ sig)) (V (main_arg16 : DevRef τ sig)) (V (main_arg17 : DevRef τ sig)) (V (main_arg18 : DevRef τ sig)) (V (main_arg19 : DevRef τ sig)) := seg3_out V
theorem seg4_out0' (V : Valuation τ sig (Elt Ideal)) :
    after (seg4 (F := Ideal)) V (no_index (Proc.devRef .tc main_v125))
      = Terms.Head (V (main_v120 : DevRef τ sig)) (V (main_arg20 : DevRef τ sig)) (V (main_arg21 : DevRef τ sig)) := seg4_out0 V
theorem seg4_out1' (V : Valuation τ sig (Elt Ideal)) :
    after (seg4 (F := Ideal)) V (no_index (Proc.devRef .tc main_v129))
      = Terms.Head (V (main_v120 : DevRef τ sig)) (V (main_arg22 : DevRef τ sig)) (V (main_arg23 : DevRef τ sig)) := seg4_out1 V

set_option maxRecDepth 8192 in
/-- From any contents: the first result is the first projection of the network of the arguments' contents. -/
theorem out0_of (V : Valuation τ sig (Elt Ideal)) :
    after (ops (F := Ideal)) V (main_v125 : DevRef τ sig)
      = Terms.Head (Terms.Net
            (V (main_arg0 : DevRef τ sig)) (V (main_arg1 : DevRef τ sig)) (V (main_arg2 : DevRef τ sig)) (V (main_arg3 : DevRef τ sig))
            (V (main_arg4 : DevRef τ sig)) (V (main_arg5 : DevRef τ sig)) (V (main_arg6 : DevRef τ sig)) (V (main_arg7 : DevRef τ sig))
            (V (main_arg8 : DevRef τ sig)) (V (main_arg9 : DevRef τ sig)) (V (main_arg10 : DevRef τ sig)) (V (main_arg11 : DevRef τ sig))
            (V (main_arg12 : DevRef τ sig)) (V (main_arg13 : DevRef τ sig)) (V (main_arg14 : DevRef τ sig)) (V (main_arg15 : DevRef τ sig))
            (V (main_arg16 : DevRef τ sig)) (V (main_arg17 : DevRef τ sig)) (V (main_arg18 : DevRef τ sig)) (V (main_arg19 : DevRef τ sig)))
          (V (main_arg20 : DevRef τ sig)) (V (main_arg21 : DevRef τ sig)) := by
  rw [ops_split]
  simp (disch := decide) only [after_append, seg4_out0', seg3_out', seg2_out', seg1_out', seg0_v1', seg0_v3',
    seg3_keep, seg2_keep, seg1_keep, seg0_keep]
  rfl

/-- The first result buffer after @main's operations from the launch contents: the first projection of the network of the
    arguments' launch contents. -/
theorem out0 (m : (ℓ : Loc nD τ sig) → Buf (Elt Ideal) ℓ) (d : Dev nD) :
    after (ops (F := Ideal)) (launchContents m d) (Proc.devRef .tc main_v125)
      = Terms.Head (Terms.Net
            (m ((d.tc : Thread nD τ).loc main_arg0)) (m ((d.tc : Thread nD τ).loc main_arg1)) (m ((d.tc : Thread nD τ).loc main_arg2)) (m ((d.tc : Thread nD τ).loc main_arg3))
            (m ((d.tc : Thread nD τ).loc main_arg4)) (m ((d.tc : Thread nD τ).loc main_arg5)) (m ((d.tc : Thread nD τ).loc main_arg6)) (m ((d.tc : Thread nD τ).loc main_arg7))
            (m ((d.tc : Thread nD τ).loc main_arg8)) (m ((d.tc : Thread nD τ).loc main_arg9)) (m ((d.tc : Thread nD τ).loc main_arg10)) (m ((d.tc : Thread nD τ).loc main_arg11))
            (m ((d.tc : Thread nD τ).loc main_arg12)) (m ((d.tc : Thread nD τ).loc main_arg13)) (m ((d.tc : Thread nD τ).loc main_arg14)) (m ((d.tc : Thread nD τ).loc main_arg15))
            (m ((d.tc : Thread nD τ).loc main_arg16)) (m ((d.tc : Thread nD τ).loc main_arg17)) (m ((d.tc : Thread nD τ).loc main_arg18)) (m ((d.tc : Thread nD τ).loc main_arg19)))
          (m ((d.tc : Thread nD τ).loc main_arg20)) (m ((d.tc : Thread nD τ).loc main_arg21)) :=
  out0_of (launchContents m d)

set_option maxRecDepth 8192 in
/-- From any contents: the second result is the second projection of the network of the arguments' contents. -/
theorem out1_of (V : Valuation τ sig (Elt Ideal)) :
    after (ops (F := Ideal)) V (main_v129 : DevRef τ sig)
      = Terms.Head (Terms.Net
            (V (main_arg0 : DevRef τ sig)) (V (main_arg1 : DevRef τ sig)) (V (main_arg2 : DevRef τ sig)) (V (main_arg3 : DevRef τ sig))
            (V (main_arg4 : DevRef τ sig)) (V (main_arg5 : DevRef τ sig)) (V (main_arg6 : DevRef τ sig)) (V (main_arg7 : DevRef τ sig))
            (V (main_arg8 : DevRef τ sig)) (V (main_arg9 : DevRef τ sig)) (V (main_arg10 : DevRef τ sig)) (V (main_arg11 : DevRef τ sig))
            (V (main_arg12 : DevRef τ sig)) (V (main_arg13 : DevRef τ sig)) (V (main_arg14 : DevRef τ sig)) (V (main_arg15 : DevRef τ sig))
            (V (main_arg16 : DevRef τ sig)) (V (main_arg17 : DevRef τ sig)) (V (main_arg18 : DevRef τ sig)) (V (main_arg19 : DevRef τ sig)))
          (V (main_arg22 : DevRef τ sig)) (V (main_arg23 : DevRef τ sig)) := by
  rw [ops_split]
  simp (disch := decide) only [after_append, seg4_out1', seg3_out', seg2_out', seg1_out', seg0_v1', seg0_v3',
    seg3_keep, seg2_keep, seg1_keep, seg0_keep]
  rfl

/-- The second result buffer after @main's operations from the launch contents: the second projection of the network of the
    arguments' launch contents. -/
theorem out1 (m : (ℓ : Loc nD τ sig) → Buf (Elt Ideal) ℓ) (d : Dev nD) :
    after (ops (F := Ideal)) (launchContents m d) (Proc.devRef .tc main_v129)
      = Terms.Head (Terms.Net
            (m ((d.tc : Thread nD τ).loc main_arg0)) (m ((d.tc : Thread nD τ).loc main_arg1)) (m ((d.tc : Thread nD τ).loc main_arg2)) (m ((d.tc : Thread nD τ).loc main_arg3))
            (m ((d.tc : Thread nD τ).loc main_arg4)) (m ((d.tc : Thread nD τ).loc main_arg5)) (m ((d.tc : Thread nD τ).loc main_arg6)) (m ((d.tc : Thread nD τ).loc main_arg7))
            (m ((d.tc : Thread nD τ).loc main_arg8)) (m ((d.tc : Thread nD τ).loc main_arg9)) (m ((d.tc : Thread nD τ).loc main_arg10)) (m ((d.tc : Thread nD τ).loc main_arg11))
            (m ((d.tc : Thread nD τ).loc main_arg12)) (m ((d.tc : Thread nD τ).loc main_arg13)) (m ((d.tc : Thread nD τ).loc main_arg14)) (m ((d.tc : Thread nD τ).loc main_arg15))
            (m ((d.tc : Thread nD τ).loc main_arg16)) (m ((d.tc : Thread nD τ).loc main_arg17)) (m ((d.tc : Thread nD τ).loc main_arg18)) (m ((d.tc : Thread nD τ).loc main_arg19)))
          (m ((d.tc : Thread nD τ).loc main_arg22)) (m ((d.tc : Thread nD τ).loc main_arg23)) :=
  out1_of (launchContents m d)

/-- No operation writes an argument's buffer: from any contents each argument keeps its own. -/
theorem kept_of (V : Valuation τ sig (Elt Ideal)) {r : Ref sig .tc}
    (h0 : r ∉ seg0W) (h1 : r ∉ seg1W) (h2 : r ∉ seg2W) (h3 : r ∉ seg3W) (h4 : r ∉ seg4W) :
    after (ops (F := Ideal)) V (Proc.devRef .tc r) = V (Proc.devRef .tc r) := by
  rw [ops_split, after_append, after_append, after_append, after_append,
    seg4_keep _ h4, seg3_keep _ h3, seg2_keep _ h2, seg1_keep _ h1, seg0_keep _ h0]

theorem kept_arg0 (m : (ℓ : Loc nD τ sig) → Buf (Elt Ideal) ℓ) (d : Dev nD) :
    after (ops (F := Ideal)) (launchContents m d) (Proc.devRef .tc main_arg0) = m ((d.tc : Thread nD τ).loc main_arg0) :=
  kept_of (launchContents m d) (by decide) (by decide) (by decide) (by decide) (by decide)

theorem kept_arg1 (m : (ℓ : Loc nD τ sig) → Buf (Elt Ideal) ℓ) (d : Dev nD) :
    after (ops (F := Ideal)) (launchContents m d) (Proc.devRef .tc main_arg1) = m ((d.tc : Thread nD τ).loc main_arg1) :=
  kept_of (launchContents m d) (by decide) (by decide) (by decide) (by decide) (by decide)

theorem kept_arg2 (m : (ℓ : Loc nD τ sig) → Buf (Elt Ideal) ℓ) (d : Dev nD) :
    after (ops (F := Ideal)) (launchContents m d) (Proc.devRef .tc main_arg2) = m ((d.tc : Thread nD τ).loc main_arg2) :=
  kept_of (launchContents m d) (by decide) (by decide) (by decide) (by decide) (by decide)

theorem kept_arg3 (m : (ℓ : Loc nD τ sig) → Buf (Elt Ideal) ℓ) (d : Dev nD) :
    after (ops (F := Ideal)) (launchContents m d) (Proc.devRef .tc main_arg3) = m ((d.tc : Thread nD τ).loc main_arg3) :=
  kept_of (launchContents m d) (by decide) (by decide) (by decide) (by decide) (by decide)

theorem kept_arg4 (m : (ℓ : Loc nD τ sig) → Buf (Elt Ideal) ℓ) (d : Dev nD) :
    after (ops (F := Ideal)) (launchContents m d) (Proc.devRef .tc main_arg4) = m ((d.tc : Thread nD τ).loc main_arg4) :=
  kept_of (launchContents m d) (by decide) (by decide) (by decide) (by decide) (by decide)

theorem kept_arg5 (m : (ℓ : Loc nD τ sig) → Buf (Elt Ideal) ℓ) (d : Dev nD) :
    after (ops (F := Ideal)) (launchContents m d) (Proc.devRef .tc main_arg5) = m ((d.tc : Thread nD τ).loc main_arg5) :=
  kept_of (launchContents m d) (by decide) (by decide) (by decide) (by decide) (by decide)

theorem kept_arg6 (m : (ℓ : Loc nD τ sig) → Buf (Elt Ideal) ℓ) (d : Dev nD) :
    after (ops (F := Ideal)) (launchContents m d) (Proc.devRef .tc main_arg6) = m ((d.tc : Thread nD τ).loc main_arg6) :=
  kept_of (launchContents m d) (by decide) (by decide) (by decide) (by decide) (by decide)

theorem kept_arg7 (m : (ℓ : Loc nD τ sig) → Buf (Elt Ideal) ℓ) (d : Dev nD) :
    after (ops (F := Ideal)) (launchContents m d) (Proc.devRef .tc main_arg7) = m ((d.tc : Thread nD τ).loc main_arg7) :=
  kept_of (launchContents m d) (by decide) (by decide) (by decide) (by decide) (by decide)

theorem kept_arg8 (m : (ℓ : Loc nD τ sig) → Buf (Elt Ideal) ℓ) (d : Dev nD) :
    after (ops (F := Ideal)) (launchContents m d) (Proc.devRef .tc main_arg8) = m ((d.tc : Thread nD τ).loc main_arg8) :=
  kept_of (launchContents m d) (by decide) (by decide) (by decide) (by decide) (by decide)

theorem kept_arg9 (m : (ℓ : Loc nD τ sig) → Buf (Elt Ideal) ℓ) (d : Dev nD) :
    after (ops (F := Ideal)) (launchContents m d) (Proc.devRef .tc main_arg9) = m ((d.tc : Thread nD τ).loc main_arg9) :=
  kept_of (launchContents m d) (by decide) (by decide) (by decide) (by decide) (by decide)

theorem kept_arg10 (m : (ℓ : Loc nD τ sig) → Buf (Elt Ideal) ℓ) (d : Dev nD) :
    after (ops (F := Ideal)) (launchContents m d) (Proc.devRef .tc main_arg10) = m ((d.tc : Thread nD τ).loc main_arg10) :=
  kept_of (launchContents m d) (by decide) (by decide) (by decide) (by decide) (by decide)

theorem kept_arg11 (m : (ℓ : Loc nD τ sig) → Buf (Elt Ideal) ℓ) (d : Dev nD) :
    after (ops (F := Ideal)) (launchContents m d) (Proc.devRef .tc main_arg11) = m ((d.tc : Thread nD τ).loc main_arg11) :=
  kept_of (launchContents m d) (by decide) (by decide) (by decide) (by decide) (by decide)

theorem kept_arg12 (m : (ℓ : Loc nD τ sig) → Buf (Elt Ideal) ℓ) (d : Dev nD) :
    after (ops (F := Ideal)) (launchContents m d) (Proc.devRef .tc main_arg12) = m ((d.tc : Thread nD τ).loc main_arg12) :=
  kept_of (launchContents m d) (by decide) (by decide) (by decide) (by decide) (by decide)

theorem kept_arg13 (m : (ℓ : Loc nD τ sig) → Buf (Elt Ideal) ℓ) (d : Dev nD) :
    after (ops (F := Ideal)) (launchContents m d) (Proc.devRef .tc main_arg13) = m ((d.tc : Thread nD τ).loc main_arg13) :=
  kept_of (launchContents m d) (by decide) (by decide) (by decide) (by decide) (by decide)

theorem kept_arg14 (m : (ℓ : Loc nD τ sig) → Buf (Elt Ideal) ℓ) (d : Dev nD) :
    after (ops (F := Ideal)) (launchContents m d) (Proc.devRef .tc main_arg14) = m ((d.tc : Thread nD τ).loc main_arg14) :=
  kept_of (launchContents m d) (by decide) (by decide) (by decide) (by decide) (by decide)

theorem kept_arg15 (m : (ℓ : Loc nD τ sig) → Buf (Elt Ideal) ℓ) (d : Dev nD) :
    after (ops (F := Ideal)) (launchContents m d) (Proc.devRef .tc main_arg15) = m ((d.tc : Thread nD τ).loc main_arg15) :=
  kept_of (launchContents m d) (by decide) (by decide) (by decide) (by decide) (by decide)

theorem kept_arg16 (m : (ℓ : Loc nD τ sig) → Buf (Elt Ideal) ℓ) (d : Dev nD) :
    after (ops (F := Ideal)) (launchContents m d) (Proc.devRef .tc main_arg16) = m ((d.tc : Thread nD τ).loc main_arg16) :=
  kept_of (launchContents m d) (by decide) (by decide) (by decide) (by decide) (by decide)

theorem kept_arg17 (m : (ℓ : Loc nD τ sig) → Buf (Elt Ideal) ℓ) (d : Dev nD) :
    after (ops (F := Ideal)) (launchContents m d) (Proc.devRef .tc main_arg17) = m ((d.tc : Thread nD τ).loc main_arg17) :=
  kept_of (launchContents m d) (by decide) (by decide) (by decide) (by decide) (by decide)

theorem kept_arg18 (m : (ℓ : Loc nD τ sig) → Buf (Elt Ideal) ℓ) (d : Dev nD) :
    after (ops (F := Ideal)) (launchContents m d) (Proc.devRef .tc main_arg18) = m ((d.tc : Thread nD τ).loc main_arg18) :=
  kept_of (launchContents m d) (by decide) (by decide) (by decide) (by decide) (by decide)

theorem kept_arg19 (m : (ℓ : Loc nD τ sig) → Buf (Elt Ideal) ℓ) (d : Dev nD) :
    after (ops (F := Ideal)) (launchContents m d) (Proc.devRef .tc main_arg19) = m ((d.tc : Thread nD τ).loc main_arg19) :=
  kept_of (launchContents m d) (by decide) (by decide) (by decide) (by decide) (by decide)

theorem kept_arg20 (m : (ℓ : Loc nD τ sig) → Buf (Elt Ideal) ℓ) (d : Dev nD) :
    after (ops (F := Ideal)) (launchContents m d) (Proc.devRef .tc main_arg20) = m ((d.tc : Thread nD τ).loc main_arg20) :=
  kept_of (launchContents m d) (by decide) (by decide) (by decide) (by decide) (by decide)

theorem kept_arg21 (m : (ℓ : Loc nD τ sig) → Buf (Elt Ideal) ℓ) (d : Dev nD) :
    after (ops (F := Ideal)) (launchContents m d) (Proc.devRef .tc main_arg21) = m ((d.tc : Thread nD τ).loc main_arg21) :=
  kept_of (launchContents m d) (by decide) (by decide) (by decide) (by decide) (by decide)

theorem kept_arg22 (m : (ℓ : Loc nD τ sig) → Buf (Elt Ideal) ℓ) (d : Dev nD) :
    after (ops (F := Ideal)) (launchContents m d) (Proc.devRef .tc main_arg22) = m ((d.tc : Thread nD τ).loc main_arg22) :=
  kept_of (launchContents m d) (by decide) (by decide) (by decide) (by decide) (by decide)

theorem kept_arg23 (m : (ℓ : Loc nD τ sig) → Buf (Elt Ideal) ℓ) (d : Dev nD) :
    after (ops (F := Ideal)) (launchContents m d) (Proc.devRef .tc main_arg23) = m ((d.tc : Thread nD τ).loc main_arg23) :=
  kept_of (launchContents m d) (by decide) (by decide) (by decide) (by decide) (by decide)

end Cert.ReferenceIdeal.HandValue

end
-- ==== Proof.lean ====
/-
  The certificate: a graph network of three layers (neighbourhood sum over the edges, two rectified affine maps, row
  normalisation) and two linear heads, computed by four tiled kernels among host operations, against the same network
  written with whole-array operations.

  Frames.  Both kernel programs run, fault-free, and leave their arguments as launched: their runs through the four
  regions and the host stretches between them.  The reference is a line of host operations (its library functions
  listed in place), which runs and writes no argument.

  The idealized kernel is the kernel's own text read over the extended reals: no rewrite was applied, so there is
  nothing to preserve.

  Equal results.  Over the extended reals each layer kernel leaves, on every row, the layer of that row of the summed
  node arrays, and the head kernel the two projections of the rectified rows (tiling the rows by 5000 changes nothing:
  a row's result depends on that row alone).  The reference's whole-array operations give the same row-wise sums: a
  matrix product is the sum over the contracted coordinate on both sides, a row sum starts from zero, and the library
  variance's divisor `128 - 0` is 128 with its guard true.  The neighbourhood sums are the same host operations in
  both programs and are carried as one unopened function.  No law beyond commutativity and associativity of the sums
  is used, so the finiteness of the inputs is never needed.
-/
import proofs.«161493_j33397665693785_1_alg».proof.Defs
import proofs.«161493_j33397665693785_1_alg».proof.Proof.Gen.Kernel
import proofs.«161493_j33397665693785_1_alg».proof.Proof.Gen.Kernel.Frame
import proofs.«161493_j33397665693785_1_alg».proof.Proof.Gen.KernelIdeal
import proofs.«161493_j33397665693785_1_alg».proof.Proof.Gen.KernelIdeal.Frame
import proofs.«161493_j33397665693785_1_alg».proof.Proof.Gen.ReferenceIdeal
import proofs.«161493_j33397665693785_1_alg».proof.Proof.Gen.Pre_finite_inputs
import proofs.«161493_j33397665693785_1_alg».proof.Proof.Bridge
import proofs.«161493_j33397665693785_1_alg».proof.Proof.RefRun
import proofs.«161493_j33397665693785_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: none of its operations writes one. -/
theorem frame_reference : Cert.frame_ReferenceIdeal := fun m ρ _ =>
  (θ_run Cert.ReferenceIdeal.defs _ _).mono (fun _ h c =>
    ⟨(h c _).trans (Cert.ReferenceIdeal.HandValue.kept_arg0 m c),
      (h c _).trans (Cert.ReferenceIdeal.HandValue.kept_arg1 m c),
      (h c _).trans (Cert.ReferenceIdeal.HandValue.kept_arg2 m c),
      (h c _).trans (Cert.ReferenceIdeal.HandValue.kept_arg3 m c),
      (h c _).trans (Cert.ReferenceIdeal.HandValue.kept_arg4 m c),
      (h c _).trans (Cert.ReferenceIdeal.HandValue.kept_arg5 m c),
      (h c _).trans (Cert.ReferenceIdeal.HandValue.kept_arg6 m c),
      (h c _).trans (Cert.ReferenceIdeal.HandValue.kept_arg7 m c),
      (h c _).trans (Cert.ReferenceIdeal.HandValue.kept_arg8 m c),
      (h c _).trans (Cert.ReferenceIdeal.HandValue.kept_arg9 m c),
      (h c _).trans (Cert.ReferenceIdeal.HandValue.kept_arg10 m c),
      (h c _).trans (Cert.ReferenceIdeal.HandValue.kept_arg11 m c),
      (h c _).trans (Cert.ReferenceIdeal.HandValue.kept_arg12 m c),
      (h c _).trans (Cert.ReferenceIdeal.HandValue.kept_arg13 m c),
      (h c _).trans (Cert.ReferenceIdeal.HandValue.kept_arg14 m c),
      (h c _).trans (Cert.ReferenceIdeal.HandValue.kept_arg15 m c),
      (h c _).trans (Cert.ReferenceIdeal.HandValue.kept_arg16 m c),
      (h c _).trans (Cert.ReferenceIdeal.HandValue.kept_arg17 m c),
      (h c _).trans (Cert.ReferenceIdeal.HandValue.kept_arg18 m c),
      (h c _).trans (Cert.ReferenceIdeal.HandValue.kept_arg19 m c),
      (h c _).trans (Cert.ReferenceIdeal.HandValue.kept_arg20 m c),
      (h c _).trans (Cert.ReferenceIdeal.HandValue.kept_arg21 m c),
      (h c _).trans (Cert.ReferenceIdeal.HandValue.kept_arg22 m c),
      (h c _).trans (Cert.ReferenceIdeal.HandValue.kept_arg23 m c)⟩)
    (Cert.ReferenceIdeal.HandRun.run (F := Ideal) m ρ)

/-- Nothing was rewritten. -/
theorem preserves : Cert.preserves_Kernel_KernelIdeal := trivial

/-- From memories that agree on the arguments both programs end with the heads of the three layers of the arguments. -/
theorem algebraic : Cert.algebraic_KernelIdeal_ReferenceIdeal := by
  intro m ρ m' ρ' _ hagree
  refine ⟨fun c => Cert.Bridge.res0 m c, fun c => Cert.Bridge.res1 m c, ?_, ?_⟩
  · exact (θ_run Cert.KernelIdeal.defs _ _).mono (fun r h c =>
      ⟨(h c).1.trans (Cert.Bridge.outputs m ρ c).1, (h c).2.1.trans (Cert.Bridge.outputs m ρ c).2, (h c).2.2⟩)
      (Cert.KernelIdeal.ValueRun.run (F := Ideal) m ρ)
  · refine (θ_run Cert.ReferenceIdeal.defs _ _).mono (fun r h c => ?_) (Cert.ReferenceIdeal.HandRun.run (F := Ideal) m' ρ')
    obtain ⟨e0, e1, e2, e3, e4, e5, e6, e7, e8, e9, e10, e11, e12, e13, e14, e15, e16, e17, e18, e19, e20, e21, e22, e23⟩ := hagree c
    refine ⟨(h c _).trans ((Cert.ReferenceIdeal.HandValue.out0 m' c).trans ?_),
      (h c _).trans ((Cert.ReferenceIdeal.HandValue.out1 m' c).trans ?_),
      (h c _).trans (Cert.ReferenceIdeal.HandValue.kept_arg0 m' c),
      (h c _).trans (Cert.ReferenceIdeal.HandValue.kept_arg1 m' c),
      (h c _).trans (Cert.ReferenceIdeal.HandValue.kept_arg2 m' c),
      (h c _).trans (Cert.ReferenceIdeal.HandValue.kept_arg3 m' c),
      (h c _).trans (Cert.ReferenceIdeal.HandValue.kept_arg4 m' c),
      (h c _).trans (Cert.ReferenceIdeal.HandValue.kept_arg5 m' c),
      (h c _).trans (Cert.ReferenceIdeal.HandValue.kept_arg6 m' c),
      (h c _).trans (Cert.ReferenceIdeal.HandValue.kept_arg7 m' c),
      (h c _).trans (Cert.ReferenceIdeal.HandValue.kept_arg8 m' c),
      (h c _).trans (Cert.ReferenceIdeal.HandValue.kept_arg9 m' c),
      (h c _).trans (Cert.ReferenceIdeal.HandValue.kept_arg10 m' c),
      (h c _).trans (Cert.ReferenceIdeal.HandValue.kept_arg11 m' c),
      (h c _).trans (Cert.ReferenceIdeal.HandValue.kept_arg12 m' c),
      (h c _).trans (Cert.ReferenceIdeal.HandValue.kept_arg13 m' c),
      (h c _).trans (Cert.ReferenceIdeal.HandValue.kept_arg14 m' c),
      (h c _).trans (Cert.ReferenceIdeal.HandValue.kept_arg15 m' c),
      (h c _).trans (Cert.ReferenceIdeal.HandValue.kept_arg16 m' c),
      (h c _).trans (Cert.ReferenceIdeal.HandValue.kept_arg17 m' c),
      (h c _).trans (Cert.ReferenceIdeal.HandValue.kept_arg18 m' c),
      (h c _).trans (Cert.ReferenceIdeal.HandValue.kept_arg19 m' c),
      (h c _).trans (Cert.ReferenceIdeal.HandValue.kept_arg20 m' c),
      (h c _).trans (Cert.ReferenceIdeal.HandValue.kept_arg21 m' c),
      (h c _).trans (Cert.ReferenceIdeal.HandValue.kept_arg22 m' c),
      (h c _).trans (Cert.ReferenceIdeal.HandValue.kept_arg23 m' c)⟩
    · rw [e0, e1, e2, e3, e4, e5, e6, e7, e8, e9, e10, e11, e12, e13, e14, e15, e16, e17, e18, e19, e20, e21, Cert.Bridge.net_eq, Cert.ReferenceIdeal.Read.head_eq]
    · rw [e0, e1, e2, e3, e4, e5, e6, e7, e8, e9, e10, e11, e12, e13, e14, e15, e16, e17, e18, e19, e22, e23, Cert.Bridge.net_eq, Cert.ReferenceIdeal.Read.head_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
